-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024x128 : Shape := ⟨2, ![1024, 128]⟩
abbrev S512 : Shape := ⟨1, ![512]⟩
abbrev S512x1024 : Shape := ⟨2, ![512, 1024]⟩
abbrev S1024 : Shape := ⟨1, ![1024]⟩
abbrev S128 : Shape := ⟨1, ![128]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S128 : S_.BroadcastsInDim S128 (![] : Fin 0 → Fin S128.rank)
  reducesTo_S128_S_d0 : S128.ReducesTo [0] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg14 : FVec F S1024 .f32) (main_arg15 : FVec F S1024 .f32) (main_arg16 : FVec F S1024x128 .f32) (main_arg17 : FVec F S128 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024x128 .f32 := Host.absf main_arg16
  let main_cst_30 : FVec F S_ .f32 := constant S_ .f32 0x7F800000#32
  let main_v80 : FVec F S1024x128 .f32 := broadcastInDim S1024x128 ![] bcast_S_S1024x128 main_cst_30
  let main_v81 : IVec S1024x128 1 := cmpf .olt main_v79 main_v80
  let main_c_31 : IVec S_ 1 := constantI S_ 1 1#1
  let main_v82 : IVec S_ 1 := (fun x v => Host.reduce IntOp.andi x v reducesTo_S1024x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_v83 main_v84 main_cst_32

def fn_part3 {F : FTy → Type} [FloatOps F] (main_arg11 : FVec F S512 .f32) (main_arg12 : FVec F S512x1024 .f32) (main_arg13 : FVec F S1024 .f32) (main_arg14 : FVec F S1024 .f32) (main_arg15 : FVec F S1024 .f32) (main_arg16 : FVec F S1024x128 .f32) (main_arg17 : FVec F S128 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x1024 .f32 := Host.absf main_arg12
  let main_cst_22 : FVec F S_ .f32 := constant S_ .f32 0x7F800000#32
  let main_v60 : FVec F S512x1024 .f32 := broadcastInDim S512x1024 ![] bcast_S_S512x1024 main_cst_22
  let main_v61 : IVec S512x1024 1 := cmpf .olt main_v59 main_v60
  let main_c_23 : IVec S_ 1 := constantI S_ 1 1#1
  let main_v62 : IVec S_ 1 := (fun x v => Host.reduce IntOp.andi x v reducesTo_S512x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_v63 main_v67

def fn_part2 {F : FTy → Type} [FloatOps F] (main_arg7 : FVec F S1024 .f32) (main_arg8 : FVec F S1024x128 .f32) (main_arg9 : FVec F S128 .f32) (main_arg10 : FVec F S512 .f32) (main_arg11 : FVec F S512 .f32) (main_arg12 : FVec F S512x1024 .f32) (main_arg13 : FVec F S1024 .f32) (main_arg14 : FVec F S1024 .f32) (main_arg15 : FVec F S1024 .f32) (main_arg16 : FVec F S1024x128 .f32) (main_arg17 : FVec F S128 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x128 .f32 := Host.absf main_arg8
  let main_cst_14 : FVec F S_ .f32 := constant S_ .f32 0x7F800000#32
  let main_v40 : FVec F S1024x128 .f32 := broadcastInDim S1024x128 ![] bcast_S_S1024x128 main_cst_14
  let main_v41 : IVec S1024x128 1 := cmpf .olt main_v39 main_v40
  let main_c_15 : IVec S_ 1 := constantI S_ 1 1#1
  let main_v42 : IVec S_ 1 := (fun x v => Host.reduce IntOp.andi x v reducesTo_S1024x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_v48 main_v49 main_v50

def fn_part1 {F : FTy → Type} [FloatOps F] (main_arg4 : FVec F S512x1024 .f32) (main_arg5 : FVec F S1024 .f32) (main_arg6 : FVec F S1024 .f32) (main_arg7 : FVec F S1024 .f32) (main_arg8 : FVec F S1024x128 .f32) (main_arg9 : FVec F S128 .f32) (main_arg10 : FVec F S512 .f32) (main_arg11 : FVec F S512 .f32) (main_arg12 : FVec F S512x1024 .f32) (main_arg13 : FVec F S1024 .f32) (main_arg14 : FVec F S1024 .f32) (main_arg15 : FVec F S1024 .f32) (main_arg16 : FVec F S1024x128 .f32) (main_arg17 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S1024x512 .f32) (main_arg1 : FVec F S1024x128 .f32) (main_arg2 : FVec F S512 .f32) (main_arg3 : FVec F S512 .f32) (main_arg4 : FVec F S512x1024 .f32) (main_arg5 : FVec F S1024 .f32) (main_arg6 : FVec F S1024 .f32) (main_arg7 : FVec F S1024 .f32) (main_arg8 : FVec F S1024x128 .f32) (main_arg9 : FVec F S128 .f32) (main_arg10 : FVec F S512 .f32) (main_arg11 : FVec F S512 .f32) (main_arg12 : FVec F S512x1024 .f32) (main_arg13 : FVec F S1024 .f32) (main_arg14 : FVec F S1024 .f32) (main_arg15 : FVec F S1024 .f32) (main_arg16 : FVec F S1024x128 .f32) (main_arg17 : FVec F S128 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S1024x512 : Shape := ⟨2, ![1024, 512]⟩
abbrev S1024x128 : Shape := ⟨2, ![1024, 128]⟩
abbrev S512 : Shape := ⟨1, ![512]⟩
abbrev S512x1024 : Shape := ⟨2, ![512, 1024]⟩
abbrev S1024 : Shape := ⟨1, ![1024]⟩
abbrev S128 : Shape := ⟨1, ![128]⟩
abbrev S2x1024x128 : Shape := ⟨3, ![2, 1024, 128]⟩
abbrev S1x1024x128 : Shape := ⟨3, ![1, 1024, 128]⟩
abbrev S1x512 : Shape := ⟨2, ![1, 512]⟩
abbrev S512x1 : Shape := ⟨2, ![512, 1]⟩
abbrev S1024x1024 : Shape := ⟨2, ![1024, 1024]⟩
abbrev S1x1024 : Shape := ⟨2, ![1, 1024]⟩
abbrev S1024x1 : Shape := ⟨2, ![1024, 1]⟩
abbrev S1x128 : Shape := ⟨2, ![1, 128]⟩
abbrev S_ : Shape := ⟨0, ![]⟩

abbrev nBuf : Space → Nat
  | .hbm => 71
  | .vmem => 19
  | .smem => 0
  | _ => 0

abbrev bufTy : (tb : Table) → Fin (tcTables nBuf tb) → BufTy
  | .hbm, ⟨0, _⟩ => ⟨S1024x512, .f32⟩
  | .hbm, ⟨1, _⟩ => ⟨S1024x128, .f32⟩
  | .hbm, ⟨2, _⟩ => ⟨S512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x128, .f32⟩
  | .hbm, ⟨9, _⟩ => ⟨S128, .f32⟩
  | .hbm, ⟨10, _⟩ => ⟨S512, .f32⟩
  | .hbm, ⟨11, _⟩ => ⟨S512, .f32⟩
  | .hbm, ⟨12, _⟩ => ⟨S512x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024x128, .f32⟩
  | .hbm, ⟨17, _⟩ => ⟨S128, .f32⟩
  | .hbm, ⟨18, _⟩ => ⟨S2x1024x128, .f32⟩
  | .hbm, ⟨19, _⟩ => ⟨S1x1024x128, .f32⟩
  | .hbm, ⟨20, _⟩ => ⟨S1024x128, .f32⟩
  | .hbm, ⟨21, _⟩ => ⟨S1x1024x128, .f32⟩
  | .hbm, ⟨22, _⟩ => ⟨S1024x128, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S1024x128, .f32⟩
  | .hbm, ⟨27, _⟩ => ⟨S_, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S1024x128, .f32⟩
  | .hbm, ⟨35, _⟩ => ⟨S_, .f32⟩
  | .hbm, ⟨36, _⟩ => ⟨S128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S1024x128, .f32⟩
  | .hbm, ⟨42, _⟩ => ⟨S_, .f32⟩
  | .hbm, ⟨43, _⟩ => ⟨S128, .f32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1024x128, .f32⟩
  | .hbm, ⟨51, _⟩ => ⟨S1024x128, .f32⟩
  | .hbm, ⟨52, _⟩ => ⟨S1024x128, .f32⟩
  | .hbm, ⟨53, _⟩ => ⟨S1024x128, .f32⟩
  | .hbm, ⟨54, _⟩ => ⟨S1024x128, .f32⟩
  | .hbm, ⟨55, _⟩ => ⟨S1024x128, .f32⟩
  | .hbm, ⟨56, _⟩ => ⟨S_, .f32⟩
  | .hbm, ⟨57, _⟩ => ⟨S1024x128, .f32⟩
  | .hbm, ⟨58, _⟩ => ⟨S1024x128, .f32⟩
  | .hbm, ⟨59, _⟩ => ⟨S1024x128, .f32⟩
  | .hbm, ⟨60, _⟩ => ⟨S1024x128, .f32⟩
  | .hbm, ⟨61, _⟩ => ⟨S1024x128, .f32⟩
  | .hbm, ⟨62, _⟩ => ⟨S_, .f32⟩
  | .hbm, ⟨63, _⟩ => ⟨S1024, .f32⟩
  | .hbm, ⟨64, _⟩ => ⟨S_, .f32⟩
  | .hbm, ⟨65, _⟩ => ⟨S1024, .f32⟩
  | .hbm, ⟨66, _⟩ => ⟨S1024, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .local _ .vmem, ⟨0, _⟩ => ⟨S1024x512, .f32⟩
  | .local _ .vmem, ⟨1, _⟩ => ⟨S512, .f32⟩
  | .local _ .vmem, ⟨2, _⟩ => ⟨S512, .f32⟩
  | .local _ .vmem, ⟨3, _⟩ => ⟨S512x1024, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024x128, .f32⟩
  | .local _ .vmem, ⟨8, _⟩ => ⟨S128, .f32⟩
  | .local _ .vmem, ⟨9, _⟩ => ⟨S512, .f32⟩
  | .local _ .vmem, ⟨10, _⟩ => ⟨S512, .f32⟩
  | .local _ .vmem, ⟨11, _⟩ => ⟨S512x1024, .f32⟩
  | .local _ .vmem, ⟨12, _⟩ => ⟨S1024, .f32⟩
  | .local _ .vmem, ⟨13, _⟩ => ⟨S1024, .f32⟩
  | .local _ .vmem, ⟨14, _⟩ => ⟨S1024, .f32⟩
  | .local _ .vmem, ⟨15, _⟩ => ⟨S1024x128, .f32⟩
  | .local _ .vmem, ⟨16, _⟩ => ⟨S128, .f32⟩
  | .local _ .vmem, ⟨17, _⟩ => ⟨S1x1024x128, .f32⟩
  | .local _ .vmem, ⟨18, _⟩ => ⟨S1x1024x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_cst_8 : Ref sig .tc := ⟨.hbm, 67, rfl⟩
abbrev main_v40 : Ref sig .tc := ⟨.hbm, 68, rfl⟩
abbrev main_cst_9 : Ref sig .tc := ⟨.hbm, 69, rfl⟩
abbrev main_v41 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg17_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem17_1 : DmaSem sig := 18

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_1 : BitVec 32 := 0#32
  let v3 : BitVec 1 := Scalar.cmpi .ne v2 c0_i32_1
  v3

def k0_cond2 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  inb_S512_S512_0 : ∀ a, (![0] : Fin 1 → Nat) a + S512.size a ≤ S512.size a
  h_S512 : 0 < S512.numel
  inb_S512x1024_S512x1024_0_0 : ∀ a, (![0, 0] : Fin 2 → Nat) a + S512x1024.size a ≤ S512x1024.size a
  h_S512x1024 : 0 < S512x1024.numel
  inb_S1024_S1024_0 : ∀ a, (![0] : Fin 1 → Nat) a + S1024.size a ≤ S1024.size a
  h_S1024 : 0 < S1024.numel
  inb_S1024x128_S1024x128_0_0 : ∀ a, (![0, 0] : Fin 2 → Nat) a + S1024x128.size a ≤ S1024x128.size a
  h_S1024x128 : 0 < S1024x128.numel
  inb_S128_S128_0 : ∀ a, (![0] : Fin 1 → Nat) a + S128.size a ≤ S128.size a
  h_S128 : 0 < S128.numel
  reduces_S1024x512_S512 : S1024x512.Reduces [0] S512
  shapeCasts_S512_S1x512 : S512.ShapeCasts S1x512
  broadcasts_S1x512_S1024x512 : S1x512.Broadcasts S1024x512
  shapeCasts_S512_S512x1 : S512.ShapeCasts S512x1
  broadcasts_S512x1_S512x1024 : S512x1.Broadcasts S512x1024
  reduces_S512x1024_S1024 : S512x1024.Reduces [0] S1024
  bitsLt_bf16_f32 : FTy.bits .bf16 < FTy.bits .f32
  shapeCasts_S1024_S1x1024 : S1024.ShapeCasts S1x1024
  broadcasts_S1x1024_S1024x1024 : S1x1024.Broadcasts S1024x1024
  reduces_S1024x1024_S1024 : S1024x1024.Reduces [0] S1024
  shapeCasts_S1024_S1024x1 : S1024.ShapeCasts S1024x1
  broadcasts_S1024x1_S1024x128 : S1024x1.Broadcasts S1024x128
  reduces_S1024x128_S128 : S1024x128.Reduces [0] S128
  shapeCasts_S128_S1x128 : S128.ShapeCasts S1x128
  broadcasts_S1x128_S1024x128 : S1x128.Broadcasts S1024x128
  shapeCasts_S1024x128_S1x1024x128 : S1024x128.ShapeCasts S1x1024x128
  inb_S1x1024x128_S1x1024x128_0_0_0 : ∀ a, (![0, 0, 0] : Fin 3 → Nat) a + S1x1024x128.size a ≤ S1x1024x128.size a
  h_S1x1024x128 : 0 < S1x1024x128.numel
  slices_S2x1024x128_S1x1024x128_0_0_0 : S2x1024x128.Slices ![0, 0, 0] S1x1024x128
  shapeCasts_S1x1024x128_S1024x128 : S1x1024x128.ShapeCasts S1024x128
  slices_S2x1024x128_S1x1024x128_1_0_0 : S2x1024x128.Slices ![1, 0, 0] S1x1024x128
  bcast_S_S1024x128 : S_.BroadcastsInDim S1024x128 (![] : Fin 0 → Fin S1024x128.rank)
  reducesTo_S1024x128_S128_d0 : S1024x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S1024x128_0_1 : S1x128.BroadcastsInDim S1024x128 (![0, 1] : Fin 2 → Fin S1024x128.rank)
  reducesTo_S1024x128_S1024_d1 : S1024x128.ReducesTo [1] S1024
  reducesTo_S1024_S_d0 : S1024.ReducesTo [0] S_
  dot_S1024x512_S512x1024_S1024x1024_1_0_0_1_n_n_wf : DotDims.WF S1024x512 S512x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .f32 = 32 ∨ (Rect.block (s := S512) S512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .f32 = 32 ∨ (Rect.block (s := S512x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S1024x128.size a
  hwx0_7 : ∀ i : grid0.Coords, EltTy.bits .f32 = 32 ∨ (Rect.block (s := S1024x128) S1024x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S512x1024.size a
  hwx0_11 : ∀ i : grid0.Coords, EltTy.bits .f32 = 32 ∨ (Rect.block (s := S512x1024) S512x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024.size a ≤ S1024.size a
  hwx0_12 : ∀ i : grid0.Coords, EltTy.bits .f32 = 32 ∨ (Rect.block (s := S1024) S1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024.size a ≤ S1024.size a
  hwx0_13 : ∀ i : grid0.Coords, EltTy.bits .f32 = 32 ∨ (Rect.block (s := S1024) S1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024.size a ≤ S1024.size a
  hwx0_14 : ∀ i : grid0.Coords, EltTy.bits .f32 = 32 ∨ (Rect.block (s := S1024) S1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024x128.size a ≤ S1024x128.size a
  hwx0_15 : ∀ i : grid0.Coords, EltTy.bits .f32 = 32 ∨ (Rect.block (s := S1024x128) S1024x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x1024x128.size a ≤ S2x1024x128.size a
  hwx0_17 : ∀ i : grid0.Coords, EltTy.bits .f32 = 32 ∨ (Rect.block (s := S2x1024x128) S1x1024x128.size (cc0_transform_17 i) (hinb0_17 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1024x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S512x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg16) S1024x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg17) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v0) S1x1024x128.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev idle0 : Fin 18 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun i => !(k0_cond1 i == 1#1) && !(k0_cond2 i == 1#1) | ⟨_ + 18, h⟩ => absurd h (Nat.not_lt.2 (Nat.le_add_left _ _))

class Facts : Prop extends Facts₀ where

variable [Facts]
-- ==== ReferenceIdeal.lean ====
abbrev S1024x512 : Shape := ⟨2, ![1024, 512]⟩
abbrev S1024x128 : Shape := ⟨2, ![1024, 128]⟩
abbrev S512 : Shape := ⟨1, ![512]⟩
abbrev S512x1024 : Shape := ⟨2, ![512, 1024]⟩
abbrev S1024 : Shape := ⟨1, ![1024]⟩
abbrev S128 : Shape := ⟨1, ![128]⟩
abbrev S_ : Shape := ⟨0, ![]⟩
abbrev S1x512 : Shape := ⟨2, ![1, 512]⟩
abbrev S1024x1024 : Shape := ⟨2, ![1024, 1024]⟩
abbrev S1x1024 : Shape := ⟨2, ![1, 1024]⟩
abbrev S1x128 : Shape := ⟨2, ![1, 128]⟩
abbrev S1x1024x128 : Shape := ⟨3, ![1, 1024, 128]⟩
abbrev S1024x1x128 : Shape := ⟨3, ![1024, 1, 128]⟩
abbrev S1024x1024x128 : Shape := ⟨3, ![1024, 1024, 128]⟩

abbrev nBuf : Space → Nat
  | .hbm => 199
  | .vmem => 0
  | .smem => 0
  | _ => 0

abbrev hbmTy0_0 (i : Nat) : BufTy := match i % 128 with
  | 0 => ⟨S1024x512, .f32⟩
  | 1 => ⟨S1024x128, .f32⟩
  | 2 => ⟨S512, .f32⟩
  | 3 => ⟨S512, .f32⟩
  | 4 => ⟨S512x1024, .f32⟩
  | 5 => ⟨S1024, .f32⟩
  | 6 => ⟨S1024, .f32⟩
  | 7 => ⟨S1024, .f32⟩
  | 8 => ⟨S1024x128, .f32⟩
  | 9 => ⟨S128, .f32⟩
  | 10 => ⟨S512, .f32⟩
  | 11 => ⟨S512, .f32⟩
  | 12 => ⟨S512x1024, .f32⟩
  | 13 => ⟨S1024, .f32⟩
  | 14 => ⟨S1024, .f32⟩
  | 15 => ⟨S1024, .f32⟩
  | 16 => ⟨S1024x128, .f32⟩
  | 17 => ⟨S128, .f32⟩
  | 18 => ⟨S_, .f32⟩
  | 19 => ⟨S512, .f32⟩
  | 20 => ⟨S_, .f32⟩
  | 21 => ⟨S512, .f32⟩
  | 22 => ⟨S512, .f32⟩
  | 23 => ⟨S1x512, .f32⟩
  | 24 => ⟨S1024x512, .f32⟩
  | 25 => ⟨S1024x512, .f32⟩
  | 26 => ⟨S1024x512, .f32⟩
  | 27 => ⟨S_, .f32⟩
  | 28 => ⟨S512, .f32⟩
  | 29 => ⟨S_, .f32⟩
  | 30 => ⟨S512, .f32⟩
  | 31 => ⟨S512, .f32⟩
  | 32 => ⟨S1x512, .f32⟩
  | 33 => ⟨S1024x512, .f32⟩
  | 34 => ⟨S1024x512, .f32⟩
  | 35 => ⟨S_, .f32⟩
  | 36 => ⟨S512, .f32⟩
  | 37 => ⟨S512, .f32⟩
  | 38 => ⟨S512, .f32⟩
  | 39 => ⟨S1x512, .f32⟩
  | 40 => ⟨S1024x512, .f32⟩
  | 41 => ⟨S1024x512, .f32⟩
  | 42 => ⟨S1x512, .f32⟩
  | 43 => ⟨S1024x512, .f32⟩
  | 44 => ⟨S1024x512, .f32⟩
  | 45 => ⟨S1x512, .f32⟩
  | 46 => ⟨S1024x512, .f32⟩
  | 47 => ⟨S1024x512, .f32⟩
  | 48 => ⟨S1024x1024, .f32⟩
  | 49 => ⟨S1x1024, .f32⟩
  | 50 => ⟨S1024x1024, .f32⟩
  | 51 => ⟨S1024x1024, .f32⟩
  | 52 => ⟨S_, .f32⟩
  | 53 => ⟨S1024x1024, .f32⟩
  | 54 => ⟨S1024x1024, .f32⟩
  | 55 => ⟨S_, .f32⟩
  | 56 => ⟨S1024, .f32⟩
  | 57 => ⟨S_, .f32⟩
  | 58 => ⟨S1024, .f32⟩
  | 59 => ⟨S1024, .f32⟩
  | 60 => ⟨S1x1024, .f32⟩
  | 61 => ⟨S1024x1024, .f32⟩
  | 62 => ⟨S1024x1024, .f32⟩
  | 63 => ⟨S1024x1024, .f32⟩
  | 64 => ⟨S_, .f32⟩
  | 65 => ⟨S1024, .f32⟩
  | 66 => ⟨S_, .f32⟩
  | 67 => ⟨S1024, .f32⟩
  | 68 => ⟨S1024, .f32⟩
  | 69 => ⟨S1x1024, .f32⟩
  | 70 => ⟨S1024x1024, .f32⟩
  | 71 => ⟨S1024x1024, .f32⟩
  | 72 => ⟨S_, .f32⟩
  | 73 => ⟨S1024, .f32⟩
  | 74 => ⟨S1024, .f32⟩
  | 75 => ⟨S1024, .f32⟩
  | 76 => ⟨S1x1024, .f32⟩
  | 77 => ⟨S1024x1024, .f32⟩
  | 78 => ⟨S1024x1024, .f32⟩
  | 79 => ⟨S1x1024, .f32⟩
  | 80 => ⟨S1024x1024, .f32⟩
  | 81 => ⟨S1024x1024, .f32⟩
  | 82 => ⟨S1x1024, .f32⟩
  | 83 => ⟨S1024x1024, .f32⟩
  | 84 => ⟨S1024x1024, .f32⟩
  | 85 => ⟨S1024x128, .f32⟩
  | 86 => ⟨S1x128, .f32⟩
  | 87 => ⟨S1024x128, .f32⟩
  | 88 => ⟨S1024x128, .f32⟩
  | 89 => ⟨S_, .f32⟩
  | 90 => ⟨S512, .f32⟩
  | 91 => ⟨S_, .f32⟩
  | 92 => ⟨S512, .f32⟩
  | 93 => ⟨S512, .f32⟩
  | 94 => ⟨S1x512, .f32⟩
  | 95 => ⟨S1024x512, .f32⟩
  | 96 => ⟨S1024x512, .f32⟩
  | 97 => ⟨S1024x512, .f32⟩
  | 98 => ⟨S_, .f32⟩
  | 99 => ⟨S512, .f32⟩
  | 100 => ⟨S_, .f32⟩
  | 101 => ⟨S512, .f32⟩
  | 102 => ⟨S512, .f32⟩
  | 103 => ⟨S1x512, .f32⟩
  | 104 => ⟨S1024x512, .f32⟩
  | 105 => ⟨S1024x512, .f32⟩
  | 106 => ⟨S_, .f32⟩
  | 107 => ⟨S512, .f32⟩
  | 108 => ⟨S512, .f32⟩
  | 109 => ⟨S512, .f32⟩
  | 110 => ⟨S1x512, .f32⟩
  | 111 => ⟨S1024x512, .f32⟩
  | 112 => ⟨S1024x512, .f32⟩
  | 113 => ⟨S1x512, .f32⟩
  | 114 => ⟨S1024x512, .f32⟩
  | 115 => ⟨S1024x512, .f32⟩
  | 116 => ⟨S1x512, .f32⟩
  | 117 => ⟨S1024x512, .f32⟩
  | 118 => ⟨S1024x512, .f32⟩
  | 119 => ⟨S1024x1024, .f32⟩
  | 120 => ⟨S1x1024, .f32⟩
  | 121 => ⟨S1024x1024, .f32⟩
  | 122 => ⟨S1024x1024, .f32⟩
  | 123 => ⟨S_, .f32⟩
  | 124 => ⟨S1024x1024, .f32⟩
  | 125 => ⟨S1024x1024, .f32⟩
  | 126 => ⟨S_, .f32⟩
  | 127 => ⟨S1024, .f32⟩
  | _ => ⟨S1024x512, .f32⟩

abbrev hbmTy0_1 (i : Nat) : BufTy := match i % 128 with
  | 0 => ⟨S_, .f32⟩
  | 1 => ⟨S1024, .f32⟩
  | 2 => ⟨S1024, .f32⟩
  | 3 => ⟨S1x1024, .f32⟩
  | 4 => ⟨S1024x1024, .f32⟩
  | 5 => ⟨S1024x1024, .f32⟩
  | 6 => ⟨S1024x1024, .f32⟩
  | 7 => ⟨S_, .f32⟩
  | 8 => ⟨S1024, .f32⟩
  | 9 => ⟨S_, .f32⟩
  | 10 => ⟨S1024, .f32⟩
  | 11 => ⟨S1024, .f32⟩
  | 12 => ⟨S1x1024, .f32⟩
  | 13 => ⟨S1024x1024, .f32⟩
  | 14 => ⟨S1024x1024, .f32⟩
  | 15 => ⟨S_, .f32⟩
  | 16 => ⟨S1024, .f32⟩
  | 17 => ⟨S1024, .f32⟩
  | 18 => ⟨S1024, .f32⟩
  | 19 => ⟨S1x1024, .f32⟩
  | 20 => ⟨S1024x1024, .f32⟩
  | 21 => ⟨S1024x1024, .f32⟩
  | 22 => ⟨S1x1024, .f32⟩
  | 23 => ⟨S1024x1024, .f32⟩
  | 24 => ⟨S1024x1024, .f32⟩
  | 25 => ⟨S1x1024, .f32⟩
  | 26 => ⟨S1024x1024, .f32⟩
  | 27 => ⟨S1024x1024, .f32⟩
  | 28 => ⟨S1024x128, .f32⟩
  | 29 => ⟨S1x128, .f32⟩
  | 30 => ⟨S1024x128, .f32⟩
  | 31 => ⟨S1024x128, .f32⟩
  | 32 => ⟨S1024x128, .f32⟩
  | 33 => ⟨S1024x128, .f32⟩
  | 34 => ⟨S1024x128, .f32⟩
  | 35 => ⟨S1024x128, .f32⟩
  | 36 => ⟨S_, .f32⟩
  | 37 => ⟨S1024x128, .f32⟩
  | 38 => ⟨S1024x128, .f32⟩
  | 39 => ⟨S_, .f32⟩
  | 40 => ⟨S1024x128, .f32⟩
  | 41 => ⟨S1024x128, .f32⟩
  | 42 => ⟨S1024x128, .f32⟩
  | 43 => ⟨S1024x128, .f32⟩
  | 44 => ⟨S1x1024x128, .f32⟩
  | 45 => ⟨S1024x1x128, .f32⟩
  | 46 => ⟨S1024x1024x128, .f32⟩
  | 47 => ⟨S1024x1024x128, .f32⟩
  | 48 => ⟨S1024x1024x128, .f32⟩
  | 49 => ⟨S1024x1024x128, .f32⟩
  | 50 => ⟨S_, .f32⟩
  | 51 => ⟨S1024x128, .f32⟩
  | 52 => ⟨S_, .f32⟩
  | 53 => ⟨S1024x128, .f32⟩
  | 54 => ⟨S1024x128, .f32⟩
  | 55 => ⟨S1024x128, .f32⟩
  | 56 => ⟨S_, .f32⟩
  | 57 => ⟨S1024x128, .f32⟩
  | 58 => ⟨S1024x128, .f32⟩
  | 59 => ⟨S1024x128, .f32⟩
  | 60 => ⟨S1024x128, .f32⟩
  | 61 => ⟨S1024x128, .f32⟩
  | 62 => ⟨S_, .f32⟩
  | 63 => ⟨S1024, .f32⟩
  | 64 => ⟨S_, .f32⟩
  | 65 => ⟨S1024, .f32⟩
  | 66 => ⟨S1024, .f32⟩
  | 67 => ⟨S_, .f32⟩
  | 68 => ⟨S_, .f32⟩
  | 69 => ⟨S_, .f32⟩
  | 70 => ⟨S_, .f32⟩
  | _ => ⟨S1024x512, .f32⟩

abbrev hbmTy (i : Nat) : BufTy := match i / 128 with
  | 0 => hbmTy0_0 i
  | 1 => hbmTy0_1 i
  | _ => ⟨S1024x512, .f32⟩

abbrev bufTy : (tb : Table) → Fin (tcTables nBuf tb) → BufTy
  | .hbm, ⟨i, _⟩ => hbmTy i
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_cst_2 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call0_cst : Ref sig .tc := ⟨.hbm, 52, rfl⟩
abbrev main_call0_v0 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_cst_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_11 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_13 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_call1_cst : Ref sig .tc := ⟨.hbm, 123, rfl⟩
abbrev main_call1_v0 : Ref sig .tc := ⟨.hbm, 124, rfl⟩
abbrev main_v88 : Ref sig .tc := ⟨.hbm, 125, rfl⟩
abbrev main_cst_14 : Ref sig .tc := ⟨.hbm, 126, rfl⟩
abbrev main_v89 : Ref sig .tc := ⟨.hbm, 127, rfl⟩
abbrev main_cst_15 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_16 : Ref sig .tc := ⟨.hbm, 135, rfl⟩
abbrev main_v96 : Ref sig .tc := ⟨.hbm, 136, rfl⟩
abbrev main_cst_17 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_18 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_19 : Ref sig .tc := ⟨.hbm, 164, rfl⟩
abbrev main_v122 : Ref sig .tc := ⟨.hbm, 165, rfl⟩
abbrev main_v123 : Ref sig .tc := ⟨.hbm, 166, rfl⟩
abbrev main_cst_20 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_cst_21 : Ref sig .tc := ⟨.hbm, 178, rfl⟩
abbrev main_v134 : Ref sig .tc := ⟨.hbm, 179, rfl⟩
abbrev main_cst_22 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_23 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_24 : Ref sig .tc := ⟨.hbm, 190, rfl⟩
abbrev main_v143 : Ref sig .tc := ⟨.hbm, 191, rfl⟩
abbrev main_cst_25 : Ref sig .tc := ⟨.hbm, 192, rfl⟩
abbrev main_v144 : Ref sig .tc := ⟨.hbm, 193, rfl⟩
abbrev main_v145 : Ref sig .tc := ⟨.hbm, 194, rfl⟩
abbrev main_cst_26 : Ref sig .tc := ⟨.hbm, 195, rfl⟩
abbrev main_v146 : Ref sig .tc := ⟨.hbm, 196, rfl⟩
abbrev main_cst_27 : Ref sig .tc := ⟨.hbm, 197, rfl⟩
abbrev main_v147 : Ref sig .tc := ⟨.hbm, 198, rfl⟩

abbrev nD : Nat := 1
abbrev τ : Topo := Topo.v7x

variable {F : FTy → Type} [FloatOps F]

class Facts₀ : Prop where
  reducesTo_S1024x512_S512_d0 : S1024x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  reducesTo_S1024x1024_S1024_d0 : S1024x1024.ReducesTo [0] S1024
  bcast_S_S1024 : S_.BroadcastsInDim S1024 (![] : Fin 0 → Fin S1024.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S1024x128_S1x1024x128_1_2 : S1024x128.BroadcastsInDim S1x1024x128 (![1, 2] : Fin 2 → Fin S1x1024x128.rank)
  bcast_S1024x128_S1024x1x128_0_2 : S1024x128.BroadcastsInDim S1024x1x128 (![0, 2] : Fin 2 → Fin S1024x1x128.rank)
  bcast_S1x1024x128_S1024x1024x128_0_1_2 : S1x1024x128.BroadcastsInDim S1024x1024x128 (![0, 1, 2] : Fin 3 → Fin S1024x1024x128.rank)
  bcast_S1024x1x128_S1024x1024x128_0_1_2 : S1024x1x128.BroadcastsInDim S1024x1024x128 (![0, 1, 2] : Fin 3 → Fin S1024x1024x128.rank)
  reducesTo_S1024x1024x128_S1024x128_d1 : S1024x1024x128.ReducesTo [1] S1024x128
  reducesTo_S1024x128_S1024_d1 : S1024x128.ReducesTo [1] S1024
  reducesTo_S1024_S_d0 : S1024.ReducesTo [0] S_
  dot_S1024x512_S512x1024_S1024x1024_1_0_0_1_n_n_wf : DotDims.WF S1024x512 S512x1024 S1024x1024 [1] [0] [0] [1] [] []
  dot_S1024x1024_S1024x128_S1024x128_1_0_0_1_n_n_wf : DotDims.WF S1024x1024 S1024x128 S1024x128 [1] [0] [0] [1] [] []

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

class Facts : Prop extends Facts₀ where

variable [Facts]
-- ==== Proof.Spec.lean ====
/-
  The two heads and the loss as functions of the argument arrays, over the extended reals.

  A head is BatchNorm → Linear → ReLU → BatchNorm → Linear with training-mode (biased) batch statistics
  taken down the rows. One layer is written in two ways: with the affine part of the normalisation applied
  to the activations before the product (`layerRef`), and with it folded into the weights and the bias
  (`layerFold`). The pairwise term, the mean over `j` of `(y j − mu i)²`, is likewise written directly
  (`pairRef`) and through the variance of `y` (`pairFold`). `D` is the number of rows as a float, `E` the
  stabiliser under the square root.
-/
import Idealize.ShloMosaic.PureOps.Ideal
import Idealize.ShloMosaic.Lib.ValueIdx

noncomputable section

namespace Cert.Club

open Idealize.ShloMosaic Idealize.ShloMosaic.ValueIdx

variable {R A B C : Type} [Fintype R] [Fintype A] [Fintype B] [Fintype C]

/-- The mean of column `k` down the rows. -/
def colMean (D : EReal) (x : R → A → EReal) (k : A) : EReal := Ideal.div (∑ n, x n k) D

/-- The biased variance of column `k`: the mean of the squared deviations from the column mean. -/
def colVar (D : EReal) (x : R → A → EReal) (k : A) : EReal :=
  Ideal.div (∑ n, (x n k - colMean D x k) * (x n k - colMean D x k)) D

/-- The centred and scaled entry: `(x − mean) · (var + E)^(-1/2)`. -/
def normed (D E : EReal) (x : R → A → EReal) (n : R) (k : A) : EReal :=
  (x n k - colMean D x k) * Ideal.rsqrt (colVar D x k + E)

/-- One layer, the affine map `· g + b` applied to the normalised activations before the product with `W`. -/
def layerRef (D E : EReal) (x : R → A → EReal) (g b : A → EReal) (W : A → B → EReal) (c : B → EReal)
    (n : R) (j : B) : EReal :=
  (∑ k, (normed D E x n k * g k + b k) * W k j) + c j

/-- One layer, the affine map folded into the weights (`g k · W k j`) and into the bias (`∑ b k · W k j + c j`). -/
def layerFold (D E : EReal) (x : R → A → EReal) (g b : A → EReal) (W : A → B → EReal) (c : B → EReal)
    (n : R) (j : B) : EReal :=
  (∑ k, normed D E x n k * (g k * W k j)) + ((∑ k, b k * W k j) + c j)

/-- The positive part. -/
def relu (h : R → B → EReal) (n : R) (j : B) : EReal := max (h n j) 0

/-- A head, both layers in the direct form. -/
def headRef (D E : EReal) (x : R → A → EReal) (g1 b1 : A → EReal) (W1 : A → B → EReal) (c1 : B → EReal)
    (g2 b2 : B → EReal) (W2 : B → C → EReal) (c2 : C → EReal) : R → C → EReal :=
  layerRef D E (relu (layerRef D E x g1 b1 W1 c1)) g2 b2 W2 c2

/-- A head, both layers in the folded form. -/
def headFold (D E : EReal) (x : R → A → EReal) (g1 b1 : A → EReal) (W1 : A → B → EReal) (c1 : B → EReal)
    (g2 b2 : B → EReal) (W2 : B → C → EReal) (c2 : C → EReal) : R → C → EReal :=
  layerFold D E (relu (layerFold D E x g1 b1 W1 c1)) g2 b2 W2 c2

/-- The pairwise term written directly: the mean over `j` of `(y j c − mu i c)²`. -/
def pairRef (D : EReal) (y mu : R → C → EReal) (i : R) (c : C) : EReal :=
  Ideal.div (∑ j, (y j c - mu i c) * (y j c - mu i c)) D

/-- The pairwise term through the variance of `y`: `(E[y²] − E[y]²) + (mu i c − E[y])²`. -/
def pairFold (D : EReal) (y mu : R → C → EReal) (i : R) (c : C) : EReal :=
  (Ideal.div (∑ j, y j c * y j c) D - colMean D y c * colMean D y c)
    + (mu i c - colMean D y c) * (mu i c - colMean D y c)

/-- The loss from the two heads' outputs `mu`, `lv` (before its `tanh`) and the pairwise term `pm`:
    the mean over the rows of `∑_c positive − ∑_c negative`. `H` is the factor one half, `M2` the factor −2. -/
def loss (D H M2 : EReal) (y mu lv pm : R → C → EReal) : EReal :=
  Ideal.div (∑ n, ((∑ c, ((-((mu n c - y n c) * (mu n c - y n c))) * H) * Ideal.exp (M2 * Ideal.tanh (lv n c)))
      - (∑ c, ((-(pm n c)) * H) * Ideal.exp (-(Ideal.tanh (lv n c)))))) D

/-! ## The literals, and arrays as functions of their coordinates -/

/-- The number of rows, 1024, as the single-precision pattern both programs divide by. -/
abbrev cD : EReal := Ideal.ofBits .f32 0x44800000#32
/-- The stabiliser under the square root (the single-precision value nearest 1e-5). -/
abbrev cE : EReal := Ideal.ofBits .f32 0x3727C5AC#32
/-- One half. -/
abbrev cH : EReal := Ideal.ofBits .f32 0x3F000000#32
/-- Minus two. -/
abbrev cM2 : EReal := Ideal.ofBits .f32 0xC0000000#32

/-- A two-axis array as a function of its two coordinates. -/
def mat2 {a b : ℕ} (x : (⟨2, ![a, b]⟩ : Shape).Idx → EReal) (p : Fin a) (q : Fin b) : EReal := x (ix2 p q)
/-- A one-axis array as a function of its coordinate. -/
def vec1 {a : ℕ} (x : (⟨1, ![a]⟩ : Shape).Idx → EReal) (p : Fin a) : EReal := x (ix1 p)

end Cert.Club

end
-- ==== Proof.LibFinite.lean ====
/-
  Real-valuedness inside the extended reals, and the operations that keep it.

  An extended real is REAL when it is the image of a real number, i.e. it is neither of the two infinities.  The
  distributive law `x * (a + b) = x * a + x * b` holds on the extended reals only off the infinities, so a proof that
  regroups sums of products first has to know that everything in sight is real.  This file collects the closure facts:
  sums, products, maxima, negations, finite sums and quotients by a real that is at least one stay real; an accumulating
  scatter of real updates into a real operand is real at every index, and so is any gather of a real operand (a gathered
  element is an element of the operand); the mean of a segment — an accumulated sum divided by a count clamped from
  below by one — is real; and a product of a real row with a sum of two or three real rows distributes.
-/
import Idealize.ShloMosaic.Lib.ValueIdx
import Idealize.ShloMosaic.Lib.IdealHost
import Idealize.ShloMosaic.Lib.KernelVsHost

noncomputable section

open scoped BigOperators

namespace Cert.Finite

open Idealize.ShloMosaic

/-! ## Real extended reals -/

/-- An extended real is real when it is the image of a real number. -/
def IsReal (x : EReal) : Prop := ∃ r : ℝ, x = (r : EReal)

theorem isReal_coe (r : ℝ) : IsReal (r : EReal) := ⟨r, rfl⟩

/-- Real means: neither infinity. -/
theorem isReal_iff (x : EReal) : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | coe r => exact ⟨r, rfl⟩
    | top => exact absurd rfl ht

theorem IsReal.ne_top {x : EReal} (h : IsReal x) : x ≠ ⊤ := ((isReal_iff x).mp h).2

theorem IsReal.ne_bot {x : EReal} (h : IsReal x) : x ≠ ⊥ := ((isReal_iff x).mp h).1

/-- Strictly between the infinities means real. -/
theorem isReal_of_lt {x : EReal} (hb : ⊥ < x) (ht : x < ⊤) : IsReal x :=
  (isReal_iff x).mpr ⟨ne_of_gt hb, ne_of_lt ht⟩

theorem isReal_zero : IsReal 0 := ⟨0, EReal.coe_zero.symm⟩

theorem isReal_one : IsReal 1 := ⟨1, EReal.coe_one.symm⟩

/-- The single-precision pattern of all zeros is the real zero. -/
theorem isReal_ofBits_zero_f32 : IsReal (Ideal.ofBits .f32 0x00000000#32) := by
  rw [Ideal.ofBits_zero_f32]; exact isReal_zero

/-- The single-precision pattern `0x3F800000` is the real one. -/
theorem isReal_ofBits_one_f32 : IsReal (Ideal.ofBits .f32 0x3F800000#32) := by
  rw [Ideal.ofBits_one_f32]; exact isReal_one

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.neg {a : EReal} (ha : IsReal a) : IsReal (-a) := by
  obtain ⟨r, rfl⟩ := ha
  exact ⟨-r, (EReal.coe_neg r).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The larger of two reals is one of them. -/
theorem IsReal.max {a b : EReal} (ha : IsReal a) (hb : IsReal b) : IsReal (max a b) := by
  rcases le_total a b with h | h
  · rw [max_eq_right h]; exact hb
  · rw [max_eq_left h]; exact ha

/-- The smaller of two reals is one of them. -/
theorem IsReal.min {a b : EReal} (ha : IsReal a) (hb : IsReal b) : IsReal (min a b) := by
  rcases le_total a b with h | h
  · rw [min_eq_left h]; exact ha
  · rw [min_eq_right h]; exact hb

/-- A finite sum of reals is real. -/
theorem IsReal.sum {ι : Type*} (S : Finset ι) (f : ι → EReal) (h : ∀ k ∈ S, IsReal (f k)) :
    IsReal (∑ k ∈ S, f k) := by
  classical
  induction S using Finset.induction_on with
  | empty => rw [Finset.sum_empty]; exact isReal_zero
  | insert a S ha ih =>
    rw [Finset.sum_insert ha]
    exact (h a (Finset.mem_insert_self a S)).add (ih fun k hk => h k (Finset.mem_insert_of_mem hk))

/-- A sum of reals over a whole finite type is real. -/
theorem IsReal.sum_univ {ι : Type*} [Fintype ι] (f : ι → EReal) (h : ∀ k, IsReal (f k)) : IsReal (∑ k, f k) :=
  IsReal.sum Finset.univ f fun k _ => h k

/-- A sum of reals over `Fin n` is real. -/
theorem IsReal.sum_fin {n : Nat} (f : Fin n → EReal) (h : ∀ k, IsReal (f k)) : IsReal (∑ k : Fin n, f k) :=
  IsReal.sum_univ f h

/-- A real divided by a real that is at least one is real: the divisor is a nonzero real, and division by a nonzero
    real is the product with its reciprocal. -/
theorem IsReal.div {a b : EReal} (ha : IsReal a) (hb : IsReal b) (h1 : 1 ≤ b) : IsReal (Ideal.div a b) := by
  obtain ⟨r, rfl⟩ := ha
  obtain ⟨s, rfl⟩ := hb
  have hs1 : (1 : ℝ) ≤ s := by exact_mod_cast h1
  have hs : s ≠ 0 := by linarith
  rw [Ideal.div_coe hs]
  exact ⟨r * (1 / s), (EReal.coe_mul r (1 / s)).symm⟩

/-- A real divided by a real count clamped from below by one is real. -/
theorem isReal_div_max_one {a d : EReal} (ha : IsReal a) (hd : IsReal d) : IsReal (Ideal.div a (max d 1)) :=
  ha.div (hd.max isReal_one) (le_max_right d 1)

/-- The same with the one spelled as its single-precision pattern: THE SEGMENT MEAN IS REAL. -/
theorem isReal_div_max_ofBits_one {a d : EReal} (ha : IsReal a) (hd : IsReal d) :
    IsReal (Ideal.div a (max d (Ideal.ofBits .f32 0x3F800000#32))) := by
  rw [Ideal.ofBits_one_f32]; exact isReal_div_max_one ha hd

/-! ## The accumulating scatter and the gather keep realness -/

/-- An accumulating scatter read at an index: the operand's element plus the sum of the updates that land there. -/
theorem scatterAdd_apply {s si u : Shape} {φ : FTy} {w : Nat} (d : ScatterDims s si u) (x : FVec Ideal s φ)
    (idx : IVec si w) (upd : FVec Ideal u φ) (i : s.Idx) :
    Host.scatterAdd d x idx upd i
      = x i + ∑ j ∈ Finset.univ.filter (fun j => d.resultIdx? j idx = some i), upd j := by
  simp only [Host.scatterAdd, Ideal.hostScatterAdd_def, Ideal.hostScatterAdd]

/-- An accumulating scatter of real updates into a real operand is real at every index, whatever the dimension
    numbers and the indices: each element is the operand's plus a finite sum of updates. -/
theorem scatterAdd_isReal {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  rw [scatterAdd_apply]
  exact (hx i).add (IsReal.sum _ _ fun j _ => hu j)

/-- Scattering ones into zeros counts: every element is a nonnegative real (the number of updates landing there). -/
theorem scatterAdd_count_nonneg {s si u : Shape} {φ : FTy} {w : Nat} (d : ScatterDims s si u) (x : FVec Ideal s φ)
    (idx : IVec si w) (upd : FVec Ideal u φ) (hx : ∀ i, x i = 0) (hu : ∀ j, upd j = 1) (i : s.Idx) :
    0 ≤ Host.scatterAdd d x idx upd i := by
  rw [scatterAdd_apply, hx i, zero_add]
  exact Finset.sum_nonneg fun j _ => by rw [hu j]; exact zero_le_one

/-- The count is real … -/
theorem scatterAdd_count_isReal {s si u : Shape} {φ : FTy} {w : Nat} (d : ScatterDims s si u) (x : FVec Ideal s φ)
    (idx : IVec si w) (upd : FVec Ideal u φ) (hx : ∀ i, x i = 0) (hu : ∀ j, upd j = 1) (i : s.Idx) :
    IsReal (Host.scatterAdd d x idx upd i) :=
  scatterAdd_isReal d x idx upd (fun i => by rw [hx i]; exact isReal_zero) (fun j => by rw [hu j]; exact isReal_one) i

/-- … and clamped from below by one it is a real that is at least one: a divisor that keeps quotients real. -/
theorem scatterAdd_count_max_one {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (max (Host.scatterAdd d x idx upd i) 1) ∧ 1 ≤ max (Host.scatterAdd d x idx upd i) 1 :=
  ⟨(scatterAdd_isReal d x idx upd hx hu i).max isReal_one, le_max_right _ _⟩

/-- A gather of a real operand is real at every index, whatever the dimension numbers and the start indices: a
    gathered element is an element of the operand. -/
theorem gather_isReal {s si t : Shape} {w : Nat} (d : GatherDims s si t) (x : s.Idx → EReal) (idx : IVec si w)
    (hx : ∀ i, IsReal (x i)) (j : t.Idx) : IsReal (Host.gather d x idx j) := by
  unfold Host.gather
  exact hx _

/-- THE SEGMENT MEAN IS REAL, assembled: gather rows of a real matrix, accumulate them into a real accumulator, and
    divide by a real count clamped from below by one (spelled with the pattern of one). -/
theorem segment_mean_isReal {s si t s' si' u' : Shape} {φ : FTy} {w w' : Nat}
    (g : GatherDims s si t) (X : s.Idx → EReal) (idx1 : IVec si w)
    {si2 : Shape} {w2 : Nat} {sa : Shape} (d2 : ScatterDims sa si2 t) (Z : FVec Ideal sa φ) (idx2 : IVec si2 w2)
    (d1 : ScatterDims s' si' u') (Z1 : FVec Ideal s' φ) (idx1' : IVec si' w') (Ones : FVec Ideal u' φ)
    (hX : ∀ i, IsReal (X i)) (hZ : ∀ i, IsReal (Z i)) (hZ1 : ∀ i, IsReal (Z1 i)) (hOnes : ∀ j, IsReal (Ones j))
    (i : sa.Idx) (n : s'.Idx) :
    IsReal (Ideal.div (Host.scatterAdd d2 Z idx2 (Host.gather g X idx1 : FVec Ideal t φ) i)
      (max (Host.scatterAdd d1 Z1 idx1' Ones n) (Ideal.ofBits .f32 0x3F800000#32))) :=
  isReal_div_max_ofBits_one
    (scatterAdd_isReal d2 Z idx2 _ hZ (gather_isReal g X idx1 hX) i)
    (scatterAdd_isReal d1 Z1 idx1' Ones hZ1 hOnes n)

/-! ## Distributivity over real summands -/

/-- A real times a sum of two reals distributes. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, mul_add]

/-- A real times a sum of three reals distributes. -/
theorem mul_add_add_of_isReal {x a b c : EReal} (hx : IsReal x) (ha : IsReal a) (hb : IsReal b) (hc : IsReal c) :
    x * ((a + b) + c) = x * a + x * b + x * c := by
  rw [mul_add_of_isReal hx (ha.add hb) hc, mul_add_of_isReal hx ha hb]

/-- A row product with a sum of two real weight rows is the sum of the two row products. -/
theorem sum_mul_add {ι : Type*} (S : Finset ι) (x a b : ι → EReal)
    (hx : ∀ k, IsReal (x k)) (ha : ∀ k, IsReal (a k)) (hb : ∀ k, IsReal (b k)) :
    ∑ k ∈ S, x k * (a k + b k) = (∑ k ∈ S, x k * a k) + (∑ k ∈ S, x k * b k) := by
  rw [← Finset.sum_add_distrib]
  exact Finset.sum_congr rfl fun k _ => mul_add_of_isReal (hx k) (ha k) (hb k)

/-- A ROW PRODUCT WITH A SUM OF THREE REAL WEIGHT ROWS is the sum of the three row products. -/
theorem sum_mul_add_add {ι : Type*} (S : Finset ι) (x a b c : ι → EReal)
    (hx : ∀ k, IsReal (x k)) (ha : ∀ k, IsReal (a k)) (hb : ∀ k, IsReal (b k)) (hc : ∀ k, IsReal (c k)) :
    ∑ k ∈ S, x k * ((a k + b k) + c k)
      = (∑ k ∈ S, x k * a k) + (∑ k ∈ S, x k * b k) + (∑ k ∈ S, x k * c k) := by
  rw [← Finset.sum_add_distrib, ← Finset.sum_add_distrib]
  exact Finset.sum_congr rfl fun k _ => mul_add_add_of_isReal (hx k) (ha k) (hb k) (hc k)

/-- The same over `Fin K`. -/
theorem sum_fin_mul_add_add {K : Nat} (x a b c : Fin K → EReal)
    (hx : ∀ k, IsReal (x k)) (ha : ∀ k, IsReal (a k)) (hb : ∀ k, IsReal (b k)) (hc : ∀ k, IsReal (c k)) :
    ∑ k, x k * ((a k + b k) + c k) = (∑ k, x k * a k) + (∑ k, x k * b k) + (∑ k, x k * c k) :=
  sum_mul_add_add Finset.univ x a b c hx ha hb hc

/-- The same over `Fin K`, for two rows. -/
theorem sum_fin_mul_add {K : Nat} (x a b : Fin K → EReal)
    (hx : ∀ k, IsReal (x k)) (ha : ∀ k, IsReal (a k)) (hb : ∀ k, IsReal (b k)) :
    ∑ k, x k * (a k + b k) = (∑ k, x k * a k) + (∑ k, x k * b k) :=
  sum_mul_add Finset.univ x a b hx ha hb

end Cert.Finite

end
-- ==== Proof.Algebra.lean ====
/-
  The algebra behind the two rewritings of the heads and of the pairwise term.

  Over the extended reals the distributive law holds only off the infinities, so every regrouping below first
  establishes that the quantities in sight are real.  With real inputs, a positive real row count and a positive real
  stabiliser, the column mean and the biased column variance are real, the variance is nonnegative, so the argument of
  the reciprocal square root is a positive real and the normalised activations are real.  One layer with the affine
  map folded into the weights and the bias then equals the direct layer by termwise right-distributivity, and two such
  layers chain through the positive part.  The pairwise identity is the decomposition of the mean square distance to a
  point into the variance plus the squared distance of the point to the mean, proved in the reals and transported.
-/
import proofs.«161443_j9302899163339_2_alg».proof.Proof.Spec
import proofs.«161443_j9302899163339_2_alg».proof.Proof.LibFinite

noncomputable section

open scoped BigOperators

namespace Cert.Club

open Idealize.ShloMosaic
open Cert.Finite

/-! ## The two constants -/

/-- The single-precision pattern `0x44800000` denotes the real `1024 = 2^10`. -/
theorem ofBits_1024 : Ideal.ofBits .f32 0x44800000#32 = ((1024 : ℝ) : EReal) := by
  simp [Ideal.ofBits, Ideal.ieee, -EReal.coe_mul]; norm_num

/-- The single-precision pattern `0x3727C5AC` denotes a positive real (about `1e-5`). -/
theorem ofBits_eps : ∃ e : ℝ, 0 < e ∧ Ideal.ofBits .f32 0x3727C5AC#32 = ((e : ℝ) : EReal) := by
  refine ⟨(2 ^ 23 + 2606508 : ℕ) * (2 : ℝ) ^ ((110 : Int) - 127 - 23), by positivity, ?_⟩
  simp [Ideal.ofBits, Ideal.ieee, -EReal.coe_mul]

/-- The single-precision pattern `0x3F000000` denotes one half. -/
theorem ofBits_half : Ideal.ofBits .f32 0x3F000000#32 = (((1 : ℝ) / 2 : ℝ) : EReal) := by
  simp [Ideal.ofBits, Ideal.ieee, -EReal.coe_mul]; norm_num

/-- The single-precision pattern `0xC0000000` denotes minus two. -/
theorem ofBits_neg_two : Ideal.ofBits .f32 0xC0000000#32 = ((-2 : ℝ) : EReal) := by
  simp [Ideal.ofBits, Ideal.ieee, -EReal.coe_mul]; norm_num

/-! ## Coercion of finite sums and division by a nonzero real -/

variable {R A B C : Type} [Fintype R] [Fintype A] [Fintype B] [Fintype C]

/-- The coercion of the reals into the extended reals commutes with finite sums. -/
theorem coe_sum {ι : Type*} (S : Finset ι) (f : ι → ℝ) :
    ((∑ i ∈ S, f i : ℝ) : EReal) = ∑ i ∈ S, (f i : EReal) := by
  classical
  induction S using Finset.induction_on with
  | empty => rw [Finset.sum_empty, Finset.sum_empty, EReal.coe_zero]
  | insert a S ha ih => rw [Finset.sum_insert ha, Finset.sum_insert ha, EReal.coe_add, ih]

/-- A real divided by a nonzero real is real: the quotient is the product with the reciprocal. -/
theorem isReal_div_coe {a : EReal} (ha : IsReal a) {d : ℝ} (hd : d ≠ 0) : IsReal (Ideal.div a (d : EReal)) := by
  rw [Ideal.div_coe hd]
  exact ha.mul (isReal_coe _)

/-! ## The batch statistics of a real array are real -/

/-- The column mean of a real array over a positive real count is real. -/
theorem colMean_isReal {d : ℝ} (hd : 0 < d) (x : R → A → EReal) (hx : ∀ n k, IsReal (x n k)) (k : A) :
    IsReal (colMean (d : EReal) x k) := by
  unfold colMean
  exact isReal_div_coe (IsReal.sum_univ _ fun n => hx n k) hd.ne'

/-- The biased column variance of a real array is a nonnegative real: a sum of squares over a positive count. -/
theorem colVar_real_nonneg {d : ℝ} (hd : 0 < d) (x : R → A → EReal) (hx : ∀ n k, IsReal (x n k)) (k : A) :
    ∃ v : ℝ, 0 ≤ v ∧ colVar (d : EReal) x k = (v : EReal) := by
  obtain ⟨m, hm⟩ := colMean_isReal hd x hx k
  choose xr hxr using fun n => hx n k
  refine ⟨(∑ n, (xr n - m) * (xr n - m)) * (1 / d), ?_, ?_⟩
  · exact mul_nonneg (Finset.sum_nonneg fun n _ => mul_self_nonneg _) (by positivity)
  · unfold colVar
    rw [Ideal.div_coe hd.ne', hm]
    simp only [hxr]
    simp only [← EReal.coe_sub, ← EReal.coe_mul, ← coe_sum]

/-- The normalised entries of a real array are real: the argument of the reciprocal square root is the variance plus
    the stabiliser, a positive real, where the reciprocal square root is the real one. -/
theorem normed_isReal {d e : ℝ} (hd : 0 < d) (he : 0 < e) (x : R → A → EReal) (hx : ∀ n k, IsReal (x n k))
    (n : R) (k : A) : IsReal (normed (d : EReal) (e : EReal) x n k) := by
  unfold normed
  obtain ⟨v, hv0, hv⟩ := colVar_real_nonneg hd x hx k
  refine ((hx n k).sub (colMean_isReal hd x hx k)).mul ?_
  have hpos : 0 < v + e := by linarith
  rw [hv, ← EReal.coe_add, Ideal.rsqrt_coe, if_neg (not_lt.mpr hpos.le), if_neg hpos.ne']
  exact isReal_coe _

/-! ## One layer -/

/-- One layer with the affine map folded into the weights and the bias equals the direct layer, as soon as the
    normalised activations, the scale, the shift and the weights are real (the output bias need not be):
    `x̂·(g·W) + b·W = (x̂·g + b)·W` termwise, and the sums regroup in the additive commutative monoid. -/
theorem layerFold_eq_layerRef (D E : EReal) (x : R → A → EReal) (g b : A → EReal) (W : A → B → EReal) (c : B → EReal)
    (hn : ∀ n k, IsReal (normed D E x n k)) (hg : ∀ k, IsReal (g k)) (hb : ∀ k, IsReal (b k))
    (hW : ∀ k j, IsReal (W k j)) : layerFold D E x g b W c = layerRef D E x g b W c := by
  funext n j
  unfold layerFold layerRef
  rw [← add_assoc, ← Finset.sum_add_distrib]
  congr 1
  refine Finset.sum_congr rfl fun k _ => ?_
  obtain ⟨a, ha⟩ := hn n k
  obtain ⟨g', hg'⟩ := hg k
  obtain ⟨b', hb'⟩ := hb k
  obtain ⟨w, hw⟩ := hW k j
  rw [ha, hg', hb', hw]
  simp only [← EReal.coe_mul, ← EReal.coe_add]
  congr 1
  ring

/-- The direct layer of real data is real. -/
theorem layerRef_isReal (D E : EReal) (x : R → A → EReal) (g b : A → EReal) (W : A → B → EReal) (c : B → EReal)
    (hn : ∀ n k, IsReal (normed D E x n k)) (hg : ∀ k, IsReal (g k)) (hb : ∀ k, IsReal (b k))
    (hW : ∀ k j, IsReal (W k j)) (hc : ∀ j, IsReal (c j)) (n : R) (j : B) :
    IsReal (layerRef D E x g b W c n j) := by
  unfold layerRef
  exact (IsReal.sum_univ _ fun k => (((hn n k).mul (hg k)).add (hb k)).mul (hW k j)).add (hc j)

/-- The positive part of a real array is real. -/
theorem relu_isReal (h : R → B → EReal) (hh : ∀ n j, IsReal (h n j)) (n : R) (j : B) : IsReal (relu h n j) := by
  unfold relu
  exact (hh n j).max isReal_zero

/-! ## The two-layer head -/

/-- The hidden activations (first layer, then the positive part) of real data are real. -/
theorem hidden_isReal {d e : ℝ} (hd : 0 < d) (he : 0 < e)
    (x : R → A → EReal) (g1 b1 : A → EReal) (W1 : A → B → EReal) (c1 : B → EReal)
    (hx : ∀ n k, IsReal (x n k)) (hg1 : ∀ k, IsReal (g1 k)) (hb1 : ∀ k, IsReal (b1 k))
    (hW1 : ∀ k j, IsReal (W1 k j)) (hc1 : ∀ j, IsReal (c1 j)) (n : R) (j : B) :
    IsReal (relu (layerRef (d : EReal) (e : EReal) x g1 b1 W1 c1) n j) :=
  relu_isReal _ (layerRef_isReal _ _ x g1 b1 W1 c1 (normed_isReal hd he x hx) hg1 hb1 hW1 hc1) n j

/-- THE FOLDED HEAD IS THE DIRECT HEAD on real data: the first layers agree, so the positive parts are the same real
    array, on which the second layers agree. -/
theorem headFold_eq_headRef {d e : ℝ} (hd : 0 < d) (he : 0 < e)
    (x : R → A → EReal) (g1 b1 : A → EReal) (W1 : A → B → EReal) (c1 : B → EReal)
    (g2 b2 : B → EReal) (W2 : B → C → EReal) (c2 : C → EReal)
    (hx : ∀ n k, IsReal (x n k)) (hg1 : ∀ k, IsReal (g1 k)) (hb1 : ∀ k, IsReal (b1 k))
    (hW1 : ∀ k j, IsReal (W1 k j)) (hc1 : ∀ j, IsReal (c1 j))
    (hg2 : ∀ k, IsReal (g2 k)) (hb2 : ∀ k, IsReal (b2 k)) (hW2 : ∀ k j, IsReal (W2 k j)) (hc2 : ∀ j, IsReal (c2 j)) :
    headFold (d : EReal) (e : EReal) x g1 b1 W1 c1 g2 b2 W2 c2
      = headRef (d : EReal) (e : EReal) x g1 b1 W1 c1 g2 b2 W2 c2 := by
  unfold headFold headRef
  rw [layerFold_eq_layerRef _ _ x g1 b1 W1 c1 (normed_isReal hd he x hx) hg1 hb1 hW1]
  exact layerFold_eq_layerRef _ _ _ g2 b2 W2 c2
    (normed_isReal hd he _ (hidden_isReal hd he x g1 b1 W1 c1 hx hg1 hb1 hW1 hc1)) hg2 hb2 hW2

/-- The direct head of real data is real at every entry. -/
theorem headRef_isReal {d e : ℝ} (hd : 0 < d) (he : 0 < e)
    (x : R → A → EReal) (g1 b1 : A → EReal) (W1 : A → B → EReal) (c1 : B → EReal)
    (g2 b2 : B → EReal) (W2 : B → C → EReal) (c2 : C → EReal)
    (hx : ∀ n k, IsReal (x n k)) (hg1 : ∀ k, IsReal (g1 k)) (hb1 : ∀ k, IsReal (b1 k))
    (hW1 : ∀ k j, IsReal (W1 k j)) (hc1 : ∀ j, IsReal (c1 j))
    (hg2 : ∀ k, IsReal (g2 k)) (hb2 : ∀ k, IsReal (b2 k)) (hW2 : ∀ k j, IsReal (W2 k j)) (hc2 : ∀ j, IsReal (c2 j)) :
    ∀ n j, IsReal (headRef (d : EReal) (e : EReal) x g1 b1 W1 c1 g2 b2 W2 c2 n j) := by
  intro n j
  unfold headRef
  exact layerRef_isReal _ _ _ g2 b2 W2 c2
    (normed_isReal hd he _ (hidden_isReal hd he x g1 b1 W1 c1 hx hg1 hb1 hW1 hc1)) hg2 hb2 hW2 hc2 n j

/-! ## The pairwise term -/

/-- In the reals: the mean square distance of the `y j` to a point `a` is the variance of `y` plus the squared
    distance of `a` to the mean of `y`, the count of the `j` being `d`. -/
theorem real_pair_identity {ι : Type} [Fintype ι] {d : ℝ} (hd : 0 < d) (hcard : (Fintype.card ι : ℝ) = d)
    (y : ι → ℝ) (a : ℝ) :
    ((∑ j, y j * y j) * (1 / d) - (∑ j, y j) * (1 / d) * ((∑ j, y j) * (1 / d)))
        + (a - (∑ j, y j) * (1 / d)) * (a - (∑ j, y j) * (1 / d))
      = (∑ j, (y j - a) * (y j - a)) * (1 / d) := by
  have hsum : ∑ j, (y j - a) * (y j - a) = (∑ j, y j * y j) - 2 * a * (∑ j, y j) + d * (a * a) := by
    have hterm : ∀ j, (y j - a) * (y j - a) = y j * y j - 2 * a * y j + a * a := fun j => by ring
    simp only [hterm]
    rw [Finset.sum_add_distrib, Finset.sum_sub_distrib, ← Finset.mul_sum, Finset.sum_const, Finset.card_univ,
      nsmul_eq_mul, hcard]
  rw [hsum]
  generalize (∑ j, y j * y j) = S2
  generalize (∑ j, y j) = S1
  have hd' : d ≠ 0 := hd.ne'
  field_simp
  ring

/-- THE PAIRWISE TERM THROUGH THE VARIANCE IS THE DIRECT ONE on real data, the row count being `d`. -/
theorem pairFold_eq_pairRef {R C : Type} [Fintype R] [Fintype C] {d : ℝ} (hd : 0 < d)
    (hcard : (Fintype.card R : ℝ) = d) (y mu : R → C → EReal) (hy : ∀ j c, IsReal (y j c))
    (hmu : ∀ i c, IsReal (mu i c)) : pairFold (d : EReal) y mu = pairRef (d : EReal) y mu := by
  funext i c
  choose yr hyr using fun j => hy j c
  obtain ⟨a, ha⟩ := hmu i c
  unfold pairFold pairRef colMean
  simp only [Ideal.div_coe hd.ne', hyr, ha]
  simp only [← EReal.coe_mul, ← EReal.coe_sub, ← coe_sum, ← EReal.coe_add]
  rw [real_pair_identity hd hcard yr a]

end Cert.Club

end
-- ==== Proof.Bridge.lean ====
/-
  The loss through the folded heads and the variance form of the pairwise term equals the loss through the direct
  heads and the direct pairwise term, on real data with 1024 rows.

  The row count is the pattern of 1024 and the stabiliser the pattern of a positive real, so the head identity and the
  pairwise identity apply: both heads agree in their two forms, the first head's output is real, and over 1024 rows
  the mean square distance to a point is the variance plus the squared distance of the point to the mean.
-/
import proofs.«161443_j9302899163339_2_alg».proof.Proof.Spec
import proofs.«161443_j9302899163339_2_alg».proof.Proof.LibFinite
import proofs.«161443_j9302899163339_2_alg».proof.Proof.Algebra

noncomputable section

namespace Cert.Club

open Idealize.ShloMosaic
open Cert.Finite

/-- THE TWO FORMS OF THE LOSS AGREE on real data: both heads in folded form and the pairwise term through the variance,
    against both heads in direct form and the pairwise term written directly. -/
theorem loss_fold_eq_ref {A B C : Type} [Fintype A] [Fintype B] [Fintype C]
    (y : Fin 1024 → C → EReal) (x : Fin 1024 → A → EReal)
    (g1 b1 : A → EReal) (W1 : A → B → EReal) (c1 : B → EReal) (g2 b2 : B → EReal) (W2 : B → C → EReal) (c2 : C → EReal)
    (g1' b1' : A → EReal) (W1' : A → B → EReal) (c1' : B → EReal) (g2' b2' : B → EReal) (W2' : B → C → EReal)
    (c2' : C → EReal)
    (hy : ∀ j c, IsReal (y j c)) (hx : ∀ n k, IsReal (x n k))
    (hg1 : ∀ k, IsReal (g1 k)) (hb1 : ∀ k, IsReal (b1 k)) (hW1 : ∀ k j, IsReal (W1 k j))
    (hc1 : ∀ j, IsReal (c1 j)) (hg2 : ∀ k, IsReal (g2 k)) (hb2 : ∀ k, IsReal (b2 k))
    (hW2 : ∀ k j, IsReal (W2 k j)) (hc2 : ∀ j, IsReal (c2 j))
    (hg1' : ∀ k, IsReal (g1' k)) (hb1' : ∀ k, IsReal (b1' k)) (hW1' : ∀ k j, IsReal (W1' k j))
    (hc1' : ∀ j, IsReal (c1' j)) (hg2' : ∀ k, IsReal (g2' k)) (hb2' : ∀ k, IsReal (b2' k))
    (hW2' : ∀ k j, IsReal (W2' k j)) (hc2' : ∀ j, IsReal (c2' j)) :
    loss cD cH cM2 y (headFold cD cE x g1 b1 W1 c1 g2 b2 W2 c2) (headFold cD cE x g1' b1' W1' c1' g2' b2' W2' c2')
        (pairFold cD y (headFold cD cE x g1 b1 W1 c1 g2 b2 W2 c2))
      = loss cD cH cM2 y (headRef cD cE x g1 b1 W1 c1 g2 b2 W2 c2) (headRef cD cE x g1' b1' W1' c1' g2' b2' W2' c2')
        (pairRef cD y (headRef cD cE x g1 b1 W1 c1 g2 b2 W2 c2)) := by
  obtain ⟨e, he, hE⟩ := ofBits_eps
  have hD : cD = ((1024 : ℝ) : EReal) := ofBits_1024
  have hE' : cE = ((e : ℝ) : EReal) := hE
  have hd : (0 : ℝ) < 1024 := by norm_num
  have hcard : (Fintype.card (Fin 1024) : ℝ) = 1024 := by simp
  rw [hD, hE']
  rw [headFold_eq_headRef hd he x g1 b1 W1 c1 g2 b2 W2 c2 hx hg1 hb1 hW1 hc1 hg2 hb2 hW2 hc2,
    headFold_eq_headRef hd he x g1' b1' W1' c1' g2' b2' W2' c2' hx hg1' hb1' hW1' hc1' hg2' hb2' hW2' hc2',
    pairFold_eq_pairRef hd hcard y _ hy
      (headRef_isReal hd he x g1 b1 W1 c1 g2 b2 W2 c2 hx hg1 hb1 hW1 hc1 hg2 hb2 hW2 hc2)]

end Cert.Club

end
-- ==== Proof.LibFiniteInputs.lean ====
/-
  What a finite-inputs precondition gives.

  A test "every entry x of the array has |x| < +∞" is computed as a reduction by "and", over all the array's axes,
  of the entrywise comparison of |x| = max x (-x) with the pattern of +∞. Over the extended reals |x| is +∞ at both
  infinities and nowhere else, so the comparison holds at an entry exactly when the entry is a real number; and a
  reduction by "and" into a single value that comes out true had a true at every entry. Hence: every entry of an
  array whose all-entries test |x| < +∞ holds is a real number. A conjunction of several such tests, computed as a
  pointwise "and" of one-entry arrays, holds only when each of them does.
-/
import Mathlib
import Idealize.ShloMosaic.Lib.ReduceAll
import Idealize.ShloMosaic.Lib.ValueIdx
import Idealize.ShloMosaic.PureOps.Ideal
import proofs.«161443_j9302899163339_2_alg».proof.Proof.LibFinite

noncomputable section

namespace Cert.Lib.FiniteInputs

open Idealize.ShloMosaic Idealize.ShloMosaic.ValueIdx
open Cert.Finite

/-- The shape with no axes has one index. -/
instance subsingleton_scalar_idx : Subsingleton (⟨0, ![]⟩ : Shape).Idx := ⟨fun a b => funext fun d => d.elim0⟩

/-- The single-precision pattern 0x7F800000 (sign zero, exponent field all ones, fraction zero) denotes +∞. -/
theorem ofBits_inf : Ideal.ofBits .f32 0x7F800000#32 = (⊤ : EReal) := by
  simp [Ideal.ofBits, Ideal.ieee]

/-- An extended real whose absolute value max x (-x) is strictly below +∞ is a real number: at either infinity the
    absolute value is +∞ itself. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact isReal_coe r
  | top => simp [Ideal.cmp] at h

/-- One all-entries test, over an array of any shape: if the reduction by "and", over all the axes, of the entrywise
    comparison |x| < +∞ is true, every entry of the array is a real number. -/
theorem all_real {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu ix0 = 1#1)
    (i : s.Idx) : IsReal (x i) :=
  isReal_of_abs_lt_inf (x i) (Host.reduce_andi_all _ _ hr hu ix0 e i)

/-- A pointwise "and" of two one-entry arrays is true only when both are. -/
theorem and_scalar (A B : IVec (⟨0, ![]⟩ : Shape) 1) (h : andi A B ix0 = 1#1) : A ix0 = 1#1 ∧ B ix0 = 1#1 :=
  IntOp.andi_eq_one.1 h

end Cert.Lib.FiniteInputs

end
-- ==== Proof.Finite.lean ====
/-
  What the precondition gives: every entry of every argument array is a real number.

  The precondition is the conjunction, computed as a pointwise "and" of one-entry arrays, of eighteen all-entries tests
  |x| < +∞, one per argument array. A pointwise "and" that comes out true had both operands true, so each test holds;
  and an all-entries test |x| < +∞ that holds says every entry is neither infinity, i.e. is a real number.
-/
import proofs.«161443_j9302899163339_2_alg».proof.Defs
import proofs.«161443_j9302899163339_2_alg».proof.Pre_finite_inputs
import proofs.«161443_j9302899163339_2_alg».proof.Proof.LibFiniteInputs
import proofs.«161443_j9302899163339_2_alg».proof.Proof.LibFinite

noncomputable section

namespace Cert.Club.Fin

open Idealize.ShloMosaic Idealize.ShloMosaic.ValueIdx Idealize.SL.Sem
open Cert.Finite Cert.Lib.FiniteInputs
open Cert.Pre_finite_inputs

variable [Cert.Pre_finite_inputs.Facts]

/-- The printed predicate over eighteen arbitrary arrays: if its one entry is true, every entry of each array is real.
    The predicate is a left-nested chain of pointwise "and"s; peel the last test off seventeen times, then read each
    test as "all entries real". -/
theorem fn_all_real
    (a0 : FVec Ideal S1024x512 .f32) (a1 : FVec Ideal S1024x128 .f32) (a2 : FVec Ideal S512 .f32)
    (a3 : FVec Ideal S512 .f32) (a4 : FVec Ideal S512x1024 .f32) (a5 : FVec Ideal S1024 .f32)
    (a6 : FVec Ideal S1024 .f32) (a7 : FVec Ideal S1024 .f32) (a8 : FVec Ideal S1024x128 .f32)
    (a9 : FVec Ideal S128 .f32) (a10 : FVec Ideal S512 .f32) (a11 : FVec Ideal S512 .f32)
    (a12 : FVec Ideal S512x1024 .f32) (a13 : FVec Ideal S1024 .f32) (a14 : FVec Ideal S1024 .f32)
    (a15 : FVec Ideal S1024 .f32) (a16 : FVec Ideal S1024x128 .f32) (a17 : FVec Ideal S128 .f32)
    (h : fn (F := Ideal) a0 a1 a2 a3 a4 a5 a6 a7 a8 a9 a10 a11 a12 a13 a14 a15 a16 a17 ix0 = 1#1) :
    (∀ i, IsReal (a0 i)) ∧ (∀ i, IsReal (a1 i)) ∧ (∀ i, IsReal (a2 i)) ∧ (∀ i, IsReal (a3 i)) ∧
    (∀ i, IsReal (a4 i)) ∧ (∀ i, IsReal (a5 i)) ∧ (∀ i, IsReal (a6 i)) ∧ (∀ i, IsReal (a7 i)) ∧
    (∀ i, IsReal (a8 i)) ∧ (∀ i, IsReal (a9 i)) ∧ (∀ i, IsReal (a10 i)) ∧ (∀ i, IsReal (a11 i)) ∧
    (∀ i, IsReal (a12 i)) ∧ (∀ i, IsReal (a13 i)) ∧ (∀ i, IsReal (a14 i)) ∧ (∀ i, IsReal (a15 i)) ∧
    (∀ i, IsReal (a16 i)) ∧ (∀ i, IsReal (a17 i)) := by
  dsimp only [fn, fn_part1, fn_part2, fn_part3, fn_part4, fn_part5] at h
  obtain ⟨h, h17⟩ := and_scalar _ _ h
  obtain ⟨h, h16⟩ := and_scalar _ _ h
  obtain ⟨h, h15⟩ := and_scalar _ _ h
  obtain ⟨h, h14⟩ := and_scalar _ _ h
  obtain ⟨h, h13⟩ := and_scalar _ _ h
  obtain ⟨h, h12⟩ := and_scalar _ _ h
  obtain ⟨h, h11⟩ := and_scalar _ _ h
  obtain ⟨h, h10⟩ := and_scalar _ _ h
  obtain ⟨h, h9⟩ := and_scalar _ _ h
  obtain ⟨h, h8⟩ := and_scalar _ _ h
  obtain ⟨h, h7⟩ := and_scalar _ _ h
  obtain ⟨h, h6⟩ := and_scalar _ _ h
  obtain ⟨h, h5⟩ := and_scalar _ _ h
  obtain ⟨h, h4⟩ := and_scalar _ _ h
  obtain ⟨h, h3⟩ := and_scalar _ _ h
  obtain ⟨h, h2⟩ := and_scalar _ _ h
  obtain ⟨h0, h1⟩ := and_scalar _ _ h
  exact ⟨all_real a0 _ _ _ h0, all_real a1 _ _ _ h1, all_real a2 _ _ _ h2,
    all_real a3 _ _ _ h3, all_real a4 _ _ _ h4, all_real a5 _ _ _ h5,
    all_real a6 _ _ _ h6, all_real a7 _ _ _ h7, all_real a8 _ _ _ h8,
    all_real a9 _ _ _ h9, all_real a10 _ _ _ h10, all_real a11 _ _ _ h11,
    all_real a12 _ _ _ h12, all_real a13 _ _ _ h13, all_real a14 _ _ _ h14,
    all_real a15 _ _ _ h15, all_real a16 _ _ _ h16, all_real a17 _ _ _ h17⟩

/-- UNDER THE PRECONDITION EVERY ENTRY OF EVERY ARGUMENT ARRAY IS REAL, on every device. -/
theorem real_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i)) ∧
    (∀ i, IsReal (m ((c.tc : Thread Cert.KernelIdeal.nD Cert.KernelIdeal.τ).loc Cert.KernelIdeal.main_arg1) i)) ∧
    (∀ i, IsReal (m ((c.tc : Thread Cert.KernelIdeal.nD Cert.KernelIdeal.τ).loc Cert.KernelIdeal.main_arg2) i)) ∧
    (∀ i, IsReal (m ((c.tc : Thread Cert.KernelIdeal.nD Cert.KernelIdeal.τ).loc Cert.KernelIdeal.main_arg3) i)) ∧
    (∀ i, IsReal (m ((c.tc : Thread Cert.KernelIdeal.nD Cert.KernelIdeal.τ).loc Cert.KernelIdeal.main_arg4) i)) ∧
    (∀ i, IsReal (m ((c.tc : Thread Cert.KernelIdeal.nD Cert.KernelIdeal.τ).loc Cert.KernelIdeal.main_arg5) i)) ∧
    (∀ i, IsReal (m ((c.tc : Thread Cert.KernelIdeal.nD Cert.KernelIdeal.τ).loc Cert.KernelIdeal.main_arg6) i)) ∧
    (∀ i, IsReal (m ((c.tc : Thread Cert.KernelIdeal.nD Cert.KernelIdeal.τ).loc Cert.KernelIdeal.main_arg7) i)) ∧
    (∀ i, IsReal (m ((c.tc : Thread Cert.KernelIdeal.nD Cert.KernelIdeal.τ).loc Cert.KernelIdeal.main_arg8) i)) ∧
    (∀ i, IsReal (m ((c.tc : Thread Cert.KernelIdeal.nD Cert.KernelIdeal.τ).loc Cert.KernelIdeal.main_arg9) i)) ∧
    (∀ i, IsReal (m ((c.tc : Thread Cert.KernelIdeal.nD Cert.KernelIdeal.τ).loc Cert.KernelIdeal.main_arg10) i)) ∧
    (∀ i, IsReal (m ((c.tc : Thread Cert.KernelIdeal.nD Cert.KernelIdeal.τ).loc Cert.KernelIdeal.main_arg11) i)) ∧
    (∀ i, IsReal (m ((c.tc : Thread Cert.KernelIdeal.nD Cert.KernelIdeal.τ).loc Cert.KernelIdeal.main_arg12) i)) ∧
    (∀ i, IsReal (m ((c.tc : Thread Cert.KernelIdeal.nD Cert.KernelIdeal.τ).loc Cert.KernelIdeal.main_arg13) i)) ∧
    (∀ i, IsReal (m ((c.tc : Thread Cert.KernelIdeal.nD Cert.KernelIdeal.τ).loc Cert.KernelIdeal.main_arg14) i)) ∧
    (∀ i, IsReal (m ((c.tc : Thread Cert.KernelIdeal.nD Cert.KernelIdeal.τ).loc Cert.KernelIdeal.main_arg15) i)) ∧
    (∀ i, IsReal (m ((c.tc : Thread Cert.KernelIdeal.nD Cert.KernelIdeal.τ).loc Cert.KernelIdeal.main_arg16) i)) ∧
    (∀ i, IsReal (m ((c.tc : Thread Cert.KernelIdeal.nD Cert.KernelIdeal.τ).loc Cert.KernelIdeal.main_arg17) i)) :=
  fn_all_real _ _ _ _ _ _ _ _ _ _ _ _ _ _ _ _ _ _ (congrFun (h c) ix0)

end Cert.Club.Fin

end
-- ==== Proof.RefLoss.lean ====
/-
  The reference program's result as a closed formula.

  The reference is read one host operation at a time through the generated read-at-an-index lemmas, each stage at explicit
  coordinates: the column statistics of a layer's operand (mean, biased variance, the normalised entry), the affine map,
  the product with the weights and the bias (`layerRef`), the positive part between the two layers (`relu`), so that each
  head's output is `headRef`; then the pairwise term (`pairRef`), the two summands of the loss, their row sums, the sum
  over the rows and the final division (`loss`). The two layers of the two heads are four copies of one text with the
  buffer numbers and the parameter arrays changed.
-/
import proofs.«161443_j9302899163339_2_alg».proof.Proof.Gen.ReferenceIdeal.Read
import proofs.«161443_j9302899163339_2_alg».proof.Proof.Spec

noncomputable section

namespace Cert.Club.Ref

open Cert.ReferenceIdeal Cert.ReferenceIdeal.Read Cert.Club Idealize.ShloMosaic Idealize.ShloMosaic.ValueIdx

/-- A one-axis index set is its coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

variable (x0 : S1024x512.Idx → EReal) (x1 : S1024x128.Idx → EReal) (x2 x3 : S512.Idx → EReal)
  (x4 : S512x1024.Idx → EReal) (x5 x6 x7 : S1024.Idx → EReal) (x8 : S1024x128.Idx → EReal) (x9 : S128.Idx → EReal)
  (x10 x11 : S512.Idx → EReal) (x12 : S512x1024.Idx → EReal) (x13 x14 x15 : S1024.Idx → EReal)
  (x16 : S1024x128.Idx → EReal) (x17 : S128.Idx → EReal)

/-! ## The first head, first layer (operations 0 to 29) -/

/-- The column sums of the operand. -/
theorem sum0_a1 (k : Fin 512) : val_main_v0 (F := Ideal) x0 (ix1 k) = ∑ n : Fin 1024, x0 (ix2 n k) := by
  rw [val_main_v0_apply, val_main_cst_apply]
  simp only [Ideal.ofBits_def, Ideal.ofBits_zero_f32, zero_add]
  exact Finset.sum_congr rfl fun n _ => congrArg x0 (funext fun a => Fin.ext (by match a with | ⟨0, _⟩ => rfl | ⟨1, _⟩ => rfl))

/-- The column means. -/
theorem mean_a1 (k : Fin 512) : val_main_v2 (F := Ideal) x0 (ix1 k) = colMean cD (mat2 (a := 1024) (b := 512) x0) k := by
  rw [val_main_v2_apply, sum0_a1, val_main_v1_apply, val_main_cst_0_apply]
  rfl

/-- The column means laid along the rows (for the squared deviations). -/
theorem bcm_a1 (n : Fin 1024) (k : Fin 512) : val_main_v4 (F := Ideal) x0 (ix2 n k) = val_main_v2 (F := Ideal) x0 (ix1 k) := by
  rw [val_main_v4_apply, val_main_v3_apply]
  exact congrArg (val_main_v2 (F := Ideal) x0) (funext fun a => Fin.ext (by match a with | ⟨0, _⟩ => rfl))

/-- The column means laid along the rows (for the centred entries). -/
theorem bcm'_a1 (n : Fin 1024) (k : Fin 512) : val_main_v11 (F := Ideal) x0 (ix2 n k) = val_main_v2 (F := Ideal) x0 (ix1 k) := by
  rw [val_main_v11_apply, val_main_v10_apply]
  exact congrArg (val_main_v2 (F := Ideal) x0) (funext fun a => Fin.ext (by match a with | ⟨0, _⟩ => rfl))

/-- The column sums of the squared deviations. -/
theorem sqsum_a1 (k : Fin 512) : val_main_v7 (F := Ideal) x0 (ix1 k) = ∑ n : Fin 1024, val_main_v6 (F := Ideal) x0 (ix2 n k) := by
  rw [val_main_v7_apply, val_main_cst_1_apply]
  simp only [Ideal.ofBits_def, Ideal.ofBits_zero_f32, zero_add]
  exact Finset.sum_congr rfl fun n _ => congrArg (val_main_v6 (F := Ideal) x0) (funext fun a => Fin.ext (by match a with | ⟨0, _⟩ => rfl | ⟨1, _⟩ => rfl))

/-- The biased column variances. -/
theorem var_a1 (k : Fin 512) : val_main_v9 (F := Ideal) x0 (ix1 k) = colVar cD (mat2 (a := 1024) (b := 512) x0) k := by
  rw [val_main_v9_apply, sqsum_a1, val_main_v8_apply, val_main_cst_2_apply]
  simp only [val_main_v6_apply, val_main_v5_apply, bcm_a1, mean_a1]
  rfl

/-- The reciprocal standard deviations laid along the rows. -/
theorem bcr_a1 (n : Fin 1024) (k : Fin 512) : val_main_v17 (F := Ideal) x0 (ix2 n k) = val_main_v15 (F := Ideal) x0 (ix1 k) := by
  rw [val_main_v17_apply, val_main_v16_apply]
  exact congrArg (val_main_v15 (F := Ideal) x0) (funext fun a => Fin.ext (by match a with | ⟨0, _⟩ => rfl))

/-- The normalised entries. -/
theorem normed_a1 (n : Fin 1024) (k : Fin 512) : val_main_v18 (F := Ideal) x0 (ix2 n k) = normed cD cE (mat2 (a := 1024) (b := 512) x0) n k := by
  rw [val_main_v18_apply, val_main_v12_apply, bcm'_a1, mean_a1, bcr_a1, val_main_v15_apply, val_main_v14_apply, var_a1, val_main_v13_apply, val_main_cst_3_apply]
  rfl

/-- The scale laid along the rows. -/
theorem bcg_a1 (n : Fin 1024) (k : Fin 512) : val_main_v20 (F := Ideal) x2 (ix2 n k) = x2 (ix1 k) := by
  rw [val_main_v20_apply, val_main_v19_apply]
  exact congrArg x2 (funext fun a => Fin.ext (by match a with | ⟨0, _⟩ => rfl))

/-- The shift laid along the rows. -/
theorem bcb_a1 (n : Fin 1024) (k : Fin 512) : val_main_v23 (F := Ideal) x3 (ix2 n k) = x3 (ix1 k) := by
  rw [val_main_v23_apply, val_main_v22_apply]
  exact congrArg x3 (funext fun a => Fin.ext (by match a with | ⟨0, _⟩ => rfl))

/-- The affine map of the normalised entries. -/
theorem affine_a1 (n : Fin 1024) (k : Fin 512) :
    val_main_v24 (F := Ideal) x0 x2 x3 (ix2 n k) = normed cD cE (mat2 (a := 1024) (b := 512) x0) n k * vec1 x2 k + vec1 x3 k := by
  rw [val_main_v24_apply, val_main_v21_apply, normed_a1, bcg_a1, bcb_a1]
  rfl

/-- The product with the weights. -/
theorem dot_a1 (n : Fin 1024) (j : Fin 1024) :
    val_main_v25 (F := Ideal) x0 x2 x3 x4 (ix2 n j) = ∑ k : Fin 512, val_main_v24 (F := Ideal) x0 x2 x3 (ix2 n k) * x4 (ix2 k j) := by
  rw [val_main_v25_apply]
  refine Finset.sum_congr rfl fun k _ => ?_
  rw [show lidx_main_v25 (ix2 n j) k = ix2 n k from (funext fun a => Fin.ext (by match a with | ⟨0, _⟩ => rfl | ⟨1, _⟩ => rfl)),
    show ridx_main_v25 (ix2 n j) k = ix2 k j from (funext fun a => Fin.ext (by match a with | ⟨0, _⟩ => rfl | ⟨1, _⟩ => rfl))]

/-- The bias laid along the rows. -/
theorem bcc_a1 (n : Fin 1024) (j : Fin 1024) : val_main_v27 (F := Ideal) x5 (ix2 n j) = x5 (ix1 j) := by
  rw [val_main_v27_apply, val_main_v26_apply]
  exact congrArg x5 (funext fun a => Fin.ext (by match a with | ⟨0, _⟩ => rfl))

/-- The layer. -/
theorem layer_a1 (n : Fin 1024) (j : Fin 1024) : val_main_v28 (F := Ideal) x0 x2 x3 x4 x5 (ix2 n j) = layerRef cD cE (mat2 (a := 1024) (b := 512) x0) (vec1 x2) (vec1 x3) (mat2 x4) (vec1 x5) n j := by
  rw [val_main_v28_apply, dot_a1, bcc_a1]
  simp only [affine_a1]
  rfl

/-- The positive part of the layer. -/
theorem relu_a1 (n : Fin 1024) (j : Fin 1024) : val_main_v29 (F := Ideal) x0 x2 x3 x4 x5 (ix2 n j) = relu (layerRef cD cE (mat2 (a := 1024) (b := 512) x0) (vec1 x2) (vec1 x3) (mat2 x4) (vec1 x5)) n j := by
  rw [val_main_v29_apply, layer_a1, val_main_call0_v0_apply, val_main_call0_cst_apply]
  simp only [Ideal.maximumf_def, Ideal.ofBits_def, Ideal.ofBits_zero_f32]
  rfl

/-! ## The first head, second layer (operations 30 to 58) -/

/-- The column sums of the operand. -/
theorem sum0_a2 (k : Fin 1024) : val_main_v30 (F := Ideal) x0 x2 x3 x4 x5 (ix1 k) = ∑ n : Fin 1024, (val_main_v29 (F := Ideal) x0 x2 x3 x4 x5) (ix2 n k) := by
  rw [val_main_v30_apply, val_main_cst_4_apply]
  simp only [Ideal.ofBits_def, Ideal.ofBits_zero_f32, zero_add]
  exact Finset.sum_congr rfl fun n _ => congrArg (val_main_v29 (F := Ideal) x0 x2 x3 x4 x5) (funext fun a => Fin.ext (by match a with | ⟨0, _⟩ => rfl | ⟨1, _⟩ => rfl))

/-- The column means. -/
theorem mean_a2 (k : Fin 1024) : val_main_v32 (F := Ideal) x0 x2 x3 x4 x5 (ix1 k) = colMean cD (mat2 (a := 1024) (b := 1024) (val_main_v29 (F := Ideal) x0 x2 x3 x4 x5)) k := by
  rw [val_main_v32_apply, sum0_a2, val_main_v31_apply, val_main_cst_5_apply]
  rfl

/-- The column means laid along the rows (for the squared deviations). -/
theorem bcm_a2 (n : Fin 1024) (k : Fin 1024) : val_main_v34 (F := Ideal) x0 x2 x3 x4 x5 (ix2 n k) = val_main_v32 (F := Ideal) x0 x2 x3 x4 x5 (ix1 k) := by
  rw [val_main_v34_apply, val_main_v33_apply]
  exact congrArg (val_main_v32 (F := Ideal) x0 x2 x3 x4 x5) (funext fun a => Fin.ext (by match a with | ⟨0, _⟩ => rfl))

/-- The column means laid along the rows (for the centred entries). -/
theorem bcm'_a2 (n : Fin 1024) (k : Fin 1024) : val_main_v41 (F := Ideal) x0 x2 x3 x4 x5 (ix2 n k) = val_main_v32 (F := Ideal) x0 x2 x3 x4 x5 (ix1 k) := by
  rw [val_main_v41_apply, val_main_v40_apply]
  exact congrArg (val_main_v32 (F := Ideal) x0 x2 x3 x4 x5) (funext fun a => Fin.ext (by match a with | ⟨0, _⟩ => rfl))

/-- The column sums of the squared deviations. -/
theorem sqsum_a2 (k : Fin 1024) : val_main_v37 (F := Ideal) x0 x2 x3 x4 x5 (ix1 k) = ∑ n : Fin 1024, val_main_v36 (F := Ideal) x0 x2 x3 x4 x5 (ix2 n k) := by
  rw [val_main_v37_apply, val_main_cst_6_apply]
  simp only [Ideal.ofBits_def, Ideal.ofBits_zero_f32, zero_add]
  exact Finset.sum_congr rfl fun n _ => congrArg (val_main_v36 (F := Ideal) x0 x2 x3 x4 x5) (funext fun a => Fin.ext (by match a with | ⟨0, _⟩ => rfl | ⟨1, _⟩ => rfl))

/-- The biased column variances. -/
theorem var_a2 (k : Fin 1024) : val_main_v39 (F := Ideal) x0 x2 x3 x4 x5 (ix1 k) = colVar cD (mat2 (a := 1024) (b := 1024) (val_main_v29 (F := Ideal) x0 x2 x3 x4 x5)) k := by
  rw [val_main_v39_apply, sqsum_a2, val_main_v38_apply, val_main_cst_7_apply]
  simp only [val_main_v36_apply, val_main_v35_apply, bcm_a2, mean_a2]
  rfl

/-- The reciprocal standard deviations laid along the rows. -/
theorem bcr_a2 (n : Fin 1024) (k : Fin 1024) : val_main_v47 (F := Ideal) x0 x2 x3 x4 x5 (ix2 n k) = val_main_v45 (F := Ideal) x0 x2 x3 x4 x5 (ix1 k) := by
  rw [val_main_v47_apply, val_main_v46_apply]
  exact congrArg (val_main_v45 (F := Ideal) x0 x2 x3 x4 x5) (funext fun a => Fin.ext (by match a with | ⟨0, _⟩ => rfl))

/-- The normalised entries. -/
theorem normed_a2 (n : Fin 1024) (k : Fin 1024) : val_main_v48 (F := Ideal) x0 x2 x3 x4 x5 (ix2 n k) = normed cD cE (mat2 (a := 1024) (b := 1024) (val_main_v29 (F := Ideal) x0 x2 x3 x4 x5)) n k := by
  rw [val_main_v48_apply, val_main_v42_apply, bcm'_a2, mean_a2, bcr_a2, val_main_v45_apply, val_main_v44_apply, var_a2, val_main_v43_apply, val_main_cst_8_apply]
  rfl

/-- The scale laid along the rows. -/
theorem bcg_a2 (n : Fin 1024) (k : Fin 1024) : val_main_v50 (F := Ideal) x6 (ix2 n k) = x6 (ix1 k) := by
  rw [val_main_v50_apply, val_main_v49_apply]
  exact congrArg x6 (funext fun a => Fin.ext (by match a with | ⟨0, _⟩ => rfl))

/-- The shift laid along the rows. -/
theorem bcb_a2 (n : Fin 1024) (k : Fin 1024) : val_main_v53 (F := Ideal) x7 (ix2 n k) = x7 (ix1 k) := by
  rw [val_main_v53_apply, val_main_v52_apply]
  exact congrArg x7 (funext fun a => Fin.ext (by match a with | ⟨0, _⟩ => rfl))

/-- The affine map of the normalised entries. -/
theorem affine_a2 (n : Fin 1024) (k : Fin 1024) :
    val_main_v54 (F := Ideal) x0 x2 x3 x4 x5 x6 x7 (ix2 n k) = normed cD cE (mat2 (a := 1024) (b := 1024) (val_main_v29 (F := Ideal) x0 x2 x3 x4 x5)) n k * vec1 x6 k + vec1 x7 k := by
  rw [val_main_v54_apply, val_main_v51_apply, normed_a2, bcg_a2, bcb_a2]
  rfl

/-- The product with the weights. -/
theorem dot_a2 (n : Fin 1024) (j : Fin 128) :
    val_main_v55 (F := Ideal) x0 x2 x3 x4 x5 x6 x7 x8 (ix2 n j) = ∑ k : Fin 1024, val_main_v54 (F := Ideal) x0 x2 x3 x4 x5 x6 x7 (ix2 n k) * x8 (ix2 k j) := by
  rw [val_main_v55_apply]
  refine Finset.sum_congr rfl fun k _ => ?_
  rw [show lidx_main_v55 (ix2 n j) k = ix2 n k from (funext fun a => Fin.ext (by match a with | ⟨0, _⟩ => rfl | ⟨1, _⟩ => rfl)),
    show ridx_main_v55 (ix2 n j) k = ix2 k j from (funext fun a => Fin.ext (by match a with | ⟨0, _⟩ => rfl | ⟨1, _⟩ => rfl))]

/-- The bias laid along the rows. -/
theorem bcc_a2 (n : Fin 1024) (j : Fin 128) : val_main_v57 (F := Ideal) x9 (ix2 n j) = x9 (ix1 j) := by
  rw [val_main_v57_apply, val_main_v56_apply]
  exact congrArg x9 (funext fun a => Fin.ext (by match a with | ⟨0, _⟩ => rfl))

/-- The layer. -/
theorem layer_a2 (n : Fin 1024) (j : Fin 128) : val_main_v58 (F := Ideal) x0 x2 x3 x4 x5 x6 x7 x8 x9 (ix2 n j) = layerRef cD cE (mat2 (a := 1024) (b := 1024) (val_main_v29 (F := Ideal) x0 x2 x3 x4 x5)) (vec1 x6) (vec1 x7) (mat2 x8) (vec1 x9) n j := by
  rw [val_main_v58_apply, dot_a2, bcc_a2]
  simp only [affine_a2]
  rfl

/-! ## The second head, first layer (operations 59 to 88) -/

/-- The column sums of the operand. -/
theorem sum0_b1 (k : Fin 512) : val_main_v59 (F := Ideal) x0 (ix1 k) = ∑ n : Fin 1024, x0 (ix2 n k) := by
  rw [val_main_v59_apply, val_main_cst_9_apply]
  simp only [Ideal.ofBits_def, Ideal.ofBits_zero_f32, zero_add]
  exact Finset.sum_congr rfl fun n _ => congrArg x0 (funext fun a => Fin.ext (by match a with | ⟨0, _⟩ => rfl | ⟨1, _⟩ => rfl))

/-- The column means. -/
theorem mean_b1 (k : Fin 512) : val_main_v61 (F := Ideal) x0 (ix1 k) = colMean cD (mat2 (a := 1024) (b := 512) x0) k := by
  rw [val_main_v61_apply, sum0_b1, val_main_v60_apply, val_main_cst_10_apply]
  rfl

/-- The column means laid along the rows (for the squared deviations). -/
theorem bcm_b1 (n : Fin 1024) (k : Fin 512) : val_main_v63 (F := Ideal) x0 (ix2 n k) = val_main_v61 (F := Ideal) x0 (ix1 k) := by
  rw [val_main_v63_apply, val_main_v62_apply]
  exact congrArg (val_main_v61 (F := Ideal) x0) (funext fun a => Fin.ext (by match a with | ⟨0, _⟩ => rfl))

/-- The column means laid along the rows (for the centred entries). -/
theorem bcm'_b1 (n : Fin 1024) (k : Fin 512) : val_main_v70 (F := Ideal) x0 (ix2 n k) = val_main_v61 (F := Ideal) x0 (ix1 k) := by
  rw [val_main_v70_apply, val_main_v69_apply]
  exact congrArg (val_main_v61 (F := Ideal) x0) (funext fun a => Fin.ext (by match a with | ⟨0, _⟩ => rfl))

/-- The column sums of the squared deviations. -/
theorem sqsum_b1 (k : Fin 512) : val_main_v66 (F := Ideal) x0 (ix1 k) = ∑ n : Fin 1024, val_main_v65 (F := Ideal) x0 (ix2 n k) := by
  rw [val_main_v66_apply, val_main_cst_11_apply]
  simp only [Ideal.ofBits_def, Ideal.ofBits_zero_f32, zero_add]
  exact Finset.sum_congr rfl fun n _ => congrArg (val_main_v65 (F := Ideal) x0) (funext fun a => Fin.ext (by match a with | ⟨0, _⟩ => rfl | ⟨1, _⟩ => rfl))

/-- The biased column variances. -/
theorem var_b1 (k : Fin 512) : val_main_v68 (F := Ideal) x0 (ix1 k) = colVar cD (mat2 (a := 1024) (b := 512) x0) k := by
  rw [val_main_v68_apply, sqsum_b1, val_main_v67_apply, val_main_cst_12_apply]
  simp only [val_main_v65_apply, val_main_v64_apply, bcm_b1, mean_b1]
  rfl

/-- The reciprocal standard deviations laid along the rows. -/
theorem bcr_b1 (n : Fin 1024) (k : Fin 512) : val_main_v76 (F := Ideal) x0 (ix2 n k) = val_main_v74 (F := Ideal) x0 (ix1 k) := by
  rw [val_main_v76_apply, val_main_v75_apply]
  exact congrArg (val_main_v74 (F := Ideal) x0) (funext fun a => Fin.ext (by match a with | ⟨0, _⟩ => rfl))

/-- The normalised entries. -/
theorem normed_b1 (n : Fin 1024) (k : Fin 512) : val_main_v77 (F := Ideal) x0 (ix2 n k) = normed cD cE (mat2 (a := 1024) (b := 512) x0) n k := by
  rw [val_main_v77_apply, val_main_v71_apply, bcm'_b1, mean_b1, bcr_b1, val_main_v74_apply, val_main_v73_apply, var_b1, val_main_v72_apply, val_main_cst_13_apply]
  rfl

/-- The scale laid along the rows. -/
theorem bcg_b1 (n : Fin 1024) (k : Fin 512) : val_main_v79 (F := Ideal) x10 (ix2 n k) = x10 (ix1 k) := by
  rw [val_main_v79_apply, val_main_v78_apply]
  exact congrArg x10 (funext fun a => Fin.ext (by match a with | ⟨0, _⟩ => rfl))

/-- The shift laid along the rows. -/
theorem bcb_b1 (n : Fin 1024) (k : Fin 512) : val_main_v82 (F := Ideal) x11 (ix2 n k) = x11 (ix1 k) := by
  rw [val_main_v82_apply, val_main_v81_apply]
  exact congrArg x11 (funext fun a => Fin.ext (by match a with | ⟨0, _⟩ => rfl))

/-- The affine map of the normalised entries. -/
theorem affine_b1 (n : Fin 1024) (k : Fin 512) :
    val_main_v83 (F := Ideal) x0 x10 x11 (ix2 n k) = normed cD cE (mat2 (a := 1024) (b := 512) x0) n k * vec1 x10 k + vec1 x11 k := by
  rw [val_main_v83_apply, val_main_v80_apply, normed_b1, bcg_b1, bcb_b1]
  rfl

/-- The product with the weights. -/
theorem dot_b1 (n : Fin 1024) (j : Fin 1024) :
    val_main_v84 (F := Ideal) x0 x10 x11 x12 (ix2 n j) = ∑ k : Fin 512, val_main_v83 (F := Ideal) x0 x10 x11 (ix2 n k) * x12 (ix2 k j) := by
  rw [val_main_v84_apply]
  refine Finset.sum_congr rfl fun k _ => ?_
  rw [show lidx_main_v84 (ix2 n j) k = ix2 n k from (funext fun a => Fin.ext (by match a with | ⟨0, _⟩ => rfl | ⟨1, _⟩ => rfl)),
    show ridx_main_v84 (ix2 n j) k = ix2 k j from (funext fun a => Fin.ext (by match a with | ⟨0, _⟩ => rfl | ⟨1, _⟩ => rfl))]

/-- The bias laid along the rows. -/
theorem bcc_b1 (n : Fin 1024) (j : Fin 1024) : val_main_v86 (F := Ideal) x13 (ix2 n j) = x13 (ix1 j) := by
  rw [val_main_v86_apply, val_main_v85_apply]
  exact congrArg x13 (funext fun a => Fin.ext (by match a with | ⟨0, _⟩ => rfl))

/-- The layer. -/
theorem layer_b1 (n : Fin 1024) (j : Fin 1024) : val_main_v87 (F := Ideal) x0 x10 x11 x12 x13 (ix2 n j) = layerRef cD cE (mat2 (a := 1024) (b := 512) x0) (vec1 x10) (vec1 x11) (mat2 x12) (vec1 x13) n j := by
  rw [val_main_v87_apply, dot_b1, bcc_b1]
  simp only [affine_b1]
  rfl

/-- The positive part of the layer. -/
theorem relu_b1 (n : Fin 1024) (j : Fin 1024) : val_main_v88 (F := Ideal) x0 x10 x11 x12 x13 (ix2 n j) = relu (layerRef cD cE (mat2 (a := 1024) (b := 512) x0) (vec1 x10) (vec1 x11) (mat2 x12) (vec1 x13)) n j := by
  rw [val_main_v88_apply, layer_b1, val_main_call1_v0_apply, val_main_call1_cst_apply]
  simp only [Ideal.maximumf_def, Ideal.ofBits_def, Ideal.ofBits_zero_f32]
  rfl

/-! ## The second head, second layer (operations 89 to 117) -/

/-- The column sums of the operand. -/
theorem sum0_b2 (k : Fin 1024) : val_main_v89 (F := Ideal) x0 x10 x11 x12 x13 (ix1 k) = ∑ n : Fin 1024, (val_main_v88 (F := Ideal) x0 x10 x11 x12 x13) (ix2 n k) := by
  rw [val_main_v89_apply, val_main_cst_14_apply]
  simp only [Ideal.ofBits_def, Ideal.ofBits_zero_f32, zero_add]
  exact Finset.sum_congr rfl fun n _ => congrArg (val_main_v88 (F := Ideal) x0 x10 x11 x12 x13) (funext fun a => Fin.ext (by match a with | ⟨0, _⟩ => rfl | ⟨1, _⟩ => rfl))

/-- The column means. -/
theorem mean_b2 (k : Fin 1024) : val_main_v91 (F := Ideal) x0 x10 x11 x12 x13 (ix1 k) = colMean cD (mat2 (a := 1024) (b := 1024) (val_main_v88 (F := Ideal) x0 x10 x11 x12 x13)) k := by
  rw [val_main_v91_apply, sum0_b2, val_main_v90_apply, val_main_cst_15_apply]
  rfl

/-- The column means laid along the rows (for the squared deviations). -/
theorem bcm_b2 (n : Fin 1024) (k : Fin 1024) : val_main_v93 (F := Ideal) x0 x10 x11 x12 x13 (ix2 n k) = val_main_v91 (F := Ideal) x0 x10 x11 x12 x13 (ix1 k) := by
  rw [val_main_v93_apply, val_main_v92_apply]
  exact congrArg (val_main_v91 (F := Ideal) x0 x10 x11 x12 x13) (funext fun a => Fin.ext (by match a with | ⟨0, _⟩ => rfl))

/-- The column means laid along the rows (for the centred entries). -/
theorem bcm'_b2 (n : Fin 1024) (k : Fin 1024) : val_main_v100 (F := Ideal) x0 x10 x11 x12 x13 (ix2 n k) = val_main_v91 (F := Ideal) x0 x10 x11 x12 x13 (ix1 k) := by
  rw [val_main_v100_apply, val_main_v99_apply]
  exact congrArg (val_main_v91 (F := Ideal) x0 x10 x11 x12 x13) (funext fun a => Fin.ext (by match a with | ⟨0, _⟩ => rfl))

/-- The column sums of the squared deviations. -/
theorem sqsum_b2 (k : Fin 1024) : val_main_v96 (F := Ideal) x0 x10 x11 x12 x13 (ix1 k) = ∑ n : Fin 1024, val_main_v95 (F := Ideal) x0 x10 x11 x12 x13 (ix2 n k) := by
  rw [val_main_v96_apply, val_main_cst_16_apply]
  simp only [Ideal.ofBits_def, Ideal.ofBits_zero_f32, zero_add]
  exact Finset.sum_congr rfl fun n _ => congrArg (val_main_v95 (F := Ideal) x0 x10 x11 x12 x13) (funext fun a => Fin.ext (by match a with | ⟨0, _⟩ => rfl | ⟨1, _⟩ => rfl))

/-- The biased column variances. -/
theorem var_b2 (k : Fin 1024) : val_main_v98 (F := Ideal) x0 x10 x11 x12 x13 (ix1 k) = colVar cD (mat2 (a := 1024) (b := 1024) (val_main_v88 (F := Ideal) x0 x10 x11 x12 x13)) k := by
  rw [val_main_v98_apply, sqsum_b2, val_main_v97_apply, val_main_cst_17_apply]
  simp only [val_main_v95_apply, val_main_v94_apply, bcm_b2, mean_b2]
  rfl

/-- The reciprocal standard deviations laid along the rows. -/
theorem bcr_b2 (n : Fin 1024) (k : Fin 1024) : val_main_v106 (F := Ideal) x0 x10 x11 x12 x13 (ix2 n k) = val_main_v104 (F := Ideal) x0 x10 x11 x12 x13 (ix1 k) := by
  rw [val_main_v106_apply, val_main_v105_apply]
  exact congrArg (val_main_v104 (F := Ideal) x0 x10 x11 x12 x13) (funext fun a => Fin.ext (by match a with | ⟨0, _⟩ => rfl))

/-- The normalised entries. -/
theorem normed_b2 (n : Fin 1024) (k : Fin 1024) : val_main_v107 (F := Ideal) x0 x10 x11 x12 x13 (ix2 n k) = normed cD cE (mat2 (a := 1024) (b := 1024) (val_main_v88 (F := Ideal) x0 x10 x11 x12 x13)) n k := by
  rw [val_main_v107_apply, val_main_v101_apply, bcm'_b2, mean_b2, bcr_b2, val_main_v104_apply, val_main_v103_apply, var_b2, val_main_v102_apply, val_main_cst_18_apply]
  rfl

/-- The scale laid along the rows. -/
theorem bcg_b2 (n : Fin 1024) (k : Fin 1024) : val_main_v109 (F := Ideal) x14 (ix2 n k) = x14 (ix1 k) := by
  rw [val_main_v109_apply, val_main_v108_apply]
  exact congrArg x14 (funext fun a => Fin.ext (by match a with | ⟨0, _⟩ => rfl))

/-- The shift laid along the rows. -/
theorem bcb_b2 (n : Fin 1024) (k : Fin 1024) : val_main_v112 (F := Ideal) x15 (ix2 n k) = x15 (ix1 k) := by
  rw [val_main_v112_apply, val_main_v111_apply]
  exact congrArg x15 (funext fun a => Fin.ext (by match a with | ⟨0, _⟩ => rfl))

/-- The affine map of the normalised entries. -/
theorem affine_b2 (n : Fin 1024) (k : Fin 1024) :
    val_main_v113 (F := Ideal) x0 x10 x11 x12 x13 x14 x15 (ix2 n k) = normed cD cE (mat2 (a := 1024) (b := 1024) (val_main_v88 (F := Ideal) x0 x10 x11 x12 x13)) n k * vec1 x14 k + vec1 x15 k := by
  rw [val_main_v113_apply, val_main_v110_apply, normed_b2, bcg_b2, bcb_b2]
  rfl

/-- The product with the weights. -/
theorem dot_b2 (n : Fin 1024) (j : Fin 128) :
    val_main_v114 (F := Ideal) x0 x10 x11 x12 x13 x14 x15 x16 (ix2 n j) = ∑ k : Fin 1024, val_main_v113 (F := Ideal) x0 x10 x11 x12 x13 x14 x15 (ix2 n k) * x16 (ix2 k j) := by
  rw [val_main_v114_apply]
  refine Finset.sum_congr rfl fun k _ => ?_
  rw [show lidx_main_v114 (ix2 n j) k = ix2 n k from (funext fun a => Fin.ext (by match a with | ⟨0, _⟩ => rfl | ⟨1, _⟩ => rfl)),
    show ridx_main_v114 (ix2 n j) k = ix2 k j from (funext fun a => Fin.ext (by match a with | ⟨0, _⟩ => rfl | ⟨1, _⟩ => rfl))]

/-- The bias laid along the rows. -/
theorem bcc_b2 (n : Fin 1024) (j : Fin 128) : val_main_v116 (F := Ideal) x17 (ix2 n j) = x17 (ix1 j) := by
  rw [val_main_v116_apply, val_main_v115_apply]
  exact congrArg x17 (funext fun a => Fin.ext (by match a with | ⟨0, _⟩ => rfl))

/-- The layer. -/
theorem layer_b2 (n : Fin 1024) (j : Fin 128) : val_main_v117 (F := Ideal) x0 x10 x11 x12 x13 x14 x15 x16 x17 (ix2 n j) = layerRef cD cE (mat2 (a := 1024) (b := 1024) (val_main_v88 (F := Ideal) x0 x10 x11 x12 x13)) (vec1 x14) (vec1 x15) (mat2 x16) (vec1 x17) n j := by
  rw [val_main_v117_apply, dot_b2, bcc_b2]
  simp only [affine_b2]
  rfl

/-! ## The two heads -/

/-- The hidden activations of the first head are the positive part of its first layer. -/
theorem hidden_a : mat2 (a := 1024) (b := 1024) (val_main_v29 (F := Ideal) x0 x2 x3 x4 x5)
    = relu (layerRef cD cE (mat2 (a := 1024) (b := 512) x0) (vec1 x2) (vec1 x3) (mat2 x4) (vec1 x5)) :=
  funext fun n => funext fun j => relu_a1 x0 x2 x3 x4 x5 n j

/-- The first head's output. -/
theorem head_a (n : Fin 1024) (c : Fin 128) : val_main_v58 (F := Ideal) x0 x2 x3 x4 x5 x6 x7 x8 x9 (ix2 n c) = headRef cD cE (mat2 x0) (vec1 x2) (vec1 x3) (mat2 x4) (vec1 x5) (vec1 x6) (vec1 x7) (mat2 x8) (vec1 x9) n c := by
  rw [layer_a2, hidden_a]
  rfl

/-- The hidden activations of the second head are the positive part of its first layer. -/
theorem hidden_b : mat2 (a := 1024) (b := 1024) (val_main_v88 (F := Ideal) x0 x10 x11 x12 x13)
    = relu (layerRef cD cE (mat2 (a := 1024) (b := 512) x0) (vec1 x10) (vec1 x11) (mat2 x12) (vec1 x13)) :=
  funext fun n => funext fun j => relu_b1 x0 x10 x11 x12 x13 n j

/-- The second head's output (before its `tanh`). -/
theorem head_b (n : Fin 1024) (c : Fin 128) : val_main_v117 (F := Ideal) x0 x10 x11 x12 x13 x14 x15 x16 x17 (ix2 n c) = headRef cD cE (mat2 x0) (vec1 x10) (vec1 x11) (mat2 x12) (vec1 x13) (vec1 x14) (vec1 x15) (mat2 x16) (vec1 x17) n c := by
  rw [layer_b2, hidden_b]
  rfl

/-! ## The pairwise term -/

/-- The targets laid along the first axis of the three-axis difference. -/
theorem bcy (i j : Fin 1024) (c : Fin 128) : val_main_v130 (F := Ideal) x1 (ix3 i j c) = x1 (ix2 j c) := by
  rw [val_main_v130_apply, val_main_v128_apply]
  exact congrArg x1 (funext fun a => Fin.ext (by match a with | ⟨0, _⟩ => rfl | ⟨1, _⟩ => rfl))

/-- The first head's output laid along the second axis of the three-axis difference. -/
theorem bcmu (i j : Fin 1024) (c : Fin 128) :
    val_main_v131 (F := Ideal) x0 x2 x3 x4 x5 x6 x7 x8 x9 (ix3 i j c) = val_main_v58 (F := Ideal) x0 x2 x3 x4 x5 x6 x7 x8 x9 (ix2 i c) := by
  rw [val_main_v131_apply, val_main_v129_apply]
  exact congrArg (val_main_v58 (F := Ideal) x0 x2 x3 x4 x5 x6 x7 x8 x9) (funext fun a => Fin.ext (by match a with | ⟨0, _⟩ => rfl | ⟨1, _⟩ => rfl))

/-- The sum of the squared differences over the second axis. -/
theorem sum134 (i : Fin 1024) (c : Fin 128) :
    val_main_v134 (F := Ideal) x0 x1 x2 x3 x4 x5 x6 x7 x8 x9 (ix2 i c) = ∑ j : Fin 1024, val_main_v133 (F := Ideal) x0 x1 x2 x3 x4 x5 x6 x7 x8 x9 (ix3 i j c) := by
  rw [val_main_v134_apply, val_main_cst_21_apply]
  simp only [Ideal.ofBits_def, Ideal.ofBits_zero_f32, zero_add]
  exact Finset.sum_congr rfl fun j _ => congrArg (val_main_v133 (F := Ideal) x0 x1 x2 x3 x4 x5 x6 x7 x8 x9) (funext fun a => Fin.ext (by match a with | ⟨0, _⟩ => rfl | ⟨1, _⟩ => rfl | ⟨2, _⟩ => rfl))

/-- The pairwise term. -/
theorem pair (i : Fin 1024) (c : Fin 128) : val_main_v136 (F := Ideal) x0 x1 x2 x3 x4 x5 x6 x7 x8 x9 (ix2 i c) = pairRef cD (mat2 x1) (headRef cD cE (mat2 x0) (vec1 x2) (vec1 x3) (mat2 x4) (vec1 x5) (vec1 x6) (vec1 x7) (mat2 x8) (vec1 x9)) i c := by
  rw [val_main_v136_apply, sum134, val_main_v135_apply, val_main_cst_22_apply]
  simp only [val_main_v133_apply, val_main_v132_apply, bcy, bcmu, head_a]
  rfl

/-! ## The loss -/

/-- The positive summand. -/
theorem pos (n : Fin 1024) (c : Fin 128) :
    val_main_v127 (F := Ideal) x0 x1 x2 x3 x4 x5 x6 x7 x8 x9 x10 x11 x12 x13 x14 x15 x16 x17 (ix2 n c)
      = ((-((headRef cD cE (mat2 x0) (vec1 x2) (vec1 x3) (mat2 x4) (vec1 x5) (vec1 x6) (vec1 x7) (mat2 x8) (vec1 x9) n c - mat2 x1 n c) * (headRef cD cE (mat2 x0) (vec1 x2) (vec1 x3) (mat2 x4) (vec1 x5) (vec1 x6) (vec1 x7) (mat2 x8) (vec1 x9) n c - mat2 x1 n c))) * cH)
          * Ideal.exp (cM2 * Ideal.tanh (headRef cD cE (mat2 x0) (vec1 x10) (vec1 x11) (mat2 x12) (vec1 x13) (vec1 x14) (vec1 x15) (mat2 x16) (vec1 x17) n c)) := by
  rw [val_main_v127_apply, val_main_v123_apply, val_main_v121_apply, val_main_v120_apply, val_main_v119_apply, head_a,
    val_main_v122_apply, val_main_cst_19_apply, val_main_v126_apply, val_main_v125_apply, val_main_v124_apply,
    val_main_cst_20_apply, val_main_v118_apply, head_b]
  rfl

/-- The negative summand. -/
theorem neg (n : Fin 1024) (c : Fin 128) :
    val_main_v142 (F := Ideal) x0 x1 x2 x3 x4 x5 x6 x7 x8 x9 x10 x11 x12 x13 x14 x15 x16 x17 (ix2 n c)
      = ((-(pairRef cD (mat2 x1) (headRef cD cE (mat2 x0) (vec1 x2) (vec1 x3) (mat2 x4) (vec1 x5) (vec1 x6) (vec1 x7) (mat2 x8) (vec1 x9)) n c)) * cH) * Ideal.exp (-(Ideal.tanh (headRef cD cE (mat2 x0) (vec1 x10) (vec1 x11) (mat2 x12) (vec1 x13) (vec1 x14) (vec1 x15) (mat2 x16) (vec1 x17) n c))) := by
  rw [val_main_v142_apply, val_main_v139_apply, val_main_v137_apply, pair, val_main_v138_apply, val_main_cst_23_apply,
    val_main_v141_apply, val_main_v140_apply, val_main_v118_apply, head_b]
  rfl

/-- The row sums of the positive summand. -/
theorem rowpos (n : Fin 1024) :
    val_main_v143 (F := Ideal) x0 x1 x2 x3 x4 x5 x6 x7 x8 x9 x10 x11 x12 x13 x14 x15 x16 x17 (ix1 n) = ∑ c : Fin 128, val_main_v127 (F := Ideal) x0 x1 x2 x3 x4 x5 x6 x7 x8 x9 x10 x11 x12 x13 x14 x15 x16 x17 (ix2 n c) := by
  rw [val_main_v143_apply, val_main_cst_24_apply]
  simp only [Ideal.ofBits_def, Ideal.ofBits_zero_f32, zero_add]
  exact Finset.sum_congr rfl fun c _ => congrArg (val_main_v127 (F := Ideal) x0 x1 x2 x3 x4 x5 x6 x7 x8 x9 x10 x11 x12 x13 x14 x15 x16 x17) (funext fun a => Fin.ext (by match a with | ⟨0, _⟩ => rfl | ⟨1, _⟩ => rfl))

/-- The row sums of the negative summand. -/
theorem rowneg (n : Fin 1024) :
    val_main_v144 (F := Ideal) x0 x1 x2 x3 x4 x5 x6 x7 x8 x9 x10 x11 x12 x13 x14 x15 x16 x17 (ix1 n) = ∑ c : Fin 128, val_main_v142 (F := Ideal) x0 x1 x2 x3 x4 x5 x6 x7 x8 x9 x10 x11 x12 x13 x14 x15 x16 x17 (ix2 n c) := by
  rw [val_main_v144_apply, val_main_cst_25_apply]
  simp only [Ideal.ofBits_def, Ideal.ofBits_zero_f32, zero_add]
  exact Finset.sum_congr rfl fun c _ => congrArg (val_main_v142 (F := Ideal) x0 x1 x2 x3 x4 x5 x6 x7 x8 x9 x10 x11 x12 x13 x14 x15 x16 x17) (funext fun a => Fin.ext (by match a with | ⟨0, _⟩ => rfl | ⟨1, _⟩ => rfl))

/-- The sum over the rows of the differences of the row sums. -/
theorem total :
    val_main_v146 (F := Ideal) x0 x1 x2 x3 x4 x5 x6 x7 x8 x9 x10 x11 x12 x13 x14 x15 x16 x17 ix0
      = ∑ n : Fin 1024, (val_main_v143 (F := Ideal) x0 x1 x2 x3 x4 x5 x6 x7 x8 x9 x10 x11 x12 x13 x14 x15 x16 x17 (ix1 n) - val_main_v144 (F := Ideal) x0 x1 x2 x3 x4 x5 x6 x7 x8 x9 x10 x11 x12 x13 x14 x15 x16 x17 (ix1 n)) := by
  rw [val_main_v146_apply, val_main_cst_26_apply, sum_idx1]
  simp only [Ideal.ofBits_def, Ideal.ofBits_zero_f32, zero_add]
  rfl

/-- The reference program's result is the loss of the two heads' outputs and the pairwise term. -/
theorem ref_loss (x0 : S1024x512.Idx → EReal) (x1 : S1024x128.Idx → EReal) (x2 x3 : S512.Idx → EReal) (x4 : S512x1024.Idx → EReal) (x5 x6 x7 : S1024.Idx → EReal) (x8 : S1024x128.Idx → EReal) (x9 : S128.Idx → EReal) (x10 x11 : S512.Idx → EReal) (x12 : S512x1024.Idx → EReal) (x13 x14 x15 : S1024.Idx → EReal) (x16 : S1024x128.Idx → EReal) (x17 : S128.Idx → EReal) :
    val_main_v147 (F := Ideal) x0 x1 x2 x3 x4 x5 x6 x7 x8 x9 x10 x11 x12 x13 x14 x15 x16 x17 ix0
      = loss cD cH cM2 (mat2 x1)
          (headRef cD cE (mat2 x0) (vec1 x2) (vec1 x3) (mat2 x4) (vec1 x5) (vec1 x6) (vec1 x7) (mat2 x8) (vec1 x9))
          (headRef cD cE (mat2 x0) (vec1 x10) (vec1 x11) (mat2 x12) (vec1 x13) (vec1 x14) (vec1 x15) (mat2 x16) (vec1 x17))
          (pairRef cD (mat2 x1) (headRef cD cE (mat2 x0) (vec1 x2) (vec1 x3) (mat2 x4) (vec1 x5) (vec1 x6) (vec1 x7) (mat2 x8) (vec1 x9))) := by
  rw [val_main_v147_apply, total, val_main_cst_27_apply]
  simp only [rowpos, rowneg, pos, neg]
  rfl

end Cert.Club.Ref

end
-- ==== Proof.KSpec.lean ====
/-
  What the kernel program computes, as a function of its argument arrays.

  The samples x (argument 0) go through the two heads in their folded form, with the parameters of arguments 2–9
  (the mean head) and 10–17 (the log-variance head); the loss is taken from the two heads' outputs, the targets y
  (argument 1) and the pairwise term computed through the variance of y.
-/
import proofs.«161443_j9302899163339_2_alg».proof.KernelIdeal
import proofs.«161443_j9302899163339_2_alg».proof.Proof.Spec

noncomputable section

namespace Cert.Club.Ker

open Idealize.ShloMosaic Idealize.ShloMosaic.TcCoe Idealize.ShloMosaic.ValueIdx Idealize.SL.Sem
open Cert.KernelIdeal Cert.Club

variable (m : (ℓ : Loc nD τ sig) → Buf (Elt Ideal) ℓ)

/-- Argument 0 on core `c`, as a function of its index. -/
abbrev a0 (c : Dev nD) : S1024x512.Idx → EReal := m ((c : Thread nD τ).loc main_arg0)
/-- Argument 1 on core `c`, as a function of its index. -/
abbrev a1 (c : Dev nD) : S1024x128.Idx → EReal := m ((c : Thread nD τ).loc main_arg1)
/-- Argument 2 on core `c`, as a function of its index. -/
abbrev a2 (c : Dev nD) : S512.Idx → EReal := m ((c : Thread nD τ).loc main_arg2)
/-- Argument 3 on core `c`, as a function of its index. -/
abbrev a3 (c : Dev nD) : S512.Idx → EReal := m ((c : Thread nD τ).loc main_arg3)
/-- Argument 4 on core `c`, as a function of its index. -/
abbrev a4 (c : Dev nD) : S512x1024.Idx → EReal := m ((c : Thread nD τ).loc main_arg4)
/-- Argument 5 on core `c`, as a function of its index. -/
abbrev a5 (c : Dev nD) : S1024.Idx → EReal := m ((c : Thread nD τ).loc main_arg5)
/-- Argument 6 on core `c`, as a function of its index. -/
abbrev a6 (c : Dev nD) : S1024.Idx → EReal := m ((c : Thread nD τ).loc main_arg6)
/-- Argument 7 on core `c`, as a function of its index. -/
abbrev a7 (c : Dev nD) : S1024.Idx → EReal := m ((c : Thread nD τ).loc main_arg7)
/-- Argument 8 on core `c`, as a function of its index. -/
abbrev a8 (c : Dev nD) : S1024x128.Idx → EReal := m ((c : Thread nD τ).loc main_arg8)
/-- Argument 9 on core `c`, as a function of its index. -/
abbrev a9 (c : Dev nD) : S128.Idx → EReal := m ((c : Thread nD τ).loc main_arg9)
/-- Argument 10 on core `c`, as a function of its index. -/
abbrev a10 (c : Dev nD) : S512.Idx → EReal := m ((c : Thread nD τ).loc main_arg10)
/-- Argument 11 on core `c`, as a function of its index. -/
abbrev a11 (c : Dev nD) : S512.Idx → EReal := m ((c : Thread nD τ).loc main_arg11)
/-- Argument 12 on core `c`, as a function of its index. -/
abbrev a12 (c : Dev nD) : S512x1024.Idx → EReal := m ((c : Thread nD τ).loc main_arg12)
/-- Argument 13 on core `c`, as a function of its index. -/
abbrev a13 (c : Dev nD) : S1024.Idx → EReal := m ((c : Thread nD τ).loc main_arg13)
/-- Argument 14 on core `c`, as a function of its index. -/
abbrev a14 (c : Dev nD) : S1024.Idx → EReal := m ((c : Thread nD τ).loc main_arg14)
/-- Argument 15 on core `c`, as a function of its index. -/
abbrev a15 (c : Dev nD) : S1024.Idx → EReal := m ((c : Thread nD τ).loc main_arg15)
/-- Argument 16 on core `c`, as a function of its index. -/
abbrev a16 (c : Dev nD) : S1024x128.Idx → EReal := m ((c : Thread nD τ).loc main_arg16)
/-- Argument 17 on core `c`, as a function of its index. -/
abbrev a17 (c : Dev nD) : S128.Idx → EReal := m ((c : Thread nD τ).loc main_arg17)

/-- The mean head's output, folded form. -/
def muHead (c : Dev nD) : Fin 1024 → Fin 128 → EReal :=
  headFold cD cE (mat2 (a0 m c)) (vec1 (a2 m c)) (vec1 (a3 m c)) (mat2 (a4 m c)) (vec1 (a5 m c))
    (vec1 (a6 m c)) (vec1 (a7 m c)) (mat2 (a8 m c)) (vec1 (a9 m c))

/-- The log-variance head's output before its tanh, folded form. -/
def lvHead (c : Dev nD) : Fin 1024 → Fin 128 → EReal :=
  headFold cD cE (mat2 (a0 m c)) (vec1 (a10 m c)) (vec1 (a11 m c)) (mat2 (a12 m c)) (vec1 (a13 m c))
    (vec1 (a14 m c)) (vec1 (a15 m c)) (mat2 (a16 m c)) (vec1 (a17 m c))

/-- The kernel program's result. -/
def lossK (c : Dev nD) : EReal :=
  loss cD cH cM2 (mat2 (a1 m c)) (muHead m c) (lvHead m c) (pairFold cD (mat2 (a1 m c)) (muHead m c))

end Cert.Club.Ker

end
-- ==== Proof.KPiece.lean ====
/-
  What each control case leaves in the output's staging buffer.

  At grid point 0 the body runs the first head's branch, at point 1 the second's; either stores one whole block,
  the second folded layer of the hidden activations, computed from the blocks the point loaded.
-/
import proofs.«161443_j9302899163339_2_alg».proof.Proof.Gen.KernelIdeal.Frame
import Idealize.ShloMosaic.Lib.Pipeline.Value
import Idealize.ShloMosaic.Lib.Tactic

set_option maxRecDepth 16384

noncomputable section

namespace Cert.Club.Ker

open Idealize.ShloMosaic Idealize.ShloMosaic.TcCoe Idealize.ShloMosaic.Tactic Idealize.SL.Sem
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The first head's branch stores the second layer of the hidden activations of the first head's parameters. -/
theorem out_A (c : Dev nD) (i : grid0.Coords) (arg1 : Memref sig .tc .vmem S1024x512 .f32) (harg1 : arg1.IsWhole) (arg2 : Memref sig .tc .vmem S512 .f32) (harg2 : arg2.IsWhole) (arg3 : Memref sig .tc .vmem S512 .f32) (harg3 : arg3.IsWhole) (arg4 : Memref sig .tc .vmem S512x1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x128 .f32) (harg8 : arg8.IsWhole) (arg9 : Memref sig .tc .vmem S128 .f32) (harg9 : arg9.IsWhole) (arg10 : Memref sig .tc .vmem S512 .f32) (harg10 : arg10.IsWhole) (arg11 : Memref sig .tc .vmem S512 .f32) (harg11 : arg11.IsWhole) (arg12 : Memref sig .tc .vmem S512x1024 .f32) (harg12 : arg12.IsWhole) (arg13 : Memref sig .tc .vmem S1024 .f32) (harg13 : arg13.IsWhole) (arg14 : Memref sig .tc .vmem S1024 .f32) (harg14 : arg14.IsWhole) (arg15 : Memref sig .tc .vmem S1024 .f32) (harg15 : arg15.IsWhole) (arg16 : Memref sig .tc .vmem S1024x128 .f32) (harg16 : arg16.IsWhole) (arg17 : Memref sig .tc .vmem S128 .f32) (harg17 : arg17.IsWhole) (arg18 : Memref sig .tc .vmem S1x1024x128 .f32) (harg18 : arg18.IsWhole) (hc0 : cond0_0 i) (hc1 : ¬cond0_1 i)
    (x0 : Vec F S1024x512 .f32) (x1 : Vec F S512 .f32) (x2 : Vec F S512 .f32) (x3 : Vec F S512x1024 .f32) (x4 : Vec F S1024 .f32) (x5 : Vec F S1024 .f32) (x6 : Vec F S1024 .f32) (x7 : Vec F S1024x128 .f32) (x8 : Vec F S128 .f32) (x9 : Vec F S512 .f32) (x10 : Vec F S512 .f32) (x11 : Vec F S512x1024 .f32) (x12 : Vec F S1024 .f32) (x13 : Vec F S1024 .f32) (x14 : Vec F S1024 .f32) (x15 : Vec F S1024x128 .f32) (x16 : Vec F S128 .f32) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 x16
      = k0_pay1 x5 x6 x7 x8 (k0_pay3 x0 x1 x2 x3 x4) := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 x16)]
  unfold kernelRun0_A
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1024x512) hz2, View.ld_unit_zero (S := S512) hz1, View.ld_unit_zero (S := S512x1024) hz2, View.ld_unit_zero (S := S1024) hz1, View.ld_unit_zero (S := S1024x128) hz2, View.ld_unit_zero (S := S128) hz1]

/-- The second head's branch stores the same function of the second head's parameters. -/
theorem out_B (c : Dev nD) (i : grid0.Coords) (arg1 : Memref sig .tc .vmem S1024x512 .f32) (harg1 : arg1.IsWhole) (arg2 : Memref sig .tc .vmem S512 .f32) (harg2 : arg2.IsWhole) (arg3 : Memref sig .tc .vmem S512 .f32) (harg3 : arg3.IsWhole) (arg4 : Memref sig .tc .vmem S512x1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x128 .f32) (harg8 : arg8.IsWhole) (arg9 : Memref sig .tc .vmem S128 .f32) (harg9 : arg9.IsWhole) (arg10 : Memref sig .tc .vmem S512 .f32) (harg10 : arg10.IsWhole) (arg11 : Memref sig .tc .vmem S512 .f32) (harg11 : arg11.IsWhole) (arg12 : Memref sig .tc .vmem S512x1024 .f32) (harg12 : arg12.IsWhole) (arg13 : Memref sig .tc .vmem S1024 .f32) (harg13 : arg13.IsWhole) (arg14 : Memref sig .tc .vmem S1024 .f32) (harg14 : arg14.IsWhole) (arg15 : Memref sig .tc .vmem S1024 .f32) (harg15 : arg15.IsWhole) (arg16 : Memref sig .tc .vmem S1024x128 .f32) (harg16 : arg16.IsWhole) (arg17 : Memref sig .tc .vmem S128 .f32) (harg17 : arg17.IsWhole) (arg18 : Memref sig .tc .vmem S1x1024x128 .f32) (harg18 : arg18.IsWhole) (hc0 : ¬cond0_0 i) (hc1 : cond0_1 i)
    (x0 : Vec F S1024x512 .f32) (x1 : Vec F S512 .f32) (x2 : Vec F S512 .f32) (x3 : Vec F S512x1024 .f32) (x4 : Vec F S1024 .f32) (x5 : Vec F S1024 .f32) (x6 : Vec F S1024 .f32) (x7 : Vec F S1024x128 .f32) (x8 : Vec F S128 .f32) (x9 : Vec F S512 .f32) (x10 : Vec F S512 .f32) (x11 : Vec F S512x1024 .f32) (x12 : Vec F S1024 .f32) (x13 : Vec F S1024 .f32) (x14 : Vec F S1024 .f32) (x15 : Vec F S1024x128 .f32) (x16 : Vec F S128 .f32) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 x16
      = k0_pay2 x13 x14 x15 x16 (k0_pay4 x0 x9 x10 x11 x12) := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 x16)]
  unfold kernelRun0_B
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1024x512) hz2, View.ld_unit_zero (S := S512) hz1, View.ld_unit_zero (S := S512x1024) hz2, View.ld_unit_zero (S := S1024) hz1, View.ld_unit_zero (S := S1024x128) hz2, View.ld_unit_zero (S := S128) hz1]

end Cert.Club.Ker

end
-- ==== Proof.LibColSum.lean ====
/-
  Sums down the rows of a matrix, read at an index.

  A reduction by addition along the first axis of an [a, b] array of extended reals, started from zero, has at
  column q the sum over the rows p of the entries (p, q).
-/
import Idealize.ShloMosaic.PureOps.Ideal.Laws
import Idealize.ShloMosaic.Lib.ValueIdx

noncomputable section

namespace Cert.Lib.ColSum

open Idealize.ShloMosaic Idealize.ShloMosaic.ValueIdx

/-- A kernel's reduction by addition along axis 0 of an [a, b] array, at column q: the sum over the rows. -/
theorem colSum_apply {a b : ℕ} (x : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ x 0x00000000#32 h hφ hacc (ix1 q) = ∑ p : Fin a, x (ix2 p q) := by
  refine (Ideal.multiReduction_add_single x 0x00000000#32 h hφ hacc (ix1 q)).trans ?_
  show ∑ p : Fin a, x (h.lift (ix1 q) p) = _
  refine Finset.sum_congr rfl fun p _ => congrArg x (funext fun d => Fin.ext ?_)
  match d with
  | ⟨0, _⟩ => rfl
  | ⟨1, _⟩ => rfl

end Cert.Lib.ColSum

end
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.LibRowVector.lean ====
/-
  A vector laid along every row of a matrix, read at an index.

  A length-`n` vector is cast to a single row `[1, n]` and that row is repeated down `m` rows. Entry `(p, q)` of the
  result is entry `q` of the vector, whatever `p` is: the broadcast reads its one-row operand at row 0 and the same
  column, and the cast keeps the row-major position `0·n + q = q`.
-/
import Idealize.ShloMosaic.Lib.Pipeline.Value
import Idealize.ShloMosaic.Lib.ValueIdx

noncomputable section

namespace Cert.RowVector

open Idealize.ShloMosaic Idealize.ShloMosaic.ValueIdx

variable {α : Type} {m n : Nat}

/-- A vector cast to one row and repeated down `m` rows, at `(p, q)`, is the vector at `q`. -/
theorem rowBroadcast_apply (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have hrow := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have hcast := shapeCast_apply x h1 (ix2 (0 : Fin 1) q) (ix1 q) (by
    rw [Shape.rowMajor_val_two, Shape.rowMajor_val_one]; show q.val = 0 * n + q.val; omega)
  exact hrow.trans hcast

end Cert.RowVector

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.KLayer.lean ====
/-
  One folded layer, as the kernel computes it on whole blocks, read at an index.

  The block x : [r, a] is centred by its column means and scaled by (variance + stabiliser)^(-1/2), the statistics
  being sums down the rows divided by the row count; the gain g : [a] multiplies the rows of the weight W : [a, b],
  the shift bb : [a] enters the bias as ∑ₖ bbₖ · Wₖⱼ + cⱼ; the product of the normalised block with the scaled weight is
  taken into a zero accumulator and the bias row is added to every row. Read at (n, j) this is `layerFold`.
-/
import proofs.«161443_j9302899163339_2_alg».proof.Proof.Spec
import proofs.«161443_j9302899163339_2_alg».proof.Proof.LibColSum
import proofs.«161443_j9302899163339_2_alg».proof.Proof.LibRepeat
import proofs.«161443_j9302899163339_2_alg».proof.Proof.LibColumn
import proofs.«161443_j9302899163339_2_alg».proof.Proof.LibRowVector
import proofs.«161443_j9302899163339_2_alg».proof.Proof.LibPlainProduct
import Idealize.ShloMosaic.PureOps.Ideal.Laws
import Idealize.ShloMosaic.Lib.ValueIdx
import Idealize.ShloMosaic.Lib.Pipeline.Value

noncomputable section

namespace Cert.Club.Ker

open Idealize.ShloMosaic Idealize.ShloMosaic.ValueIdx Cert.Club

variable {r a b : ℕ}

/-- A vector cast to one row, at (0, q), is the vector at q. -/
theorem rowCast_apply {α : Type} {n : ℕ} (x : (⟨1, ![n]⟩ : Shape).Idx → α)
    (h : (⟨1, ![n]⟩ : Shape).ShapeCasts ⟨2, ![1, n]⟩) (q : Fin n) :
    shapeCast ⟨2, ![1, n]⟩ x h (ix2 (0 : Fin 1) q) = x (ix1 q) :=
  shapeCast_apply x h (ix2 (0 : Fin 1) q) (ix1 q) (by
    rw [Shape.rowMajor_val_two, Shape.rowMajor_val_one]; show q.val = 0 * n + q.val; omega)

section Stat

variable (hred : (⟨2, ![r, a]⟩ : Shape).Reduces [0] ⟨1, ![a]⟩) (hφ : FKind.Formats .f32)
  (hacc : (0x00000000#32 : BitVec 32) = FKind.add.neutral .f32 hφ)
  (hc : (⟨1, ![a]⟩ : Shape).ShapeCasts ⟨2, ![1, a]⟩) (hb : (⟨2, ![1, a]⟩ : Shape).Broadcasts ⟨2, ![r, a]⟩)

/-- The row of column sums divided by the row count. -/
def statRow (x : FVec Ideal ⟨2, ![r, a]⟩ .f32) : FVec Ideal ⟨2, ![1, a]⟩ .f32 :=
  divf (shapeCast ⟨2, ![1, a]⟩ (multiReduction .add [0] ⟨1, ![a]⟩ x 0x00000000#32 hred hφ hacc) hc)
    (broadcast ⟨2, ![1, a]⟩ (Scalar.ofBits .f32 0x44800000#32))

theorem statRow_apply (x : FVec Ideal ⟨2, ![r, a]⟩ .f32) (k : Fin a) :
    statRow hred hφ hacc hc x (ix2 (0 : Fin 1) k) = Ideal.div (∑ n : Fin r, x (ix2 n k)) cD := by
  show Ideal.div (shapeCast ⟨2, ![1, a]⟩ _ hc (ix2 (0 : Fin 1) k)) (Ideal.ofBits .f32 0x44800000#32) = _
  rw [rowCast_apply, Cert.Lib.ColSum.colSum_apply]

/-- The block minus its column means. -/
def centred (x : FVec Ideal ⟨2, ![r, a]⟩ .f32) : FVec Ideal ⟨2, ![r, a]⟩ .f32 :=
  subf x (broadcastTo ⟨2, ![r, a]⟩ (statRow hred hφ hacc hc x) hb)

theorem centred_apply (x : FVec Ideal ⟨2, ![r, a]⟩ .f32) (n : Fin r) (k : Fin a) :
    centred hred hφ hacc hc hb x (ix2 n k) = x (ix2 n k) - colMean cD (mat2 x) k := by
  show x (ix2 n k) - broadcastTo ⟨2, ![r, a]⟩ (statRow hred hφ hacc hc x) hb (ix2 n k) = _
  rw [Cert.Lib.Repeat.rowRepeat_apply, statRow_apply]
  rfl

/-- The centred block scaled by (variance + stabiliser)^(-1/2), column by column. -/
def normedK (x : FVec Ideal ⟨2, ![r, a]⟩ .f32) : FVec Ideal ⟨2, ![r, a]⟩ .f32 :=
  mulf (centred hred hφ hacc hc hb x)
    (broadcastTo ⟨2, ![r, a]⟩
      (rsqrt (addf (statRow hred hφ hacc hc (mulf (centred hred hφ hacc hc hb x) (centred hred hφ hacc hc hb x)))
        (broadcast ⟨2, ![1, a]⟩ (Scalar.ofBits .f32 0x3727C5AC#32)))) hb)

theorem normedK_apply (x : FVec Ideal ⟨2, ![r, a]⟩ .f32) (n : Fin r) (k : Fin a) :
    normedK hred hφ hacc hc hb x (ix2 n k) = normed cD cE (mat2 x) n k := by
  show centred hred hφ hacc hc hb x (ix2 n k) * broadcastTo ⟨2, ![r, a]⟩ _ hb (ix2 n k) = _
  rw [Cert.Lib.Repeat.rowRepeat_apply, centred_apply]
  show _ * Ideal.rsqrt (statRow hred hφ hacc hc (mulf (centred hred hφ hacc hc hb x) (centred hred hφ hacc hc hb x))
      (ix2 (0 : Fin 1) k) + Ideal.ofBits .f32 0x3727C5AC#32) = _
  rw [statRow_apply]
  simp only [mulf_apply, centred_apply]
  rfl

end Stat

section Fold

variable (hcc : (⟨1, ![a]⟩ : Shape).ShapeCasts ⟨2, ![a, 1]⟩) (hbb : (⟨2, ![a, 1]⟩ : Shape).Broadcasts ⟨2, ![a, b]⟩)
  (hred2 : (⟨2, ![a, b]⟩ : Shape).Reduces [0] ⟨1, ![b]⟩) (hφ : FKind.Formats .f32)
  (hacc : (0x00000000#32 : BitVec 32) = FKind.add.neutral .f32 hφ)

/-- A vector down the rows of a weight: entry (k, j) is gₖ · Wₖⱼ. -/
def foldW (g : FVec Ideal ⟨1, ![a]⟩ .f32) (W : FVec Ideal ⟨2, ![a, b]⟩ .f32) : FVec Ideal ⟨2, ![a, b]⟩ .f32 :=
  mulf (broadcastTo ⟨2, ![a, b]⟩ (shapeCast ⟨2, ![a, 1]⟩ g hcc) hbb) W

theorem foldW_apply (g : FVec Ideal ⟨1, ![a]⟩ .f32) (W : FVec Ideal ⟨2, ![a, b]⟩ .f32) (k : Fin a) (j : Fin b) :
    foldW hcc hbb g W (ix2 k j) = vec1 g k * mat2 W k j := by
  show broadcastTo ⟨2, ![a, b]⟩ (shapeCast ⟨2, ![a, 1]⟩ g hcc) hbb (ix2 k j) * W (ix2 k j) = _
  rw [Cert.Lib.Repeat.colRepeat_apply, Cert.Lib.Column.shapeCast_a_a1_apply]
  rfl

/-- The folded bias: ∑ₖ bbₖ · Wₖⱼ + cⱼ. -/
def foldC (bb : FVec Ideal ⟨1, ![a]⟩ .f32) (W : FVec Ideal ⟨2, ![a, b]⟩ .f32) (c : FVec Ideal ⟨1, ![b]⟩ .f32) :
    FVec Ideal ⟨1, ![b]⟩ .f32 :=
  addf (multiReduction .add [0] ⟨1, ![b]⟩ (foldW hcc hbb bb W) 0x00000000#32 hred2 hφ hacc) c

theorem foldC_apply (bb : FVec Ideal ⟨1, ![a]⟩ .f32) (W : FVec Ideal ⟨2, ![a, b]⟩ .f32) (c : FVec Ideal ⟨1, ![b]⟩ .f32)
    (j : Fin b) :
    foldC hcc hbb hred2 hφ hacc bb W c (ix1 j) = (∑ k : Fin a, vec1 bb k * mat2 W k j) + vec1 c j := by
  show multiReduction .add [0] ⟨1, ![b]⟩ (foldW hcc hbb bb W) 0x00000000#32 hred2 hφ hacc (ix1 j) + c (ix1 j) = _
  rw [Cert.Lib.ColSum.colSum_apply]
  simp only [foldW_apply]
  rfl

end Fold

section Layer

variable (hred : (⟨2, ![r, a]⟩ : Shape).Reduces [0] ⟨1, ![a]⟩) (hφ : FKind.Formats .f32)
  (hacc : (0x00000000#32 : BitVec 32) = FKind.add.neutral .f32 hφ)
  (hc : (⟨1, ![a]⟩ : Shape).ShapeCasts ⟨2, ![1, a]⟩) (hb : (⟨2, ![1, a]⟩ : Shape).Broadcasts ⟨2, ![r, a]⟩)
  (hcc : (⟨1, ![a]⟩ : Shape).ShapeCasts ⟨2, ![a, 1]⟩) (hbb : (⟨2, ![a, 1]⟩ : Shape).Broadcasts ⟨2, ![a, b]⟩)
  (hred2 : (⟨2, ![a, b]⟩ : Shape).Reduces [0] ⟨1, ![b]⟩) (hφ2 : FKind.Formats .f32)
  (hacc2 : (0x00000000#32 : BitVec 32) = FKind.add.neutral .f32 hφ2)
  (hc2 : (⟨1, ![b]⟩ : Shape).ShapeCasts ⟨2, ![1, b]⟩) (hb2 : (⟨2, ![1, b]⟩ : Shape).Broadcasts ⟨2, ![r, b]⟩)
  (d : DotDims ⟨2, ![r, a]⟩ ⟨2, ![a, b]⟩ ⟨2, ![r, b]⟩) (prec : Option ContractPrecision)
  (hlt : FTy.bf16.bits < FTy.f32.bits)

/-- The layer on a whole block: normalise, multiply by the scaled weight into zero, add the folded bias row. -/
def layerK (x : FVec Ideal ⟨2, ![r, a]⟩ .f32) (g bb : FVec Ideal ⟨1, ![a]⟩ .f32) (W : FVec Ideal ⟨2, ![a, b]⟩ .f32)
    (c : FVec Ideal ⟨1, ![b]⟩ .f32) : FVec Ideal ⟨2, ![r, b]⟩ .f32 :=
  addf (matmul d prec (truncf .bf16 (normedK hred hφ hacc hc hb x) hlt) (truncf .bf16 (foldW hcc hbb g W) hlt)
      (constant ⟨2, ![r, b]⟩ .f32 0x00000000#32))
    (broadcastTo ⟨2, ![r, b]⟩ (shapeCast ⟨2, ![1, b]⟩ (foldC hcc hbb hred2 hφ2 hacc2 bb W c) hc2) hb2)

theorem layerK_apply (hd : d = DotDims.plain r a b) (x : FVec Ideal ⟨2, ![r, a]⟩ .f32) (g bb : FVec Ideal ⟨1, ![a]⟩ .f32)
    (W : FVec Ideal ⟨2, ![a, b]⟩ .f32) (c : FVec Ideal ⟨1, ![b]⟩ .f32) (n : Fin r) (j : Fin b) :
    layerK hred hφ hacc hc hb hcc hbb hred2 hφ2 hacc2 hc2 hb2 d prec hlt x g bb W c (ix2 n j)
      = layerFold cD cE (mat2 x) (vec1 g) (vec1 bb) (mat2 W) (vec1 c) n j := by
  show matmul d prec (truncf .bf16 (normedK hred hφ hacc hc hb x) hlt) (truncf .bf16 (foldW hcc hbb g W) hlt)
        (constant ⟨2, ![r, b]⟩ .f32 0x00000000#32) (ix2 n j)
      + broadcastTo ⟨2, ![r, b]⟩ (shapeCast ⟨2, ![1, b]⟩ (foldC hcc hbb hred2 hφ2 hacc2 bb W c) hc2) hb2 (ix2 n j) = _
  rw [Cert.PlainProduct.matmul_plain_apply d hd, Cert.RowVector.rowBroadcast_apply, foldC_apply]
  simp only [truncf_apply, normedK_apply, foldW_apply]
  rfl

end Layer

end Cert.Club.Ker

end
-- ==== Proof.KPay.lean ====
/-
  The kernel body's arithmetic at an index.

  At a grid point the body computes, from the block of samples and one head's parameters, the hidden activations
  (first folded layer, then the positive part) and from them the head's output (second folded layer), stored as a
  block with a leading unit axis. Read at (0, n, c) the stored value is `headFold` of the blocks at (n, c).
-/
import proofs.«161443_j9302899163339_2_alg».proof.Proof.Gen.KernelIdeal.Skeleton
import proofs.«161443_j9302899163339_2_alg».proof.Proof.KLayer

noncomputable section

namespace Cert.Club.Ker

open Idealize.ShloMosaic Idealize.ShloMosaic.ValueIdx Cert.Club Cert.KernelIdeal Cert.KernelIdeal.Gen

/-- Both products contract the left operand's columns with the right operand's rows. -/
theorem dot1_plain : dot_S1024x512_S512x1024_S1024x1024_1_0_0_1_n_n = DotDims.plain 1024 512 1024 := rfl
theorem dot2_plain : dot_S1024x1024_S1024x128_S1024x128_1_0_0_1_n_n = DotDims.plain 1024 1024 128 := rfl

/-- The first layer of a head on whole blocks. -/
abbrev layer1 (x : FVec Ideal S1024x512 .f32) (g bb : FVec Ideal S512 .f32) (W : FVec Ideal S512x1024 .f32)
    (c : FVec Ideal S1024 .f32) : FVec Ideal S1024x1024 .f32 :=
  layerK reduces_S1024x512_S512 (.inl rfl) rfl shapeCasts_S512_S1x512 broadcasts_S1x512_S1024x512
    shapeCasts_S512_S512x1 broadcasts_S512x1_S512x1024 reduces_S512x1024_S1024 (.inl rfl) rfl
    shapeCasts_S1024_S1x1024 broadcasts_S1x1024_S1024x1024
    dot_S1024x512_S512x1024_S1024x1024_1_0_0_1_n_n none bitsLt_bf16_f32 x g bb W c

/-- The second layer of a head on whole blocks. -/
abbrev layer2 (h : FVec Ideal S1024x1024 .f32) (g bb : FVec Ideal S1024 .f32) (W : FVec Ideal S1024x128 .f32)
    (c : FVec Ideal S128 .f32) : FVec Ideal S1024x128 .f32 :=
  layerK reduces_S1024x1024_S1024 (.inl rfl) rfl shapeCasts_S1024_S1x1024 broadcasts_S1x1024_S1024x1024
    shapeCasts_S1024_S1024x1 broadcasts_S1024x1_S1024x128 reduces_S1024x128_S128 (.inl rfl) rfl
    shapeCasts_S128_S1x128 broadcasts_S1x128_S1024x128
    dot_S1024x1024_S1024x128_S1024x128_1_0_0_1_n_n none bitsLt_bf16_f32 h g bb W c

/-- The hidden activations the body computes are the positive part of the first layer. -/
theorem pay3_eq (x0 : FVec Ideal S1024x512 .f32) (x1 x2 : FVec Ideal S512 .f32) (x3 : FVec Ideal S512x1024 .f32)
    (x4 : FVec Ideal S1024 .f32) :
    k0_pay3 (F := Ideal) x0 x1 x2 x3 x4
      = maximumf (layer1 x0 x1 x2 x3 x4) (broadcast S1024x1024 (Scalar.ofBits .f32 0x00000000#32)) := rfl

/-- The stored block is the second layer of the hidden activations, with a leading unit axis. -/
theorem pay1_eq (x5 x6 : FVec Ideal S1024 .f32) (x7 : FVec Ideal S1024x128 .f32) (x8 : FVec Ideal S128 .f32)
    (h : FVec Ideal S1024x1024 .f32) :
    k0_pay1 (F := Ideal) x5 x6 x7 x8 h
      = shapeCast S1x1024x128 (layer2 h x5 x6 x7 x8) shapeCasts_S1024x128_S1x1024x128 := rfl

/-- The second head's payloads are the same functions. -/
theorem pay4_eq : @k0_pay4 Ideal _ = @k0_pay3 Ideal _ := rfl
theorem pay2_eq : @k0_pay2 Ideal _ = @k0_pay1 Ideal _ := rfl

theorem pay3_apply (x0 : FVec Ideal S1024x512 .f32) (x1 x2 : FVec Ideal S512 .f32) (x3 : FVec Ideal S512x1024 .f32)
    (x4 : FVec Ideal S1024 .f32) (n j : Fin 1024) :
    k0_pay3 (F := Ideal) x0 x1 x2 x3 x4 (ix2 n j)
      = relu (layerFold cD cE (mat2 x0) (vec1 x1) (vec1 x2) (mat2 x3) (vec1 x4)) n j := by
  rw [pay3_eq]
  show max (layer1 x0 x1 x2 x3 x4 (ix2 n j)) (Ideal.ofBits .f32 0x00000000#32) = _
  have h1 : layer1 x0 x1 x2 x3 x4 (ix2 n j)
      = layerFold cD cE (mat2 x0) (vec1 x1) (vec1 x2) (mat2 x3) (vec1 x4) n j :=
    layerK_apply _ _ _ _ _ _ _ _ _ _ _ _ _ _ _ dot1_plain x0 x1 x2 x3 x4 n j
  rw [h1, Ideal.ofBits_zero_f32]
  rfl

theorem mat2_pay3 (x0 : FVec Ideal S1024x512 .f32) (x1 x2 : FVec Ideal S512 .f32) (x3 : FVec Ideal S512x1024 .f32)
    (x4 : FVec Ideal S1024 .f32) :
    mat2 (k0_pay3 (F := Ideal) x0 x1 x2 x3 x4)
      = relu (layerFold cD cE (mat2 x0) (vec1 x1) (vec1 x2) (mat2 x3) (vec1 x4)) :=
  funext fun n => funext fun j => pay3_apply x0 x1 x2 x3 x4 n j

theorem pay1_apply (x5 x6 : FVec Ideal S1024 .f32) (x7 : FVec Ideal S1024x128 .f32) (x8 : FVec Ideal S128 .f32)
    (h : FVec Ideal S1024x1024 .f32) (n : Fin 1024) (c : Fin 128) :
    k0_pay1 (F := Ideal) x5 x6 x7 x8 h (ix3 (0 : Fin 1) n c)
      = layerFold cD cE (mat2 h) (vec1 x5) (vec1 x6) (mat2 x7) (vec1 x8) n c := by
  rw [pay1_eq]
  refine (shapeCast_addUnit_apply ![1024, 128] (layer2 h x5 x6 x7 x8) shapeCasts_S1024x128_S1x1024x128
    (ix3 (0 : Fin 1) n c)).trans ?_
  have e : (fun a : Fin 2 => ix3 (0 : Fin 1) n c a.succ) = ix2 n c :=
    funext fun a => by match a with | ⟨0, _⟩ => rfl | ⟨1, _⟩ => rfl
  rw [e]
  exact layerK_apply _ _ _ _ _ _ _ _ _ _ _ _ _ _ _ dot2_plain h x5 x6 x7 x8 n c

/-- What one grid point stores, at (0, n, c): the head in its folded form. -/
theorem head_apply (x0 : FVec Ideal S1024x512 .f32) (x1 x2 : FVec Ideal S512 .f32) (x3 : FVec Ideal S512x1024 .f32)
    (x4 x5 x6 : FVec Ideal S1024 .f32) (x7 : FVec Ideal S1024x128 .f32) (x8 : FVec Ideal S128 .f32)
    (n : Fin 1024) (c : Fin 128) :
    k0_pay1 (F := Ideal) x5 x6 x7 x8 (k0_pay3 (F := Ideal) x0 x1 x2 x3 x4) (ix3 (0 : Fin 1) n c)
      = headFold cD cE (mat2 x0) (vec1 x1) (vec1 x2) (mat2 x3) (vec1 x4) (vec1 x5) (vec1 x6) (mat2 x7) (vec1 x8) n c := by
  rw [pay1_apply, mat2_pay3]
  rfl

end Cert.Club.Ker

end
-- ==== Proof.KValue.lean ====
/-
  The region's output array after the run.

  Every input window's block is its whole array at every grid point. Point 0 stores the mean head's output in slab 0
  of the [2, 1024, 128] output, point 1 the log-variance head's in slab 1; the two slabs tile the array, so it ends
  holding the two heads, slab by slab.
-/
import proofs.«161443_j9302899163339_2_alg».proof.Proof.KPiece
import proofs.«161443_j9302899163339_2_alg».proof.Proof.KPay
import proofs.«161443_j9302899163339_2_alg».proof.Proof.KSpec
import Idealize.ShloMosaic.Lib.Pipeline.Value

set_option maxRecDepth 16384

noncomputable section

namespace Cert.Club.Ker

open Idealize.ShloMosaic Idealize.ShloMosaic.TcCoe Idealize.ShloMosaic.ValueIdx Idealize.SL.Sem
open Cert.KernelIdeal Cert.KernelIdeal.Gen Cert.Club
open Idealize.ShloMosaic.Pipeline (Dat)

variable (m : (ℓ : Loc nD τ sig) → Buf (Elt Ideal) ℓ) (ρ : Dev nD → PrngReg)

/-! ## Every input block is the whole argument array -/

theorem idx0_0 : ∀ t : Fin cfg0.N, win0_0.index t (0 : Fin 2) = 0 ∧ win0_0.index t (1 : Fin 2) = 0 :=
  (by decide +kernel : ∀ t : Fin grid0.N, _)

theorem iblk_0 (c : Dev nD) (t : Fin cfg0.N) : (iblk m c 0 t : S1024x512.Idx → EReal) = a0 m c := by
  funext y
  show V m c main_arg0 (((cfg0.win 0).blk t).view.emb y) = V m c main_arg0 y
  refine congrArg (V m c main_arg0) (funext fun a => Fin.ext ?_)
  match a with
  | ⟨0, _⟩ =>
    show win0_0.index t (0 : Fin 2) * 1024 + 1 * (y 0).val = (y 0).val
    rw [(idx0_0 t).1]; omega
  | ⟨1, _⟩ =>
    show win0_0.index t (1 : Fin 2) * 512 + 1 * (y 1).val = (y 1).val
    rw [(idx0_0 t).2]; omega

theorem idx0_1 : ∀ t : Fin cfg0.N, win0_1.index t (0 : Fin 1) = 0 :=
  (by decide +kernel : ∀ t : Fin grid0.N, _)

theorem iblk_1 (c : Dev nD) (t : Fin cfg0.N) : (iblk m c 1 t : S512.Idx → EReal) = a2 m c := by
  funext y
  show V m c main_arg2 (((cfg0.win 1).blk t).view.emb y) = V m c main_arg2 y
  refine congrArg (V m c main_arg2) (funext fun a => Fin.ext ?_)
  match a with
  | ⟨0, _⟩ =>
    show win0_1.index t (0 : Fin 1) * 512 + 1 * (y 0).val = (y 0).val
    rw [(idx0_1 t)]; omega

theorem idx0_2 : ∀ t : Fin cfg0.N, win0_2.index t (0 : Fin 1) = 0 :=
  (by decide +kernel : ∀ t : Fin grid0.N, _)

theorem iblk_2 (c : Dev nD) (t : Fin cfg0.N) : (iblk m c 2 t : S512.Idx → EReal) = a3 m c := by
  funext y
  show V m c main_arg3 (((cfg0.win 2).blk t).view.emb y) = V m c main_arg3 y
  refine congrArg (V m c main_arg3) (funext fun a => Fin.ext ?_)
  match a with
  | ⟨0, _⟩ =>
    show win0_2.index t (0 : Fin 1) * 512 + 1 * (y 0).val = (y 0).val
    rw [(idx0_2 t)]; omega

theorem idx0_3 : ∀ t : Fin cfg0.N, win0_3.index t (0 : Fin 2) = 0 ∧ win0_3.index t (1 : Fin 2) = 0 :=
  (by decide +kernel : ∀ t : Fin grid0.N, _)

theorem iblk_3 (c : Dev nD) (t : Fin cfg0.N) : (iblk m c 3 t : S512x1024.Idx → EReal) = a4 m c := by
  funext y
  show V m c main_arg4 (((cfg0.win 3).blk t).view.emb y) = V m c main_arg4 y
  refine congrArg (V m c main_arg4) (funext fun a => Fin.ext ?_)
  match a with
  | ⟨0, _⟩ =>
    show win0_3.index t (0 : Fin 2) * 512 + 1 * (y 0).val = (y 0).val
    rw [(idx0_3 t).1]; omega
  | ⟨1, _⟩ =>
    show win0_3.index t (1 : Fin 2) * 1024 + 1 * (y 1).val = (y 1).val
    rw [(idx0_3 t).2]; omega

theorem idx0_4 : ∀ t : Fin cfg0.N, win0_4.index t (0 : Fin 1) = 0 :=
  (by decide +kernel : ∀ t : Fin grid0.N, _)

theorem iblk_4 (c : Dev nD) (t : Fin cfg0.N) : (iblk m c 4 t : S1024.Idx → EReal) = a5 m c := by
  funext y
  show V m c main_arg5 (((cfg0.win 4).blk t).view.emb y) = V m c main_arg5 y
  refine congrArg (V m c main_arg5) (funext fun a => Fin.ext ?_)
  match a with
  | ⟨0, _⟩ =>
    show win0_4.index t (0 : Fin 1) * 1024 + 1 * (y 0).val = (y 0).val
    rw [(idx0_4 t)]; omega

theorem idx0_5 : ∀ t : Fin cfg0.N, win0_5.index t (0 : Fin 1) = 0 :=
  (by decide +kernel : ∀ t : Fin grid0.N, _)

theorem iblk_5 (c : Dev nD) (t : Fin cfg0.N) : (iblk m c 5 t : S1024.Idx → EReal) = a6 m c := by
  funext y
  show V m c main_arg6 (((cfg0.win 5).blk t).view.emb y) = V m c main_arg6 y
  refine congrArg (V m c main_arg6) (funext fun a => Fin.ext ?_)
  match a with
  | ⟨0, _⟩ =>
    show win0_5.index t (0 : Fin 1) * 1024 + 1 * (y 0).val = (y 0).val
    rw [(idx0_5 t)]; omega

theorem idx0_6 : ∀ t : Fin cfg0.N, win0_6.index t (0 : Fin 1) = 0 :=
  (by decide +kernel : ∀ t : Fin grid0.N, _)

theorem iblk_6 (c : Dev nD) (t : Fin cfg0.N) : (iblk m c 6 t : S1024.Idx → EReal) = a7 m c := by
  funext y
  show V m c main_arg7 (((cfg0.win 6).blk t).view.emb y) = V m c main_arg7 y
  refine congrArg (V m c main_arg7) (funext fun a => Fin.ext ?_)
  match a with
  | ⟨0, _⟩ =>
    show win0_6.index t (0 : Fin 1) * 1024 + 1 * (y 0).val = (y 0).val
    rw [(idx0_6 t)]; omega

theorem idx0_7 : ∀ t : Fin cfg0.N, win0_7.index t (0 : Fin 2) = 0 ∧ win0_7.index t (1 : Fin 2) = 0 :=
  (by decide +kernel : ∀ t : Fin grid0.N, _)

theorem iblk_7 (c : Dev nD) (t : Fin cfg0.N) : (iblk m c 7 t : S1024x128.Idx → EReal) = a8 m c := by
  funext y
  show V m c main_arg8 (((cfg0.win 7).blk t).view.emb y) = V m c main_arg8 y
  refine congrArg (V m c main_arg8) (funext fun a => Fin.ext ?_)
  match a with
  | ⟨0, _⟩ =>
    show win0_7.index t (0 : Fin 2) * 1024 + 1 * (y 0).val = (y 0).val
    rw [(idx0_7 t).1]; omega
  | ⟨1, _⟩ =>
    show win0_7.index t (1 : Fin 2) * 128 + 1 * (y 1).val = (y 1).val
    rw [(idx0_7 t).2]; omega

theorem idx0_8 : ∀ t : Fin cfg0.N, win0_8.index t (0 : Fin 1) = 0 :=
  (by decide +kernel : ∀ t : Fin grid0.N, _)

theorem iblk_8 (c : Dev nD) (t : Fin cfg0.N) : (iblk m c 8 t : S128.Idx → EReal) = a9 m c := by
  funext y
  show V m c main_arg9 (((cfg0.win 8).blk t).view.emb y) = V m c main_arg9 y
  refine congrArg (V m c main_arg9) (funext fun a => Fin.ext ?_)
  match a with
  | ⟨0, _⟩ =>
    show win0_8.index t (0 : Fin 1) * 128 + 1 * (y 0).val = (y 0).val
    rw [(idx0_8 t)]; omega

theorem idx0_9 : ∀ t : Fin cfg0.N, win0_9.index t (0 : Fin 1) = 0 :=
  (by decide +kernel : ∀ t : Fin grid0.N, _)

theorem iblk_9 (c : Dev nD) (t : Fin cfg0.N) : (iblk m c 9 t : S512.Idx → EReal) = a10 m c := by
  funext y
  show V m c main_arg10 (((cfg0.win 9).blk t).view.emb y) = V m c main_arg10 y
  refine congrArg (V m c main_arg10) (funext fun a => Fin.ext ?_)
  match a with
  | ⟨0, _⟩ =>
    show win0_9.index t (0 : Fin 1) * 512 + 1 * (y 0).val = (y 0).val
    rw [(idx0_9 t)]; omega

theorem idx0_10 : ∀ t : Fin cfg0.N, win0_10.index t (0 : Fin 1) = 0 :=
  (by decide +kernel : ∀ t : Fin grid0.N, _)

theorem iblk_10 (c : Dev nD) (t : Fin cfg0.N) : (iblk m c 10 t : S512.Idx → EReal) = a11 m c := by
  funext y
  show V m c main_arg11 (((cfg0.win 10).blk t).view.emb y) = V m c main_arg11 y
  refine congrArg (V m c main_arg11) (funext fun a => Fin.ext ?_)
  match a with
  | ⟨0, _⟩ =>
    show win0_10.index t (0 : Fin 1) * 512 + 1 * (y 0).val = (y 0).val
    rw [(idx0_10 t)]; omega

theorem idx0_11 : ∀ t : Fin cfg0.N, win0_11.index t (0 : Fin 2) = 0 ∧ win0_11.index t (1 : Fin 2) = 0 :=
  (by decide +kernel : ∀ t : Fin grid0.N, _)

theorem iblk_11 (c : Dev nD) (t : Fin cfg0.N) : (iblk m c 11 t : S512x1024.Idx → EReal) = a12 m c := by
  funext y
  show V m c main_arg12 (((cfg0.win 11).blk t).view.emb y) = V m c main_arg12 y
  refine congrArg (V m c main_arg12) (funext fun a => Fin.ext ?_)
  match a with
  | ⟨0, _⟩ =>
    show win0_11.index t (0 : Fin 2) * 512 + 1 * (y 0).val = (y 0).val
    rw [(idx0_11 t).1]; omega
  | ⟨1, _⟩ =>
    show win0_11.index t (1 : Fin 2) * 1024 + 1 * (y 1).val = (y 1).val
    rw [(idx0_11 t).2]; omega

theorem idx0_12 : ∀ t : Fin cfg0.N, win0_12.index t (0 : Fin 1) = 0 :=
  (by decide +kernel : ∀ t : Fin grid0.N, _)

theorem iblk_12 (c : Dev nD) (t : Fin cfg0.N) : (iblk m c 12 t : S1024.Idx → EReal) = a13 m c := by
  funext y
  show V m c main_arg13 (((cfg0.win 12).blk t).view.emb y) = V m c main_arg13 y
  refine congrArg (V m c main_arg13) (funext fun a => Fin.ext ?_)
  match a with
  | ⟨0, _⟩ =>
    show win0_12.index t (0 : Fin 1) * 1024 + 1 * (y 0).val = (y 0).val
    rw [(idx0_12 t)]; omega

theorem idx0_13 : ∀ t : Fin cfg0.N, win0_13.index t (0 : Fin 1) = 0 :=
  (by decide +kernel : ∀ t : Fin grid0.N, _)

theorem iblk_13 (c : Dev nD) (t : Fin cfg0.N) : (iblk m c 13 t : S1024.Idx → EReal) = a14 m c := by
  funext y
  show V m c main_arg14 (((cfg0.win 13).blk t).view.emb y) = V m c main_arg14 y
  refine congrArg (V m c main_arg14) (funext fun a => Fin.ext ?_)
  match a with
  | ⟨0, _⟩ =>
    show win0_13.index t (0 : Fin 1) * 1024 + 1 * (y 0).val = (y 0).val
    rw [(idx0_13 t)]; omega

theorem idx0_14 : ∀ t : Fin cfg0.N, win0_14.index t (0 : Fin 1) = 0 :=
  (by decide +kernel : ∀ t : Fin grid0.N, _)

theorem iblk_14 (c : Dev nD) (t : Fin cfg0.N) : (iblk m c 14 t : S1024.Idx → EReal) = a15 m c := by
  funext y
  show V m c main_arg15 (((cfg0.win 14).blk t).view.emb y) = V m c main_arg15 y
  refine congrArg (V m c main_arg15) (funext fun a => Fin.ext ?_)
  match a with
  | ⟨0, _⟩ =>
    show win0_14.index t (0 : Fin 1) * 1024 + 1 * (y 0).val = (y 0).val
    rw [(idx0_14 t)]; omega

theorem idx0_15 : ∀ t : Fin cfg0.N, win0_15.index t (0 : Fin 2) = 0 ∧ win0_15.index t (1 : Fin 2) = 0 :=
  (by decide +kernel : ∀ t : Fin grid0.N, _)

theorem iblk_15 (c : Dev nD) (t : Fin cfg0.N) : (iblk m c 15 t : S1024x128.Idx → EReal) = a16 m c := by
  funext y
  show V m c main_arg16 (((cfg0.win 15).blk t).view.emb y) = V m c main_arg16 y
  refine congrArg (V m c main_arg16) (funext fun a => Fin.ext ?_)
  match a with
  | ⟨0, _⟩ =>
    show win0_15.index t (0 : Fin 2) * 1024 + 1 * (y 0).val = (y 0).val
    rw [(idx0_15 t).1]; omega
  | ⟨1, _⟩ =>
    show win0_15.index t (1 : Fin 2) * 128 + 1 * (y 1).val = (y 1).val
    rw [(idx0_15 t).2]; omega

theorem idx0_16 : ∀ t : Fin cfg0.N, win0_16.index t (0 : Fin 1) = 0 :=
  (by decide +kernel : ∀ t : Fin grid0.N, _)

theorem iblk_16 (c : Dev nD) (t : Fin cfg0.N) : (iblk m c 16 t : S128.Idx → EReal) = a17 m c := by
  funext y
  show V m c main_arg17 (((cfg0.win 16).blk t).view.emb y) = V m c main_arg17 y
  refine congrArg (V m c main_arg17) (funext fun a => Fin.ext ?_)
  match a with
  | ⟨0, _⟩ =>
    show win0_16.index t (0 : Fin 1) * 128 + 1 * (y 0).val = (y 0).val
    rw [(idx0_16 t)]; omega

/-! ## What a point stores, at an index -/

/-- One head from blocks that are the argument arrays. -/
theorem head_block (b0 : S1024x512.Idx → EReal) (b1 b2 : S512.Idx → EReal) (b3 : S512x1024.Idx → EReal)
    (b4 b5 b6 : S1024.Idx → EReal) (b7 : S1024x128.Idx → EReal) (b8 : S128.Idx → EReal)
    (d0 : S1024x512.Idx → EReal) (d1 d2 : S512.Idx → EReal) (d3 : S512x1024.Idx → EReal)
    (d4 d5 d6 : S1024.Idx → EReal) (d7 : S1024x128.Idx → EReal) (d8 : S128.Idx → EReal)
    (e0 : b0 = d0) (e1 : b1 = d1) (e2 : b2 = d2) (e3 : b3 = d3) (e4 : b4 = d4) (e5 : b5 = d5) (e6 : b6 = d6)
    (e7 : b7 = d7) (e8 : b8 = d8) (n : Fin 1024) (cc : Fin 128) :
    k0_pay1 (F := Ideal) b5 b6 b7 b8 (k0_pay3 (F := Ideal) b0 b1 b2 b3 b4) (ix3 (0 : Fin 1) n cc)
      = headFold cD cE (mat2 d0) (vec1 d1) (vec1 d2) (mat2 d3) (vec1 d4) (vec1 d5) (vec1 d6) (mat2 d7) (vec1 d8) n cc := by
  subst e0 e1 e2 e3 e4 e5 e6 e7 e8
  exact head_apply b0 b1 b2 b3 b4 b5 b6 b7 b8 n cc

/-- Point 0 leaves the mean head's output in the staging buffer. -/
theorem stored_A (c : Dev nD) (u : Fin 1) (n : Fin 1024) (cc : Fin 128) :
    outsAt0 m c t0_0.val t0_0.isLt (ix3 u n cc) = muHead m c n cc := by
  have h0 : t0_0.val % 2 = 0 := rfl
  have h1 : ¬t0_0.val % 2 = 1 := by decide
  obtain rfl : u = 0 := Subsingleton.elim _ _
  rw [outsAt0_A m c t0_0 h0 h1,
    out_A c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) (ms0_16 t0_0) (hs0_16 t0_0) (ms0_17 t0_0) (hs0_17 t0_0) ((hcond0_0 t0_0).mpr h0) (fun h => h1 ((hcond0_1 t0_0).mp h)) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0)]
  exact head_block (iblk m c 0 t0_0) (iblk m c 1 t0_0) (iblk m c 2 t0_0) (iblk m c 3 t0_0) (iblk m c 4 t0_0)
    (iblk m c 5 t0_0) (iblk m c 6 t0_0) (iblk m c 7 t0_0) (iblk m c 8 t0_0)
    (a0 m c) (a2 m c) (a3 m c) (a4 m c) (a5 m c) (a6 m c) (a7 m c) (a8 m c) (a9 m c)
    (iblk_0 m c t0_0) (iblk_1 m c t0_0) (iblk_2 m c t0_0) (iblk_3 m c t0_0) (iblk_4 m c t0_0)
    (iblk_5 m c t0_0) (iblk_6 m c t0_0) (iblk_7 m c t0_0) (iblk_8 m c t0_0) n cc

/-- Point 1 leaves the log-variance head's output there. -/
theorem stored_B (c : Dev nD) (u : Fin 1) (n : Fin 1024) (cc : Fin 128) :
    outsAt0 m c t0_1.val t0_1.isLt (ix3 u n cc) = lvHead m c n cc := by
  have h0 : ¬t0_1.val % 2 = 0 := by decide
  have h1 : t0_1.val % 2 = 1 := rfl
  obtain rfl : u = 0 := Subsingleton.elim _ _
  rw [outsAt0_B m c t0_1 h0 h1,
    out_B c (grid0.coords t0_1) (ms0_0 t0_1) (hs0_0 t0_1) (ms0_1 t0_1) (hs0_1 t0_1) (ms0_2 t0_1) (hs0_2 t0_1) (ms0_3 t0_1) (hs0_3 t0_1) (ms0_4 t0_1) (hs0_4 t0_1) (ms0_5 t0_1) (hs0_5 t0_1) (ms0_6 t0_1) (hs0_6 t0_1) (ms0_7 t0_1) (hs0_7 t0_1) (ms0_8 t0_1) (hs0_8 t0_1) (ms0_9 t0_1) (hs0_9 t0_1) (ms0_10 t0_1) (hs0_10 t0_1) (ms0_11 t0_1) (hs0_11 t0_1) (ms0_12 t0_1) (hs0_12 t0_1) (ms0_13 t0_1) (hs0_13 t0_1) (ms0_14 t0_1) (hs0_14 t0_1) (ms0_15 t0_1) (hs0_15 t0_1) (ms0_16 t0_1) (hs0_16 t0_1) (ms0_17 t0_1) (hs0_17 t0_1) (fun h => h0 ((hcond0_0 t0_1).mp h)) ((hcond0_1 t0_1).mpr h1) (iblk m c 0 t0_1) (iblk m c 1 t0_1) (iblk m c 2 t0_1) (iblk m c 3 t0_1) (iblk m c 4 t0_1) (iblk m c 5 t0_1) (iblk m c 6 t0_1) (iblk m c 7 t0_1) (iblk m c 8 t0_1) (iblk m c 9 t0_1) (iblk m c 10 t0_1) (iblk m c 11 t0_1) (iblk m c 12 t0_1) (iblk m c 13 t0_1) (iblk m c 14 t0_1) (iblk m c 15 t0_1) (iblk m c 16 t0_1)]
  show k0_pay1 (F := Ideal) (iblk m c 13 t0_1) (iblk m c 14 t0_1) (iblk m c 15 t0_1) (iblk m c 16 t0_1)
      (k0_pay3 (F := Ideal) (iblk m c 0 t0_1) (iblk m c 9 t0_1) (iblk m c 10 t0_1) (iblk m c 11 t0_1) (iblk m c 12 t0_1))
      (ix3 (0 : Fin 1) n cc) = _
  exact head_block (iblk m c 0 t0_1) (iblk m c 9 t0_1) (iblk m c 10 t0_1) (iblk m c 11 t0_1) (iblk m c 12 t0_1)
    (iblk m c 13 t0_1) (iblk m c 14 t0_1) (iblk m c 15 t0_1) (iblk m c 16 t0_1)
    (a0 m c) (a10 m c) (a11 m c) (a12 m c) (a13 m c) (a14 m c) (a15 m c) (a16 m c) (a17 m c)
    (iblk_0 m c t0_1) (iblk_9 m c t0_1) (iblk_10 m c t0_1) (iblk_11 m c t0_1) (iblk_12 m c t0_1)
    (iblk_13 m c t0_1) (iblk_14 m c t0_1) (iblk_15 m c t0_1) (iblk_16 m c t0_1) n cc

/-! ## The output array -/

/-- The two heads, slab by slab. -/
def headArr (c : Dev nD) : S2x1024x128.Idx → EReal := fun i =>
  if (i 0).val = 0 then muHead m c ⟨(i 1).val, (i 1).isLt⟩ ⟨(i 2).val, (i 2).isLt⟩
  else lvHead m c ⟨(i 1).val, (i 1).isLt⟩ ⟨(i 2).val, (i 2).isLt⟩

theorem headArr_zero (c : Dev nD) (n : Fin 1024) (cc : Fin 128) : headArr m c (ix3 (0 : Fin 2) n cc) = muHead m c n cc := rfl
theorem headArr_one (c : Dev nD) (n : Fin 1024) (cc : Fin 128) : headArr m c (ix3 (1 : Fin 2) n cc) = lvHead m c n cc := rfl

/-- The output window's block at point t is slab t. -/
theorem idx0_17 : ∀ t : Fin cfg0.N, win0_17.index t (0 : Fin 3) = t.val ∧ win0_17.index t (1 : Fin 3) = 0
    ∧ win0_17.index t (2 : Fin 3) = 0 :=
  (by decide +kernel : ∀ t : Fin grid0.N, _)

theorem emb17 (t : Fin cfg0.N) (h : Fin 2) (ht : t.val = h.val) (u : Fin 1) (n : Fin 1024) (cc : Fin 128) :
    ((cfg0.win 17).blk t).view.emb (ix3 u n cc) = ix3 h n cc := by
  obtain ⟨e0, e1, e2⟩ := idx0_17 t
  funext a
  apply Fin.ext
  match a with
  | ⟨0, _⟩ =>
    show win0_17.index t (0 : Fin 3) * 1 + 1 * u.val = h.val
    have := u.isLt; omega
  | ⟨1, _⟩ =>
    show win0_17.index t (1 : Fin 3) * 1024 + 1 * n.val = n.val
    omega
  | ⟨2, _⟩ =>
    show win0_17.index t (2 : Fin 3) * 128 + 1 * cc.val = cc.val
    omega

/-- What point t writes back is slab t of the two heads. -/
theorem flushed_eq (c : Dev nD) (t : Fin cfg0.N) :
    (dats m 0 c).flushed 17 t = ((cfg0.win 17).blk t).view.read (Elt Ideal) (headArr m c) := by
  show (cfg0.win 17).cut (grid0.coords t) ((dats m 0 c).after 17 t) = _
  rw [after0_17]
  funext y
  obtain ⟨u, n, cc, rfl⟩ : ∃ (u : Fin 1) (n : Fin 1024) (cc : Fin 128), y = ix3 u n cc := ⟨y 0, y 1, y 2, eq_ix3 y⟩
  rcases fin_N0 t with rfl | rfl
  · refine (stored_A m c u n cc).trans ?_
    show _ = headArr m c (((cfg0.win 17).blk t0_0).view.emb (ix3 u n cc))
    rw [emb17 t0_0 (0 : Fin 2) rfl u n cc]
    rfl
  · refine (stored_B m c u n cc).trans ?_
    show _ = headArr m c (((cfg0.win 17).blk t0_1).view.emb (ix3 u n cc))
    rw [emb17 t0_1 (1 : Fin 2) rfl u n cc]
    rfl

/-- An index of the output array is in point t's block iff each coordinate is in the block's range on its axis. -/
theorem mem_blk17 (t : Fin cfg0.N) (i : S2x1024x128.Idx) :
    i ∈ ((cfg0.win 17).blk t).view.set ↔ ∀ a : Fin 3, win0_17.index t a * S1x1024x128.size a ≤ (i a).val
      ∧ (i a).val < win0_17.index t a * S1x1024x128.size a + S1x1024x128.size a := by
  show i ∈ ((View.whole main_v0).slice (win0_17.rect t)).set ↔ _
  rw [View.set_slice_whole, Rect.mem_set_unit]
  exact Iff.rfl

/-- The region's output array after the run holds the two heads. -/
theorem final17 (c : Dev nD) : (dats m 0 c).arrAt 17 cfg0.N = headArr m c :=
  (dats m 0 c).arrAt_eq_of_cover 17 (headArr m c) (fun t _ => flushed_eq m c t) fun i => by
    have hi0 : (i 0).val < 2 := (i 0).isLt
    have hi1 : (i 1).val < 1024 := (i 1).isLt
    have hi2 : (i 2).val < 128 := (i 2).isLt
    refine ⟨⟨(i 0).val, by rw [show cfg0.N = 2 from N_0]; exact hi0⟩, flush0_17 _, ?_⟩
    rw [mem_blk17]
    obtain ⟨e0, e1, e2⟩ := idx0_17 ⟨(i 0).val, by rw [show cfg0.N = 2 from N_0]; exact hi0⟩
    intro a
    match a with
    | ⟨0, _⟩ =>
      show win0_17.index _ (0 : Fin 3) * 1 ≤ (i 0).val ∧ (i 0).val < win0_17.index _ (0 : Fin 3) * 1 + 1
      rw [e0]; dsimp only; omega
    | ⟨1, _⟩ =>
      show win0_17.index _ (1 : Fin 3) * 1024 ≤ (i 1).val ∧ (i 1).val < win0_17.index _ (1 : Fin 3) * 1024 + 1024
      rw [e1]; omega
    | ⟨2, _⟩ =>
      show win0_17.index _ (2 : Fin 3) * 128 ≤ (i 2).val ∧ (i 2).val < win0_17.index _ (2 : Fin 3) * 128 + 128
      rw [e2]; omega

end Cert.Club.Ker

end
-- ==== Proof.LibFoldRead.lean ====
/-
  Reading a fold of host operations at a buffer, with two-operand results kept as an application.

  `StableHlo.after ops V` is the buffer contents after a line of host operations from contents `V`. The library reads such
  a fold at a buffer by one simplifier pass over the operations' result lemmas; a two-operand operation's result is its
  function applied to the two operands' contents, and when that function is a literal `fun a b => …` whose body puts the
  operands inside a dependent pair (a concatenation's list of shaped pieces) the pass substitutes them there and can no
  longer rewrite them. Here the same result is stated through `held2 f x y := f x y`, which the simplifier does not open:
  the operands stay ordinary arguments, and `held2` unfolds by definition when two readings are compared.
  Also: the fold over a concatenation of two lines is the fold of the second over the fold of the first.
-/
import Idealize.ShloMosaic.Lib.StableHlo.Run

namespace Idealize.ShloMosaic.StableHlo

variable {τ : Topo} {sig : RefSig} {Val : EltTy → Type}

/-- A two-argument function applied, as a constant the simplifier leaves closed. -/
def held2 {α β γ : Type} (f : α → β → γ) (x : α) (y : β) : γ := f x y

theorem held2_def {α β γ : Type} (f : α → β → γ) (x : α) (y : β) : held2 f x y = f x y := rfl

/-- A two-operand operation's result at its own result buffer: its function, kept closed, of the operands' contents. -/
theorem binary_result_held {a b y : Ref sig .tc} (f : a.ty.Contents Val → b.ty.Contents Val → y.ty.Contents Val) (ha hb hy)
    (F : Valuation τ sig Val) :
    (binary (τ := τ) a b y f ha hb hy).result F (no_index (Proc.devRef .tc y))
      = held2 f (F (Proc.devRef .tc a)) (F (Proc.devRef .tc b)) :=
  binary_result a b y f ha hb hy F

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Reads `after ops V (Proc.devRef .tc r)` for a literal line `ops` in one simplifier pass, as the library's
    `after_results_simp` does, with every two-operand result kept as `held2 f _ _`. -/
macro "fold_results" : tactic =>
  `(tactic| (simp (disch := decide) only [after_cons, after_nil,
      nullary_result', unary_result', binary_result_held, ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.KTail.lean ====
/-
  The kernel program's host tail as a closed formula.

  After its one region the kernel program runs a line of host operations on the region's result `o` (two slabs: the first
  head's output and the second head's output before its `tanh`) and on the targets `y`. The line is transcribed here
  stage by stage as pure functions of `o` and `y` (`k1` … `k41`, numbered as the operations' results), the buffer
  contents after the line are shown to be the last stage, and each stage is read at explicit coordinates: the two slabs,
  the positive summand, the column means of `y` and of `y²`, the variance of `y`, the pairwise term through that variance
  (`pairFold`), the negative summand, the row sums, the sum over the rows and the final division (`loss`).
-/
import proofs.«161443_j9302899163339_2_alg».proof.Proof.Gen.KernelIdeal.Launch
import proofs.«161443_j9302899163339_2_alg».proof.Proof.Spec
import proofs.«161443_j9302899163339_2_alg».proof.Proof.LibFoldRead
import Idealize.ShloMosaic.Lib.StableHlo.Run
import Idealize.ShloMosaic.Lib.Pipeline.Value
import Idealize.ShloMosaic.Lib.ValueIdx
import Idealize.ShloMosaic.PureOps.Ideal.Laws

noncomputable section

namespace Cert.Club.Ker

open Cert.KernelIdeal Cert.KernelIdeal.Gen Cert.Club Idealize.ShloMosaic Idealize.ShloMosaic.ValueIdx Idealize.ShloMosaic.StableHlo

/-! ## The layout operations and the sums of the line, each with its reading at an index -/

section Reads

/-- A scalar constant laid over a two-axis array. -/
def splat (b : BitVec 32) : FVec Ideal S1024x128 .f32 :=
  broadcastInDim S1024x128 ![] bcast_S_S1024x128 (constant S_ .f32 b)
theorem splat_apply (b : BitVec 32) (i : S1024x128.Idx) : splat b i = Ideal.ofBits .f32 b :=
  broadcastInDim_apply _ bcast_S_S1024x128 _ i ix0 (fun a => a.elim0)

/-- A scalar constant laid over a one-row array. -/
def splat1 (b : BitVec 32) : FVec Ideal S1x128 .f32 :=
  broadcastInDim S1x128 ![] bcast_S_S1x128 (constant S_ .f32 b)
theorem splat1_apply (b : BitVec 32) (i : S1x128.Idx) : splat1 b i = Ideal.ofBits .f32 b :=
  broadcastInDim_apply _ bcast_S_S1x128 _ i ix0 (fun a => a.elim0)

/-- The one row's index. -/
abbrev z1 : Fin 1 := ⟨0, Nat.one_pos⟩

/-- A vector as one row. -/
def asRow (x : FVec Ideal S128 .f32) : FVec Ideal S1x128 .f32 := broadcastInDim S1x128 ![1] bcast_S128_S1x128_1 x
theorem asRow_apply (x : FVec Ideal S128 .f32) (c : Fin 128) : asRow x (ix2 z1 c) = x (ix1 c) :=
  broadcastInDim_apply _ bcast_S128_S1x128_1 x (ix2 z1 c) (ix1 c) (fun a => match a with
    | ⟨0, _⟩ => by show c.val = if (128 : Nat) = 1 then 0 else c.val; rw [if_neg (by decide)])

/-- One row laid along the rows. -/
def alongRows (x : FVec Ideal S1x128 .f32) : FVec Ideal S1024x128 .f32 :=
  broadcastInDim S1024x128 ![0, 1] bcast_S1x128_S1024x128_0_1 x
theorem alongRows_apply (x : FVec Ideal S1x128 .f32) (n : Fin 1024) (c : Fin 128) : alongRows x (ix2 n c) = x (ix2 z1 c) :=
  broadcastInDim_apply _ bcast_S1x128_S1024x128_0_1 x (ix2 n c) (ix2 z1 c) (fun a => match a with
    | ⟨0, _⟩ => by show (0 : Nat) = if (1 : Nat) = 1 then 0 else n.val; rw [if_pos rfl]
    | ⟨1, _⟩ => by show c.val = if (128 : Nat) = 1 then 0 else c.val; rw [if_neg (by decide)])

/-- The sum down the rows. -/
def colSum (x : FVec Ideal S1024x128 .f32) : FVec Ideal S128 .f32 :=
  Host.reduceAdd x (constant S_ .f32 0x00000000#32) reducesTo_S1024x128_S128_d0 h_S_
theorem colSum_apply (x : FVec Ideal S1024x128 .f32) (c : Fin 128) : colSum x (ix1 c) = ∑ n : Fin 1024, x (ix2 n c) := by
  unfold colSum
  simp only [Host.reduceAdd, Ideal.hostReduceAdd_def]
  rw [Ideal.hostReduceAdd_single reducesTo_S1024x128_S128_d0 (by decide), constant_apply, Ideal.ofBits_zero_f32, zero_add]
  exact Finset.sum_congr rfl fun n _ => congrArg x (funext fun a => Fin.ext (by match a with | ⟨0, _⟩ => rfl | ⟨1, _⟩ => rfl))

/-- The sum along each row. -/
def rowSum (x : FVec Ideal S1024x128 .f32) : FVec Ideal S1024 .f32 :=
  Host.reduceAdd x (constant S_ .f32 0x00000000#32) reducesTo_S1024x128_S1024_d1 h_S_
theorem rowSum_apply (x : FVec Ideal S1024x128 .f32) (n : Fin 1024) : rowSum x (ix1 n) = ∑ c : Fin 128, x (ix2 n c) := by
  unfold rowSum
  simp only [Host.reduceAdd, Ideal.hostReduceAdd_def]
  rw [Ideal.hostReduceAdd_single reducesTo_S1024x128_S1024_d1 (by decide), constant_apply, Ideal.ofBits_zero_f32, zero_add]
  exact Finset.sum_congr rfl fun c _ => congrArg x (funext fun a => Fin.ext (by match a with | ⟨0, _⟩ => rfl | ⟨1, _⟩ => rfl))

/-- A one-axis index set is its coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The sum of a one-axis array. -/
def total (x : FVec Ideal S1024 .f32) : FVec Ideal S_ .f32 :=
  Host.reduceAdd x (constant S_ .f32 0x00000000#32) reducesTo_S1024_S_d0 h_S_
theorem total_apply (x : FVec Ideal S1024 .f32) : total x ix0 = ∑ n : Fin 1024, x (ix1 n) := by
  unfold total
  simp only [Host.reduceAdd, Ideal.hostReduceAdd_def]
  rw [Ideal.hostReduceAdd_total reducesTo_S1024_S_d0 (fun b => b.elim0), constant_apply, Ideal.ofBits_zero_f32, zero_add]
  exact sum_idx1 x

/-- Slab `p` of a three-axis array, with its unit axis dropped. -/
def slab0 (o : FVec Ideal S2x1024x128 .f32) : FVec Ideal S1024x128 .f32 :=
  shapeCast S1024x128 (extractStridedSlice S1x1024x128 ![0, 0, 0] o slices_S2x1024x128_S1x1024x128_0_0_0)
    shapeCasts_S1x1024x128_S1024x128
def slab1 (o : FVec Ideal S2x1024x128 .f32) : FVec Ideal S1024x128 .f32 :=
  shapeCast S1024x128 (extractStridedSlice S1x1024x128 ![1, 0, 0] o slices_S2x1024x128_S1x1024x128_1_0_0)
    shapeCasts_S1x1024x128_S1024x128

theorem slab0_apply (o : FVec Ideal S2x1024x128 .f32) (n : Fin 1024) (c : Fin 128) :
    slab0 o (ix2 n c) = o (ix3 (0 : Fin 2) n c) := by
  unfold slab0
  refine (shapeCast_dropUnit_apply ![1024, 128] _ shapeCasts_S1x1024x128_S1024x128 (ix2 n c)).trans ?_
  apply extractStridedSlice_apply
  intro a
  match a with
  | ⟨0, _⟩ => rfl
  | ⟨1, _⟩ => exact (Nat.zero_add _).symm
  | ⟨2, _⟩ => exact (Nat.zero_add _).symm

theorem slab1_apply (o : FVec Ideal S2x1024x128 .f32) (n : Fin 1024) (c : Fin 128) :
    slab1 o (ix2 n c) = o (ix3 (1 : Fin 2) n c) := by
  unfold slab1
  refine (shapeCast_dropUnit_apply ![1024, 128] _ shapeCasts_S1x1024x128_S1024x128 (ix2 n c)).trans ?_
  apply extractStridedSlice_apply
  intro a
  match a with
  | ⟨0, _⟩ => rfl
  | ⟨1, _⟩ => exact (Nat.zero_add _).symm
  | ⟨2, _⟩ => exact (Nat.zero_add _).symm

theorem hdivf_apply {s : Shape} (a b : FVec Ideal s .f32) (i : s.Idx) : Host.divf a b i = Ideal.div (a i) (b i) := rfl
theorem hnegf_apply {s : Shape} (a : FVec Ideal s .f32) (i : s.Idx) : Host.negf a i = -(a i) := rfl
theorem hexp_apply {s : Shape} (a : FVec Ideal s .f32) (i : s.Idx) : Host.exp a i = Ideal.exp (a i) := rfl
theorem htanh_apply {s : Shape} (a : FVec Ideal s .f32) (i : s.Idx) : Host.tanh a i = Ideal.tanh (a i) := rfl

end Reads

/-! ## The stages -/

section Stages

variable (o : S2x1024x128.Idx → EReal) (y : S1024x128.Idx → EReal)

/-- The first head's output (operations 1 and 2). -/
def k2 : FVec Ideal S1024x128 .f32 := slab0 o
/-- The second head's output before its `tanh` (operations 3 and 4). -/
def k4 : FVec Ideal S1024x128 .f32 := slab1 o
def k5 : FVec Ideal S1024x128 .f32 := Host.tanh (k4 o)
def k6 : FVec Ideal S1024x128 .f32 := subf (k2 o) y
def k7 : FVec Ideal S1024x128 .f32 := mulf (k6 o y) (k6 o y)
def k8 : FVec Ideal S1024x128 .f32 := Host.negf (k7 o y)
def k9 : FVec Ideal S1024x128 .f32 := splat 0x3F000000#32
def k10 : FVec Ideal S1024x128 .f32 := mulf (k8 o y) k9
def k11 : FVec Ideal S1024x128 .f32 := splat 0xC0000000#32
def k12 : FVec Ideal S1024x128 .f32 := mulf k11 (k5 o)
def k13 : FVec Ideal S1024x128 .f32 := Host.exp (k12 o)
/-- The positive summand. -/
def k14 : FVec Ideal S1024x128 .f32 := mulf (k10 o y) (k13 o)
/-- The column sums of the targets. -/
def k15 : FVec Ideal S128 .f32 := colSum y
def k16 : FVec Ideal S1x128 .f32 := asRow (k15 y)
def k17 : FVec Ideal S1x128 .f32 := splat1 0x44800000#32
/-- The column means of the targets. -/
def k18 : FVec Ideal S1x128 .f32 := Host.divf (k16 y) k17
def k19 : FVec Ideal S1024x128 .f32 := mulf y y
def k20 : FVec Ideal S128 .f32 := colSum (k19 y)
def k21 : FVec Ideal S1x128 .f32 := asRow (k20 y)
def k22 : FVec Ideal S1x128 .f32 := splat1 0x44800000#32
/-- The column means of the squared targets. -/
def k23 : FVec Ideal S1x128 .f32 := Host.divf (k21 y) k22
def k24 : FVec Ideal S1x128 .f32 := mulf (k18 y) (k18 y)
/-- The column variances of the targets. -/
def k25 : FVec Ideal S1x128 .f32 := subf (k23 y) (k24 y)
def k26 : FVec Ideal S1024x128 .f32 := alongRows (k18 y)
def k27 : FVec Ideal S1024x128 .f32 := subf (k2 o) (k26 y)
def k28 : FVec Ideal S1024x128 .f32 := mulf (k27 o y) (k27 o y)
def k29 : FVec Ideal S1024x128 .f32 := alongRows (k25 y)
/-- The pairwise term. -/
def k30 : FVec Ideal S1024x128 .f32 := addf (k29 y) (k28 o y)
def k31 : FVec Ideal S1024x128 .f32 := Host.negf (k30 o y)
def k32 : FVec Ideal S1024x128 .f32 := splat 0x3F000000#32
def k33 : FVec Ideal S1024x128 .f32 := mulf (k31 o y) k32
def k34 : FVec Ideal S1024x128 .f32 := Host.negf (k5 o)
def k35 : FVec Ideal S1024x128 .f32 := Host.exp (k34 o)
/-- The negative summand. -/
def k36 : FVec Ideal S1024x128 .f32 := mulf (k33 o y) (k35 o)
def k37 : FVec Ideal S1024 .f32 := rowSum (k14 o y)
def k38 : FVec Ideal S1024 .f32 := rowSum (k36 o y)
def k39 : FVec Ideal S1024 .f32 := subf (k37 o y) (k38 o y)
def k40 : FVec Ideal S_ .f32 := total (k39 o y)
/-- The line's result. -/
def k41 : FVec Ideal S_ .f32 := Host.divf (k40 o y) (constant S_ .f32 0x44800000#32)

end Stages

/-- The buffer contents after the host line, at its result, are the last stage of the region's result and the targets. -/
theorem tail_eq (V : Valuation τ sig (Elt Ideal)) :
    StableHlo.after (hostOps1 (F := Ideal)) V (Proc.devRef .tc main_v41)
      = k41 (V (Proc.devRef .tc main_v0)) (V (Proc.devRef .tc main_arg1)) := by
  after_results_simp
  rfl

/-! ## The stages at an index -/

section AtIndex

variable (o : S2x1024x128.Idx → EReal) (y : S1024x128.Idx → EReal)

/-- The positive summand. -/
theorem pos_apply (n : Fin 1024) (c : Fin 128) :
    k14 o y (ix2 n c)
      = ((-((o (ix3 (0 : Fin 2) n c) - mat2 y n c) * (o (ix3 (0 : Fin 2) n c) - mat2 y n c))) * cH)
          * Ideal.exp (cM2 * Ideal.tanh (o (ix3 (1 : Fin 2) n c))) := by
  simp only [k14, k13, k12, k11, k10, k9, k8, k7, k6, k5, k4, k2, mulf_apply, subf_apply, hnegf_apply, hexp_apply, htanh_apply,
    splat_apply, slab0_apply, slab1_apply]
  rfl

/-- The column means of the targets. -/
theorem ymean_apply (c : Fin 128) : k18 y (ix2 z1 c) = colMean cD (mat2 y) c := by
  simp only [k18, k17, k16, k15, hdivf_apply, asRow_apply, splat1_apply, colSum_apply]
  rfl

/-- The column means of the squared targets. -/
theorem ysq_apply (c : Fin 128) : k23 y (ix2 z1 c) = Ideal.div (∑ j, mat2 y j c * mat2 y j c) cD := by
  simp only [k23, k22, k21, k20, k19, hdivf_apply, asRow_apply, splat1_apply, colSum_apply, mulf_apply]
  rfl

/-- The pairwise term, through the variance of the targets. -/
theorem pair_apply (n : Fin 1024) (c : Fin 128) :
    k30 o y (ix2 n c) = pairFold cD (mat2 y) (fun n c => o (ix3 (0 : Fin 2) n c)) n c := by
  simp only [k30, k29, k28, k27, k26, k25, k24, k2, addf_apply, mulf_apply, subf_apply, alongRows_apply, slab0_apply,
    ymean_apply, ysq_apply]
  rfl

/-- The negative summand. -/
theorem neg_apply (n : Fin 1024) (c : Fin 128) :
    k36 o y (ix2 n c)
      = ((-(pairFold cD (mat2 y) (fun n c => o (ix3 (0 : Fin 2) n c)) n c)) * cH) * Ideal.exp (-(Ideal.tanh (o (ix3 (1 : Fin 2) n c)))) := by
  simp only [k36, k35, k34, k33, k32, k31, k5, k4, mulf_apply, hnegf_apply, hexp_apply, htanh_apply, splat_apply, pair_apply,
    slab1_apply]

/-- The last stage is the loss. -/
theorem k41_loss :
    k41 o y ix0 = loss cD cH cM2 (mat2 y) (fun n c => o (ix3 (0 : Fin 2) n c)) (fun n c => o (ix3 (1 : Fin 2) n c)) (pairFold cD (mat2 y) (fun n c => o (ix3 (0 : Fin 2) n c))) := by
  simp only [k41, k40, k39, k38, k37, hdivf_apply, total_apply, subf_apply, rowSum_apply, pos_apply, neg_apply]
  rfl

end AtIndex

/-- The kernel program's host tail computes the loss of the two slabs of the region's result, with the pairwise term
    through the variance of the targets. -/
theorem tail_loss (V : Valuation τ sig (Elt Ideal)) :
    (StableHlo.after (hostOps1 (F := Ideal)) V (Proc.devRef .tc main_v41) : S_.Idx → EReal) ix0
      = loss cD cH cM2 (mat2 (V (Proc.devRef .tc main_arg1) : S1024x128.Idx → EReal))
          (fun n c => (V (Proc.devRef .tc main_v0) : S2x1024x128.Idx → EReal) (ix3 (0 : Fin 2) n c))
          (fun n c => (V (Proc.devRef .tc main_v0) : S2x1024x128.Idx → EReal) (ix3 (1 : Fin 2) n c))
          (pairFold cD (mat2 (V (Proc.devRef .tc main_arg1) : S1024x128.Idx → EReal))
            (fun n c => (V (Proc.devRef .tc main_v0) : S2x1024x128.Idx → EReal) (ix3 (0 : Fin 2) n c))) :=
  (congrFun (tail_eq V) ix0).trans (k41_loss _ _)

end Cert.Club.Ker

end
-- ==== Proof.KRun.lean ====
/-
  The kernel program's run, read: after the region and the lines that follow it, the result holds the loss computed
  from the two folded heads, and every argument array is as it was.
-/
import proofs.«161443_j9302899163339_2_alg».proof.Proof.KValue
import proofs.«161443_j9302899163339_2_alg».proof.Proof.KTail
import Idealize.ShloMosaic.Lib.StableHlo.Run
import Idealize.ShloMosaic.Lib.Pipeline.Value

set_option maxRecDepth 16384

noncomputable section

namespace Cert.Club.Ker

open Idealize.ShloMosaic Idealize.ShloMosaic.TcCoe Idealize.ShloMosaic.ValueIdx Idealize.SL.Sem
open Idealize.ShloMosaic.StableHlo
open Cert.KernelIdeal Cert.KernelIdeal.Gen Cert.Club
open Idealize.ShloMosaic.Pipeline (Dat)

variable (m : (ℓ : Loc nD τ sig) → Buf (Elt Ideal) ℓ) (ρ : Dev nD → PrngReg)

/-- A list of one list, flattened, is that list. -/
theorem flatten_one {α : Type} (l : List α) : [l].flatten = l := by
  simp only [List.flatten_cons, List.flatten_nil, List.append_nil]

/-- From any contents with the output array at the two heads and the targets in place, the lines after the region
    compute the loss of the folded heads. -/
theorem tail_value_of (W : Valuation τ sig (Elt Ideal)) (c : Dev nD)
    (hv0 : W (Proc.devRef .tc main_v0) = headArr m c) (hy : W (Proc.devRef .tc main_arg1) = a1 m c) :
    (StableHlo.after (hostOps1 (F := Ideal)) W (Proc.devRef .tc main_v41) : S_.Idx → EReal) ix0 = lossK m c := by
  refine (tail_loss W).trans ?_
  rw [hv0, hy]
  have e0 : (fun (n : Fin 1024) (c' : Fin 128) => headArr m c (ix3 (0 : Fin 2) n c')) = muHead m c := rfl
  have e1 : (fun (n : Fin 1024) (c' : Fin 128) => headArr m c (ix3 (1 : Fin 2) n c')) = lvHead m c := rfl
  rw [e0, e1]
  rfl

/-- After the region the output array holds the two heads and the targets are untouched. -/
theorem tail_value (c : Dev nD) :
    Pipeline.afterTail₀ cfgs (dats m) 0 (V0 m) [hostOps1] c main_v41 = fun _ => lossK m c := by
  have hv0 : Pipeline.withArrays (cfgs 0).spec c (V0 m c) (fun w => (dats m 0 c).arrAt w (cfgs 0).N)
      (Proc.devRef .tc main_v0) = headArr m c :=
    (Pipeline.withArrays_arr spec0 launch0.win.arr_inj c _ _ 17).trans (final17 m c)
  have hy : Pipeline.withArrays (cfgs 0).spec c (V0 m c) (fun w => (dats m 0 c).arrAt w (cfgs 0).N)
      (Proc.devRef .tc main_arg1) = a1 m c :=
    (Pipeline.withArrays_of_ne _ c (V0 m c) _ main_arg1
      (by exact (by decide : ∀ w, Pipeline.arrRef spec0 w ≠ main_arg1))).trans (V_main_arg1 m c)
  funext i
  obtain rfl : i = ix0 := eq_ix0 i
  unfold Pipeline.afterTail₀
  rw [flatten_one]
  exact tail_value_of m _ c hv0 hy

-- nineteen equations read off the run's post at once: past the default elaboration budget
set_option maxHeartbeats 1600000 in
/-- The kernel program's run: it ends with the loss of the folded heads in its result, the arguments unchanged. -/
theorem kernel_run :
    θ_run (defs (F := Ideal)) (onTc (τ := τ) (main (F := Ideal))) ⟨m, fun _ => 0, ρ⟩ (fun r => ∀ c : Dev nD,
      r.2.mem ((c.tc : Thread nD τ).loc main_v41) = (fun _ => lossK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c =>
    ⟨((h c).2 main_v41 (Pipeline.mem_restRefs_of main_v41 (by decide) (by decide))).trans (tail_value m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c))),
      ((h c).1 8).trans (((dats m 0 c).arrAt_in 8 rfl _).trans ((A_eq m c 8).trans (V_main_arg9 m c))),
      ((h c).1 9).trans (((dats m 0 c).arrAt_in 9 rfl _).trans ((A_eq m c 9).trans (V_main_arg10 m c))),
      ((h c).1 10).trans (((dats m 0 c).arrAt_in 10 rfl _).trans ((A_eq m c 10).trans (V_main_arg11 m c))),
      ((h c).1 11).trans (((dats m 0 c).arrAt_in 11 rfl _).trans ((A_eq m c 11).trans (V_main_arg12 m c))),
      ((h c).1 12).trans (((dats m 0 c).arrAt_in 12 rfl _).trans ((A_eq m c 12).trans (V_main_arg13 m c))),
      ((h c).1 13).trans (((dats m 0 c).arrAt_in 13 rfl _).trans ((A_eq m c 13).trans (V_main_arg14 m c))),
      ((h c).1 14).trans (((dats m 0 c).arrAt_in 14 rfl _).trans ((A_eq m c 14).trans (V_main_arg15 m c))),
      ((h c).1 15).trans (((dats m 0 c).arrAt_in 15 rfl _).trans ((A_eq m c 15).trans (V_main_arg16 m c))),
      ((h c).1 16).trans (((dats m 0 c).arrAt_in 16 rfl _).trans ((A_eq m c 16).trans (V_main_arg17 m c)))⟩) (run_main m ρ)

end Cert.Club.Ker

end
-- ==== Proof.lean ====
/- On finite inputs the kernel program and the reference compute the same loss over the extended reals. The kernel
   evaluates the two heads with each normalisation's affine map folded into the weights and the bias, and the pairwise
   term through the variance of the targets; the reference applies the affine map before the product and takes the mean
   of the squared differences directly. With every argument real, distributivity makes the folded and the direct layers
   equal, and the mean square distance to a point is the variance plus the squared distance of the point to the mean. -/
import proofs.«161443_j9302899163339_2_alg».proof.Defs
import proofs.«161443_j9302899163339_2_alg».proof.Proof.Gen.Kernel
import proofs.«161443_j9302899163339_2_alg».proof.Proof.Gen.Kernel.Skeleton
import proofs.«161443_j9302899163339_2_alg».proof.Proof.Gen.Kernel.Launch
import proofs.«161443_j9302899163339_2_alg».proof.Proof.Gen.Kernel.Points
import proofs.«161443_j9302899163339_2_alg».proof.Proof.Gen.Kernel.Frame
import proofs.«161443_j9302899163339_2_alg».proof.Proof.Gen.KernelIdeal
import proofs.«161443_j9302899163339_2_alg».proof.Proof.Gen.KernelIdeal.Skeleton
import proofs.«161443_j9302899163339_2_alg».proof.Proof.Gen.KernelIdeal.Launch
import proofs.«161443_j9302899163339_2_alg».proof.Proof.Gen.KernelIdeal.Points
import proofs.«161443_j9302899163339_2_alg».proof.Proof.Gen.KernelIdeal.Frame
import proofs.«161443_j9302899163339_2_alg».proof.Proof.Gen.ReferenceIdeal
import proofs.«161443_j9302899163339_2_alg».proof.Proof.Gen.ReferenceIdeal.Run
import proofs.«161443_j9302899163339_2_alg».proof.Proof.Gen.ReferenceIdeal.Read
import proofs.«161443_j9302899163339_2_alg».proof.Proof.Gen.Pre_finite_inputs
import Idealize.ShloMosaic.Adequacy
import Idealize.ShloMosaic.Init
import proofs.«161443_j9302899163339_2_alg».proof.Proof.Bridge
import proofs.«161443_j9302899163339_2_alg».proof.Proof.Finite
import proofs.«161443_j9302899163339_2_alg».proof.Proof.RefLoss
import proofs.«161443_j9302899163339_2_alg».proof.Proof.KSpec
import proofs.«161443_j9302899163339_2_alg».proof.Proof.KRun

noncomputable section

namespace Cert.Proof

open Idealize.ShloMosaic Idealize.ShloMosaic.TcCoe Idealize.ShloMosaic.ValueIdx Idealize.SL.Sem
open Cert.Club Cert.Finite

/-- The word-level kernel runs and leaves its arguments unchanged: its generated frame. -/
theorem frame_Kernel : Cert.frame_Kernel := fun m ρ _ => Cert.Kernel.Gen.frame m ρ

/-- The idealized kernel runs and leaves its arguments unchanged: its generated frame. -/
theorem frame_KernelIdeal : Cert.frame_KernelIdeal := fun m ρ _ => Cert.KernelIdeal.Gen.frame m ρ

/-- The reference runs and leaves its arguments unchanged: its generated run with the result dropped. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On memories that agree on the arguments, under the precondition, the reference's result is the kernel's: the
    reference computes the loss through the direct heads and the direct pairwise term, the kernel through the folded
    heads and the variance form, and on real arguments the two agree. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Value.res_main_v147 m' c = fun _ => Cert.Club.Ker.lossK m c := by
  funext i
  obtain ⟨e0, e1, e2, e3, e4, e5, e6, e7, e8, e9, e10, e11, e12, e13, e14, e15, e16, e17⟩ := hagree
  obtain ⟨r0, r1, r2, r3, r4, r5, r6, r7, r8, r9, r10, r11, r12, r13, r14, r15, r16, r17⟩ := Cert.Club.Fin.real_args m hpre c
  rw [Cert.ReferenceIdeal.Read.val_main_v147_eq, e0, e1, e2, e3, e4, e5, e6, e7, e8, e9, e10, e11, e12, e13, e14, e15, e16, e17, eq_ix0 i, Cert.Club.Ref.ref_loss]
  unfold Cert.Club.Ker.lossK Cert.Club.Ker.muHead Cert.Club.Ker.lvHead
  exact (loss_fold_eq_ref (mat2 (Cert.Club.Ker.a1 m c)) (mat2 (Cert.Club.Ker.a0 m c))
    (vec1 (Cert.Club.Ker.a2 m c)) (vec1 (Cert.Club.Ker.a3 m c)) (mat2 (Cert.Club.Ker.a4 m c)) (vec1 (Cert.Club.Ker.a5 m c)) (vec1 (Cert.Club.Ker.a6 m c)) (vec1 (Cert.Club.Ker.a7 m c)) (mat2 (Cert.Club.Ker.a8 m c)) (vec1 (Cert.Club.Ker.a9 m c))
    (vec1 (Cert.Club.Ker.a10 m c)) (vec1 (Cert.Club.Ker.a11 m c)) (mat2 (Cert.Club.Ker.a12 m c)) (vec1 (Cert.Club.Ker.a13 m c)) (vec1 (Cert.Club.Ker.a14 m c)) (vec1 (Cert.Club.Ker.a15 m c)) (mat2 (Cert.Club.Ker.a16 m c)) (vec1 (Cert.Club.Ker.a17 m c))
    (fun p q => r1 (ix2 p q)) (fun p q => r0 (ix2 p q))
    (fun p => r2 (ix1 p)) (fun p => r3 (ix1 p)) (fun p q => r4 (ix2 p q)) (fun p => r5 (ix1 p)) (fun p => r6 (ix1 p)) (fun p => r7 (ix1 p)) (fun p q => r8 (ix2 p q)) (fun p => r9 (ix1 p))
    (fun p => r10 (ix1 p)) (fun p => r11 (ix1 p)) (fun p q => r12 (ix2 p q)) (fun p => r13 (ix1 p)) (fun p => r14 (ix1 p)) (fun p => r15 (ix1 p)) (fun p q => r16 (ix2 p q)) (fun p => r17 (ix1 p))).symm

/-- At the ideal instance both programs run, end with equal results and unchanged arguments. -/
theorem algebraic : Cert.algebraic_KernelIdeal_ReferenceIdeal := by
  intro m ρ m' ρ' hpre hagree
  refine ⟨fun c => (fun _ => Cert.Club.Ker.lossK m c), Cert.Club.Ker.kernel_run m ρ, ?_⟩
  exact (θ_run Cert.ReferenceIdeal.defs _ _).mono
    (fun _ h c => ⟨(h c).1.trans (result_eq m m' hpre c (hagree c)), (h c).2⟩)
    (Cert.ReferenceIdeal.Value.run (F := Ideal) m' ρ')

theorem claim : Cert.Claim := ⟨Cert.Kernel.Gen.facts, Cert.KernelIdeal.Gen.facts, Cert.ReferenceIdeal.Gen.facts,
  Cert.Pre_finite_inputs.Gen.facts, frame_Kernel, frame_KernelIdeal, frame_ReferenceIdeal, preserves, algebraic⟩

end Cert.Proof

end
